-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v117)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v117) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v126) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S100000 : Shape := ⟨1, ![100000]⟩
abbrev S2x3200000 : Shape := ⟨2, ![2, 3200000]⟩
abbrev S2x3 : Shape := ⟨2, ![2, 3]⟩
abbrev S6x32 : Shape := ⟨2, ![6, 32]⟩
abbrev S32 : Shape := ⟨1, ![32]⟩
abbrev S32x64 : Shape := ⟨2, ![32, 64]⟩
abbrev S64 : Shape := ⟨1, ![64]⟩
abbrev S64x64 : Shape := ⟨2, ![64, 64]⟩
abbrev S64x32 : Shape := ⟨2, ![64, 32]⟩
abbrev S32x3 : Shape := ⟨2, ![32, 3]⟩
abbrev S3 : Shape := ⟨1, ![3]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S2x3 : S_.BroadcastsInDim S2x3 (![] : Fin 0 → Fin S2x3.rank)
  reducesTo_S2x3_S_d0_1 : S2x3.ReducesTo [0, 1] S_
  bcast_S_S6x32 : S_.BroadcastsInDim S6x32 (![] : Fin 0 → Fin S6x32.rank)
  reducesTo_S6x32_S_d0_1 : S6x32.ReducesTo [0, 1] S_
  bcast_S_S32 : S_.BroadcastsInDim S32 (![] : Fin 0 → Fin S32.rank)
  reducesTo_S32_S_d0 : S32.ReducesTo [0] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x32 : S_.BroadcastsInDim S64x32 (![] : Fin 0 → Fin S64x32.rank)
  reducesTo_S64x32_S_d0_1 : S64x32.ReducesTo [0, 1] S_
  bcast_S_S32x3 : S_.BroadcastsInDim S32x3 (![] : Fin 0 → Fin S32x3.rank)
  reducesTo_S32x3_S_d0_1 : S32x3.ReducesTo [0, 1] S_
  bcast_S_S3 : S_.BroadcastsInDim S3 (![] : Fin 0 → Fin S3.rank)
  reducesTo_S3_S_d0 : S3.ReducesTo [0] S_

variable [Facts]

def fn_part3 {F : FTy → Type} [FloatOps F] (main_arg13 : FVec F S3 .f32) (main_v48 : IVec S_ 1) (main_v49 : FVec F S32x3 .f32) (main_v50 : FVec F S32x3 .f32) : IVec S_ 1 :=
  let main_v51 : IVec S32x3 1 := cmpf .olt main_v49 main_v50
  let main_c_19 : IVec S_ 1 := constantI S_ 1 1#1
  let main_v52 : IVec S_ 1 := (fun x v => Host.reduce IntOp.andi x v reducesTo_S32x3_S_d0_1 h_S_) main_v51 main_c_19
  let main_v53 : IVec S_ 1 := andi main_v48 main_v52
  let main_v54 : FVec F S3 .f32 := Host.absf main_arg13
  let main_cst_20 : FVec F S_ .f32 := constant S_ .f32 0x7F800000#32
  let main_v55 : FVec F S3 .f32 := broadcastInDim S3 ![] bcast_S_S3 main_cst_20
  let main_v56 : IVec S3 1 := cmpf .olt main_v54 main_v55
  let main_c_21 : IVec S_ 1 := constantI S_ 1 1#1
  let main_v57 : IVec S_ 1 := (fun x v => Host.reduce IntOp.andi x v reducesTo_S3_S_d0 h_S_) main_v56 main_c_21
  let main_v58 : IVec S_ 1 := andi main_v53 main_v57
  main_v58

def fn_part2 {F : FTy → Type} [FloatOps F] (main_arg9 : FVec F S64 .f32) (main_arg10 : FVec F S64x32 .f32) (main_arg11 : FVec F S32 .f32) (main_arg12 : FVec F S32x3 .f32) (main_arg13 : FVec F S3 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x32 .f32 := Host.absf main_arg10
  let main_cst_14 : FVec F S_ .f32 := constant S_ .f32 0x7F800000#32
  let main_v40 : FVec F S64x32 .f32 := broadcastInDim S64x32 ![] bcast_S_S64x32 main_cst_14
  let main_v41 : IVec S64x32 1 := cmpf .olt main_v39 main_v40
  let main_c_15 : IVec S_ 1 := constantI S_ 1 1#1
  let main_v42 : IVec S_ 1 := (fun x v => Host.reduce IntOp.andi x v reducesTo_S64x32_S_d0_1 h_S_) main_v41 main_c_15
  let main_v43 : IVec S_ 1 := andi main_v38 main_v42
  let main_v44 : FVec F S32 .f32 := Host.absf main_arg11
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S32x3 .f32 := Host.absf main_arg12
  let main_cst_18 : FVec F S_ .f32 := constant S_ .f32 0x7F800000#32
  let main_v50 : FVec F S32x3 .f32 := broadcastInDim S32x3 ![] bcast_S_S32x3 main_cst_18
  fn_part3 (F := F) main_arg13 main_v48 main_v49 main_v50

def fn_part1 {F : FTy → Type} [FloatOps F] (main_arg6 : FVec F S32x64 .f32) (main_arg7 : FVec F S64 .f32) (main_arg8 : FVec F S64x64 .f32) (main_arg9 : FVec F S64 .f32) (main_arg10 : FVec F S64x32 .f32) (main_arg11 : FVec F S32 .f32) (main_arg12 : FVec F S32x3 .f32) (main_arg13 : FVec F S3 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x64 .f32 := Host.absf main_arg6
  let main_cst_6 : FVec F S_ .f32 := constant S_ .f32 0x7F800000#32
  let main_v20 : FVec F S32x64 .f32 := broadcastInDim S32x64 ![] bcast_S_S32x64 main_cst_6
  let main_v21 : IVec S32x64 1 := cmpf .olt main_v19 main_v20
  let main_c_7 : IVec S_ 1 := constantI S_ 1 1#1
  let main_v22 : IVec S_ 1 := (fun x v => Host.reduce IntOp.andi x v reducesTo_S32x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S100000x3 .f32) (main_arg1 : IVec S100000 32) (main_arg2 : IVec S2x3200000 32) (main_arg3 : FVec F S2x3 .f32) (main_arg4 : FVec F S6x32 .f32) (main_arg5 : FVec F S32 .f32) (main_arg6 : FVec F S32x64 .f32) (main_arg7 : FVec F S64 .f32) (main_arg8 : FVec F S64x64 .f32) (main_arg9 : FVec F S64 .f32) (main_arg10 : FVec F S64x32 .f32) (main_arg11 : FVec F S32 .f32) (main_arg12 : FVec F S32x3 .f32) (main_arg13 : FVec F S3 .f32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S2x3 .f32 := Host.absf main_arg3
  let main_cst_0 : FVec F S_ .f32 := constant S_ .f32 0x7F800000#32
  let main_v5 : FVec F S2x3 .f32 := broadcastInDim S2x3 ![] bcast_S_S2x3 main_cst_0
  let main_v6 : IVec S2x3 1 := cmpf .olt main_v4 main_v5
  let main_c_1 : IVec S_ 1 := constantI S_ 1 1#1
  let main_v7 : IVec S_ 1 := (fun x v => Host.reduce IntOp.andi x v reducesTo_S2x3_S_d0_1 h_S_) main_v6 main_c_1
  let main_v8 : IVec S_ 1 := andi main_v3 main_v7
  let main_v9 : FVec F S6x32 .f32 := Host.absf main_arg4
  let main_cst_2 : FVec F S_ .f32 := constant S_ .f32 0x7F800000#32
  let main_v10 : FVec F S6x32 .f32 := broadcastInDim S6x32 ![] bcast_S_S6x32 main_cst_2
  let main_v11 : IVec S6x32 1 := cmpf .olt main_v9 main_v10
  let main_c_3 : IVec S_ 1 := constantI S_ 1 1#1
  let main_v12 : IVec S_ 1 := (fun x v => Host.reduce IntOp.andi x v reducesTo_S6x32_S_d0_1 h_S_) main_v11 main_c_3
  let main_v13 : IVec S_ 1 := andi main_v8 main_v12
  let main_v14 : FVec F S32 .f32 := Host.absf main_arg5
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg6 main_arg7 main_arg8 main_arg9 main_arg10 main_arg11 main_arg12 main_arg13 main_v13 main_v16
-- ==== Kernel.lean ====
abbrev S100000x3 : Shape := ⟨2, ![100000, 3]⟩
abbrev S100000 : Shape := ⟨1, ![100000]⟩
abbrev S2x3200000 : Shape := ⟨2, ![2, 3200000]⟩
abbrev S2x3 : Shape := ⟨2, ![2, 3]⟩
abbrev S6x32 : Shape := ⟨2, ![6, 32]⟩
abbrev S32 : Shape := ⟨1, ![32]⟩
abbrev S32x64 : Shape := ⟨2, ![32, 64]⟩
abbrev S64 : Shape := ⟨1, ![64]⟩
abbrev S64x64 : Shape := ⟨2, ![64, 64]⟩
abbrev S64x32 : Shape := ⟨2, ![64, 32]⟩
abbrev S32x3 : Shape := ⟨2, ![32, 3]⟩
abbrev S3 : Shape := ⟨1, ![3]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x1 : Shape := ⟨2, ![100000, 1]⟩
abbrev S100000x6 : Shape := ⟨2, ![100000, 6]⟩
abbrev S100000x32 : Shape := ⟨2, ![100000, 32]⟩
abbrev S10000x6 : Shape := ⟨2, ![10000, 6]⟩
abbrev S10000x32 : Shape := ⟨2, ![10000, 32]⟩
abbrev S3300000x32 : Shape := ⟨2, ![3300000, 32]⟩
abbrev S1x32 : Shape := ⟨2, ![1, 32]⟩
abbrev S100000x64 : Shape := ⟨2, ![100000, 64]⟩
abbrev S10000x64 : Shape := ⟨2, ![10000, 64]⟩
abbrev S3300000x64 : Shape := ⟨2, ![3300000, 64]⟩
abbrev S1x64 : Shape := ⟨2, ![1, 64]⟩
abbrev S10000x3 : Shape := ⟨2, ![10000, 3]⟩
abbrev S3300000x3 : Shape := ⟨2, ![3300000, 3]⟩
abbrev S1x3 : Shape := ⟨2, ![1, 3]⟩

abbrev nBuf : Space → Nat
  | .hbm => 159
  | .vmem => 50
  | .smem => 0
  | _ => 0

abbrev hbmTy0_0 (i : Nat) : BufTy := match i % 128 with
  | 0 => ⟨S100000x3, .f32⟩
  | 1 => ⟨S100000, .i32⟩
  | 2 => ⟨S2x3200000, .i32⟩
  | 3 => ⟨S2x3, .f32⟩
  | 4 => ⟨S6x32, .f32⟩
  | 5 => ⟨S32, .f32⟩
  | 6 => ⟨S32x64, .f32⟩
  | 7 => ⟨S64, .f32⟩
  | 8 => ⟨S64x64, .f32⟩
  | 9 => ⟨S64, .f32⟩
  | 10 => ⟨S64x32, .f32⟩
  | 11 => ⟨S32, .f32⟩
  | 12 => ⟨S32x3, .f32⟩
  | 13 => ⟨S3, .f32⟩
  | 14 => ⟨S100000, .i32⟩
  | 15 => ⟨S1x3200000, .i32⟩
  | 16 => ⟨S3200000, .i32⟩
  | 17 => ⟨S3300000, .i32⟩
  | 18 => ⟨S1x3200000, .i32⟩
  | 19 => ⟨S3200000, .i32⟩
  | 20 => ⟨S3300000, .i32⟩
  | 21 => ⟨S_, .f32⟩
  | 22 => ⟨S3300000, .f32⟩
  | 23 => ⟨S_, .f32⟩
  | 24 => ⟨S100000, .f32⟩
  | 25 => ⟨S3300000x1, .i32⟩
  | 26 => ⟨S100000, .f32⟩
  | 27 => ⟨S_, .f32⟩
  | 28 => ⟨S100000, .f32⟩
  | 29 => ⟨S100000, .i1⟩
  | 30 => ⟨S100000, .f32⟩
  | 31 => ⟨S_, .f32⟩
  | 32 => ⟨S_, .f32⟩
  | 33 => ⟨S100000, .f32⟩
  | 34 => ⟨S100000, .f32⟩
  | 35 => ⟨S_, .i32⟩
  | 36 => ⟨S3300000, .i32⟩
  | 37 => ⟨S3300000, .i1⟩
  | 38 => ⟨S_, .i32⟩
  | 39 => ⟨S3300000, .i32⟩
  | 40 => ⟨S3300000, .i32⟩
  | 41 => ⟨S3300000, .i32⟩
  | 42 => ⟨S3300000x1, .i32⟩
  | 43 => ⟨S3300000, .f32⟩
  | 44 => ⟨S_, .i32⟩
  | 45 => ⟨S3300000, .i32⟩
  | 46 => ⟨S3300000, .i1⟩
  | 47 => ⟨S_, .i32⟩
  | 48 => ⟨S3300000, .i32⟩
  | 49 => ⟨S3300000, .i32⟩
  | 50 => ⟨S3300000, .i32⟩
  | 51 => ⟨S3300000x1, .i32⟩
  | 52 => ⟨S3300000, .f32⟩
  | 53 => ⟨S3300000, .f32⟩
  | 54 => ⟨S_, .i32⟩
  | 55 => ⟨S100000, .i32⟩
  | 56 => ⟨S100000, .i1⟩
  | 57 => ⟨S_, .i32⟩
  | 58 => ⟨S100000, .i32⟩
  | 59 => ⟨S100000, .i32⟩
  | 60 => ⟨S100000, .i32⟩
  | 61 => ⟨S100000x1, .i32⟩
  | 62 => ⟨S100000x3, .f32⟩
  | 63 => ⟨S100000x6, .f32⟩
  | 64 => ⟨S100000x32, .f32⟩
  | 65 => ⟨S_, .i32⟩
  | 66 => ⟨S3300000, .i32⟩
  | 67 => ⟨S3300000, .i1⟩
  | 68 => ⟨S_, .i32⟩
  | 69 => ⟨S3300000, .i32⟩
  | 70 => ⟨S3300000, .i32⟩
  | 71 => ⟨S3300000, .i32⟩
  | 72 => ⟨S3300000x1, .i32⟩
  | 73 => ⟨S3300000x32, .f32⟩
  | 74 => ⟨S3300000x1, .f32⟩
  | 75 => ⟨S3300000x32, .f32⟩
  | 76 => ⟨S3300000x32, .f32⟩
  | 77 => ⟨S_, .f32⟩
  | 78 => ⟨S100000x32, .f32⟩
  | 79 => ⟨S3300000x1, .i32⟩
  | 80 => ⟨S100000x32, .f32⟩
  | 81 => ⟨S1x32, .f32⟩
  | 82 => ⟨S100000x32, .f32⟩
  | 83 => ⟨S100000x64, .f32⟩
  | 84 => ⟨S_, .i32⟩
  | 85 => ⟨S3300000, .i32⟩
  | 86 => ⟨S3300000, .i1⟩
  | 87 => ⟨S_, .i32⟩
  | 88 => ⟨S3300000, .i32⟩
  | 89 => ⟨S3300000, .i32⟩
  | 90 => ⟨S3300000, .i32⟩
  | 91 => ⟨S3300000x1, .i32⟩
  | 92 => ⟨S3300000x64, .f32⟩
  | 93 => ⟨S3300000x1, .f32⟩
  | 94 => ⟨S3300000x64, .f32⟩
  | 95 => ⟨S3300000x64, .f32⟩
  | 96 => ⟨S_, .f32⟩
  | 97 => ⟨S100000x64, .f32⟩
  | 98 => ⟨S3300000x1, .i32⟩
  | 99 => ⟨S100000x64, .f32⟩
  | 100 => ⟨S1x64, .f32⟩
  | 101 => ⟨S100000x64, .f32⟩
  | 102 => ⟨S100000x64, .f32⟩
  | 103 => ⟨S_, .i32⟩
  | 104 => ⟨S3300000, .i32⟩
  | 105 => ⟨S3300000, .i1⟩
  | 106 => ⟨S_, .i32⟩
  | 107 => ⟨S3300000, .i32⟩
  | 108 => ⟨S3300000, .i32⟩
  | 109 => ⟨S3300000, .i32⟩
  | 110 => ⟨S3300000x1, .i32⟩
  | 111 => ⟨S3300000x64, .f32⟩
  | 112 => ⟨S3300000x1, .f32⟩
  | 113 => ⟨S3300000x64, .f32⟩
  | 114 => ⟨S3300000x64, .f32⟩
  | 115 => ⟨S_, .f32⟩
  | 116 => ⟨S100000x64, .f32⟩
  | 117 => ⟨S3300000x1, .i32⟩
  | 118 => ⟨S100000x64, .f32⟩
  | 119 => ⟨S1x64, .f32⟩
  | 120 => ⟨S100000x64, .f32⟩
  | 121 => ⟨S100000x32, .f32⟩
  | 122 => ⟨S_, .i32⟩
  | 123 => ⟨S3300000, .i32⟩
  | 124 => ⟨S3300000, .i1⟩
  | 125 => ⟨S_, .i32⟩
  | 126 => ⟨S3300000, .i32⟩
  | 127 => ⟨S3300000, .i32⟩
  | _ => ⟨S100000x3, .f32⟩

abbrev hbmTy0_1 (i : Nat) : BufTy := match i % 128 with
  | 0 => ⟨S3300000, .i32⟩
  | 1 => ⟨S3300000x1, .i32⟩
  | 2 => ⟨S3300000x32, .f32⟩
  | 3 => ⟨S3300000x1, .f32⟩
  | 4 => ⟨S3300000x32, .f32⟩
  | 5 => ⟨S3300000x32, .f32⟩
  | 6 => ⟨S_, .f32⟩
  | 7 => ⟨S100000x32, .f32⟩
  | 8 => ⟨S3300000x1, .i32⟩
  | 9 => ⟨S100000x32, .f32⟩
  | 10 => ⟨S1x32, .f32⟩
  | 11 => ⟨S100000x32, .f32⟩
  | 12 => ⟨S100000x3, .f32⟩
  | 13 => ⟨S_, .i32⟩
  | 14 => ⟨S3300000, .i32⟩
  | 15 => ⟨S3300000, .i1⟩
  | 16 => ⟨S_, .i32⟩
  | 17 => ⟨S3300000, .i32⟩
  | 18 => ⟨S3300000, .i32⟩
  | 19 => ⟨S3300000, .i32⟩
  | 20 => ⟨S3300000x1, .i32⟩
  | 21 => ⟨S3300000x3, .f32⟩
  | 22 => ⟨S3300000x1, .f32⟩
  | 23 => ⟨S3300000x3, .f32⟩
  | 24 => ⟨S3300000x3, .f32⟩
  | 25 => ⟨S_, .f32⟩
  | 26 => ⟨S100000x3, .f32⟩
  | 27 => ⟨S3300000x1, .i32⟩
  | 28 => ⟨S100000x3, .f32⟩
  | 29 => ⟨S1x3, .f32⟩
  | 30 => ⟨S100000x3, .f32⟩
  | _ => ⟨S100000x3, .f32⟩

abbrev hbmTy (i : Nat) : BufTy := match i / 128 with
  | 0 => hbmTy0_0 i
  | 1 => hbmTy0_1 i
  | _ => ⟨S100000x3, .f32⟩

abbrev bufTy : (tb : Table) → Fin (tcTables nBuf tb) → BufTy
  | .hbm, ⟨i, _⟩ => hbmTy i
  | .local _ .vmem, ⟨0, _⟩ => ⟨S10000x6, .f32⟩
  | .local _ .vmem, ⟨1, _⟩ => ⟨S10000x6, .f32⟩
  | .local _ .vmem, ⟨2, _⟩ => ⟨S6x32, .f32⟩
  | .local _ .vmem, ⟨3, _⟩ => ⟨S10000x32, .f32⟩
  | .local _ .vmem, ⟨4, _⟩ => ⟨S10000x32, .f32⟩
  | .local _ .vmem, ⟨5, _⟩ => ⟨S10000x32, .f32⟩
  | .local _ .vmem, ⟨6, _⟩ => ⟨S10000x32, .f32⟩
  | .local _ .vmem, ⟨7, _⟩ => ⟨S1x32, .f32⟩
  | .local _ .vmem, ⟨8, _⟩ => ⟨S10000x32, .f32⟩
  | .local _ .vmem, ⟨9, _⟩ => ⟨S10000x32, .f32⟩
  | .local _ .vmem, ⟨10, _⟩ => ⟨S10000x32, .f32⟩
  | .local _ .vmem, ⟨11, _⟩ => ⟨S10000x32, .f32⟩
  | .local _ .vmem, ⟨12, _⟩ => ⟨S32x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S64x64, .f32⟩
  | .local _ .vmem, ⟨23, _⟩ => ⟨S10000x64, .f32⟩
  | .local _ .vmem, ⟨24, _⟩ => ⟨S10000x64, .f32⟩
  | .local _ .vmem, ⟨25, _⟩ => ⟨S10000x64, .f32⟩
  | .local _ .vmem, ⟨26, _⟩ => ⟨S10000x64, .f32⟩
  | .local _ .vmem, ⟨27, _⟩ => ⟨S1x64, .f32⟩
  | .local _ .vmem, ⟨28, _⟩ => ⟨S10000x64, .f32⟩
  | .local _ .vmem, ⟨29, _⟩ => ⟨S10000x64, .f32⟩
  | .local _ .vmem, ⟨30, _⟩ => ⟨S10000x64, .f32⟩
  | .local _ .vmem, ⟨31, _⟩ => ⟨S10000x64, .f32⟩
  | .local _ .vmem, ⟨32, _⟩ => ⟨S64x32, .f32⟩
  | .local _ .vmem, ⟨33, _⟩ => ⟨S10000x32, .f32⟩
  | .local _ .vmem, ⟨34, _⟩ => ⟨S10000x32, .f32⟩
  | .local _ .vmem, ⟨35, _⟩ => ⟨S10000x32, .f32⟩
  | .local _ .vmem, ⟨36, _⟩ => ⟨S10000x32, .f32⟩
  | .local _ .vmem, ⟨37, _⟩ => ⟨S1x32, .f32⟩
  | .local _ .vmem, ⟨38, _⟩ => ⟨S10000x32, .f32⟩
  | .local _ .vmem, ⟨39, _⟩ => ⟨S10000x32, .f32⟩
  | .local _ .vmem, ⟨40, _⟩ => ⟨S10000x32, .f32⟩
  | .local _ .vmem, ⟨41, _⟩ => ⟨S10000x32, .f32⟩
  | .local _ .vmem, ⟨42, _⟩ => ⟨S32x3, .f32⟩
  | .local _ .vmem, ⟨43, _⟩ => ⟨S10000x3, .f32⟩
  | .local _ .vmem, ⟨44, _⟩ => ⟨S10000x3, .f32⟩
  | .local _ .vmem, ⟨45, _⟩ => ⟨S10000x3, .f32⟩
  | .local _ .vmem, ⟨46, _⟩ => ⟨S10000x3, .f32⟩
  | .local _ .vmem, ⟨47, _⟩ => ⟨S1x3, .f32⟩
  | .local _ .vmem, ⟨48, _⟩ => ⟨S10000x3, .f32⟩
  | .local _ .vmem, ⟨49, _⟩ => ⟨S10000x3, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v14 : Ref sig .tc := ⟨.hbm, 34, rfl⟩
abbrev main_c : Ref sig .tc := ⟨.hbm, 35, rfl⟩
abbrev main_v15 : Ref sig .tc := ⟨.hbm, 36, rfl⟩
abbrev main_v16 : Ref sig .tc := ⟨.hbm, 37, rfl⟩
abbrev main_c_3 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_c_4 : Ref sig .tc := ⟨.hbm, 44, rfl⟩
abbrev main_v22 : Ref sig .tc := ⟨.hbm, 45, rfl⟩
abbrev main_v23 : Ref sig .tc := ⟨.hbm, 46, rfl⟩
abbrev main_c_5 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_c_6 : Ref sig .tc := ⟨.hbm, 54, rfl⟩
abbrev main_v30 : Ref sig .tc := ⟨.hbm, 55, rfl⟩
abbrev main_v31 : Ref sig .tc := ⟨.hbm, 56, rfl⟩
abbrev main_c_7 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_c_8 : Ref sig .tc := ⟨.hbm, 65, rfl⟩
abbrev main_v39 : Ref sig .tc := ⟨.hbm, 66, rfl⟩
abbrev main_v40 : Ref sig .tc := ⟨.hbm, 67, rfl⟩
abbrev main_c_9 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_10 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_c_11 : Ref sig .tc := ⟨.hbm, 84, rfl⟩
abbrev main_v55 : Ref sig .tc := ⟨.hbm, 85, rfl⟩
abbrev main_v56 : Ref sig .tc := ⟨.hbm, 86, rfl⟩
abbrev main_c_12 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_cst_13 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_c_14 : Ref sig .tc := ⟨.hbm, 103, rfl⟩
abbrev main_v71 : Ref sig .tc := ⟨.hbm, 104, rfl⟩
abbrev main_v72 : Ref sig .tc := ⟨.hbm, 105, rfl⟩
abbrev main_c_15 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_cst_16 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_c_17 : Ref sig .tc := ⟨.hbm, 122, rfl⟩
abbrev main_v87 : Ref sig .tc := ⟨.hbm, 123, rfl⟩
abbrev main_v88 : Ref sig .tc := ⟨.hbm, 124, rfl⟩
abbrev main_c_18 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_cst_19 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_c_20 : Ref sig .tc := ⟨.hbm, 141, rfl⟩
abbrev main_v103 : Ref sig .tc := ⟨.hbm, 142, rfl⟩
abbrev main_v104 : Ref sig .tc := ⟨.hbm, 143, rfl⟩
abbrev main_c_21 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_cst_22 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg2_0 : Ref sig .tc := ⟨.vmem, 33, rfl⟩
abbrev cc6_stg2_1 : Ref sig .tc := ⟨.vmem, 34, rfl⟩
abbrev cc7_stg0_0 : Ref sig .tc := ⟨.vmem, 35, rfl⟩
abbrev cc7_stg0_1 : Ref sig .tc := ⟨.vmem, 36, rfl⟩
abbrev cc7_stg1_0 : Ref sig .tc := ⟨.vmem, 37, rfl⟩
abbrev cc7_stg2_0 : Ref sig .tc := ⟨.vmem, 38, rfl⟩
abbrev cc7_stg2_1 : Ref sig .tc := ⟨.vmem, 39, rfl⟩
abbrev cc8_stg0_0 : Ref sig .tc := ⟨.vmem, 40, rfl⟩
abbrev cc8_stg0_1 : Ref sig .tc := ⟨.vmem, 41, rfl⟩
abbrev cc8_stg1_0 : Ref sig .tc := ⟨.vmem, 42, rfl⟩
abbrev cc8_stg2_0 : Ref sig .tc := ⟨.vmem, 43, rfl⟩
abbrev cc8_stg2_1 : Ref sig .tc := ⟨.vmem, 44, rfl⟩
abbrev cc9_stg0_0 : Ref sig .tc := ⟨.vmem, 45, rfl⟩
abbrev cc9_stg0_1 : Ref sig .tc := ⟨.vmem, 46, rfl⟩
abbrev cc9_stg1_0 : Ref sig .tc := ⟨.vmem, 47, rfl⟩
abbrev cc9_stg2_0 : Ref sig .tc := ⟨.vmem, 48, rfl⟩
abbrev cc9_stg2_1 : Ref sig .tc := ⟨.vmem, 49, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem2_0 : DmaSem sig := 33
abbrev cc6_sem2_1 : DmaSem sig := 34
abbrev cc7_sem0_0 : DmaSem sig := 35
abbrev cc7_sem0_1 : DmaSem sig := 36
abbrev cc7_sem1_0 : DmaSem sig := 37
abbrev cc7_sem2_0 : DmaSem sig := 38
abbrev cc7_sem2_1 : DmaSem sig := 39
abbrev cc8_sem0_0 : DmaSem sig := 40
abbrev cc8_sem0_1 : DmaSem sig := 41
abbrev cc8_sem1_0 : DmaSem sig := 42
abbrev cc8_sem2_0 : DmaSem sig := 43
abbrev cc8_sem2_1 : DmaSem sig := 44
abbrev cc9_sem0_0 : DmaSem sig := 45
abbrev cc9_sem0_1 : DmaSem sig := 46
abbrev cc9_sem1_0 : DmaSem sig := 47
abbrev cc9_sem2_0 : DmaSem sig := 48
abbrev cc9_sem2_1 : DmaSem sig := 49

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x32 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S10000x32 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x32 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x32 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S10000x32 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S10000x32 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S32x3 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S10000x3 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S10000x3 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x3 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S10000x3 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S100000_S100000x1_0 : S100000.BroadcastsInDim S100000x1 (![0] : Fin 1 → Fin S100000x1.rank)
  concatenates_S100000x3_S100000x3_S100000x6_d1 : Shape.Concatenates [S100000x3, S100000x3] S100000x6 1
  inb_S10000x6_S10000x6_0_0 : ∀ a, (![0, 0] : Fin 2 → Nat) a + S10000x6.size a ≤ S10000x6.size a
  h_S10000x6 : 0 < S10000x6.numel
  shapeCasts_S10000x6_S10000x6 : S10000x6.ShapeCasts S10000x6
  bitsLt_bf16_f32 : FTy.bits .bf16 < FTy.bits .f32
  inb_S6x32_S6x32_0_0 : ∀ a, (![0, 0] : Fin 2 → Nat) a + S6x32.size a ≤ S6x32.size a
  h_S6x32 : 0 < S6x32.numel
  inb_S10000x32_S10000x32_0_0 : ∀ a, (![0, 0] : Fin 2 → Nat) a + S10000x32.size a ≤ S10000x32.size a
  h_S10000x32 : 0 < S10000x32.numel
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  shapeCasts_S32_S1x32 : S32.ShapeCasts S1x32
  shapeCasts_S10000x32_S10000x32 : S10000x32.ShapeCasts S10000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S32x64_S32x64_0_0 : ∀ a, (![0, 0] : Fin 2 → Nat) a + S32x64.size a ≤ S32x64.size a
  h_S32x64 : 0 < S32x64.numel
  inb_S10000x64_S10000x64_0_0 : ∀ a, (![0, 0] : Fin 2 → Nat) a + S10000x64.size a ≤ S10000x64.size a
  h_S10000x64 : 0 < S10000x64.numel
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  inb_S64x32_S64x32_0_0 : ∀ a, (![0, 0] : Fin 2 → Nat) a + S64x32.size a ≤ S64x32.size a
  h_S64x32 : 0 < S64x32.numel
  inb_S32x3_S32x3_0_0 : ∀ a, (![0, 0] : Fin 2 → Nat) a + S32x3.size a ≤ S32x3.size a
  h_S32x3 : 0 < S32x3.numel
  inb_S10000x3_S10000x3_0_0 : ∀ a, (![0, 0] : Fin 2 → Nat) a + S10000x3.size a ≤ S10000x3.size a
  h_S10000x3 : 0 < S10000x3.numel
  bcast_S3300000x1_S3300000x3_0_1 : S3300000x1.BroadcastsInDim S3300000x3 (![0, 1] : Fin 2 → Fin S3300000x3.rank)
  bcast_S_S100000x3 : S_.BroadcastsInDim S100000x3 (![] : Fin 0 → Fin S100000x3.rank)
  shapeCasts_S3_S1x3 : S3.ShapeCasts S1x3
  shapeCasts_S10000x3_S10000x3 : S10000x3.ShapeCasts S10000x3
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S10000x3 : S1x3.Broadcasts S10000x3
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S2x3_S100000x1_S100000x3_1_0_n_n_0_1_13_wf : GatherDims.WF S2x3 S100000x1 S100000x3 [1] [0] [] [0] [] 1 ![1, 3]
  dot_S10000x6_S6x32_S10000x32_1_0_0_1_n_n_wf : DotDims.WF S10000x6 S6x32 S10000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S10000x32_S32x64_S10000x64_1_0_0_1_n_n_wf : DotDims.WF S10000x32 S32x64 S10000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S10000x64_S64x64_S10000x64_1_0_0_1_n_n_wf : DotDims.WF S10000x64 S64x64 S10000x64 [1] [0] [0] [1] [] []
  dot_S10000x64_S64x32_S10000x32_1_0_0_1_n_n_wf : DotDims.WF S10000x64 S64x32 S10000x32 [1] [0] [0] [1] [] []
  dot_S10000x32_S32x3_S10000x3_1_0_0_1_n_n_wf : DotDims.WF S10000x32 S32x3 S10000x3 [1] [0] [0] [1] [] []
  gather_S100000x3_S3300000x1_S3300000x3_1_0_n_n_0_1_13_wf : GatherDims.WF S100000x3 S3300000x1 S3300000x3 [1] [0] [] [0] [] 1 ![1, 3]
  scatter_S100000x3_S3300000x1_S3300000x3_1_0_0_1_wf : ScatterDims.WF S100000x3 S3300000x1 S3300000x3 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x6.size a ≤ S100000x6.size a
  hwx0_0 : ∀ i : grid0.Coords, EltTy.bits .f32 = 32 ∨ (Rect.block (s := S100000x6) S10000x6.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S6x32.size a ≤ S6x32.size a
  hwx0_1 : ∀ i : grid0.Coords, EltTy.bits .f32 = 32 ∨ (Rect.block (s := S6x32) S6x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x32.size a ≤ S100000x32.size a
  hwx0_2 : ∀ i : grid0.Coords, EltTy.bits .f32 = 32 ∨ (Rect.block (s := S100000x32) S10000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S100000x32.size a
  hwx1_0 : ∀ i : grid1.Coords, EltTy.bits .f32 = 32 ∨ (Rect.block (s := S100000x32) S10000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x32.size a ≤ S1x32.size a
  hwx1_1 : ∀ i : grid1.Coords, EltTy.bits .f32 = 32 ∨ (Rect.block (s := S1x32) S1x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x32.size a ≤ S100000x32.size a
  hwx1_2 : ∀ i : grid1.Coords, EltTy.bits .f32 = 32 ∨ (Rect.block (s := S100000x32) S10000x32.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x32.size a ≤ S100000x32.size a
  hwx2_0 : ∀ i : grid2.Coords, EltTy.bits .f32 = 32 ∨ (Rect.block (s := S100000x32) S10000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x64.size a ≤ S32x64.size a
  hwx2_1 : ∀ i : grid2.Coords, EltTy.bits .f32 = 32 ∨ (Rect.block (s := S32x64) S32x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S100000x64.size a
  hwx4_2 : ∀ i : grid4.Coords, EltTy.bits .f32 = 32 ∨ (Rect.block (s := S100000x64) S10000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x64.size a ≤ S100000x64.size a
  hwx5_2 : ∀ i : grid5.Coords, EltTy.bits .f32 = 32 ∨ (Rect.block (s := S100000x64) S10000x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x64.size a ≤ S100000x64.size a
  hwx6_0 : ∀ i : grid6.Coords, EltTy.bits .f32 = 32 ∨ (Rect.block (s := S100000x64) S10000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x32.size a ≤ S64x32.size a
  hwx6_1 : ∀ i : grid6.Coords, EltTy.bits .f32 = 32 ∨ (Rect.block (s := S64x32) S64x32.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S10000x32.size a ≤ S100000x32.size a
  hwx6_2 : ∀ i : grid6.Coords, EltTy.bits .f32 = 32 ∨ (Rect.block (s := S100000x32) S10000x32.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x32.size a ≤ S100000x32.size a
  hwx7_0 : ∀ i : grid7.Coords, EltTy.bits .f32 = 32 ∨ (Rect.block (s := S100000x32) S10000x32.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x32.size a ≤ S1x32.size a
  hwx7_1 : ∀ i : grid7.Coords, EltTy.bits .f32 = 32 ∨ (Rect.block (s := S1x32) S1x32.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S10000x32.size a ≤ S100000x32.size a
  hwx7_2 : ∀ i : grid7.Coords, EltTy.bits .f32 = 32 ∨ (Rect.block (s := S100000x32) S10000x32.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10000x32.size a ≤ S100000x32.size a
  hwx8_0 : ∀ i : grid8.Coords, EltTy.bits .f32 = 32 ∨ (Rect.block (s := S100000x32) S10000x32.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S32x3.size a ≤ S32x3.size a
  hwx8_1 : ∀ i : grid8.Coords, EltTy.bits .f32 = 32 ∨ (Rect.block (s := S32x3) S32x3.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S10000x3.size a ≤ S100000x3.size a
  hwx8_2 : ∀ i : grid8.Coords, EltTy.bits .f32 = 32 ∨ (Rect.block (s := S100000x3) S10000x3.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S10000x3.size a ≤ S100000x3.size a
  hwx9_0 : ∀ i : grid9.Coords, EltTy.bits .f32 = 32 ∨ (Rect.block (s := S100000x3) S10000x3.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x3.size a ≤ S1x3.size a
  hwx9_1 : ∀ i : grid9.Coords, EltTy.bits .f32 = 32 ∨ (Rect.block (s := S1x3) S1x3.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S10000x3.size a ≤ S100000x3.size a
  hwx9_2 : ∀ i : grid9.Coords, EltTy.bits .f32 = 32 ∨ (Rect.block (s := S100000x3) S10000x3.size (cc9_transform_2 i) (hinb9_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S2x3_S100000x1_S100000x3_1_0_n_n_0_1_13 : GatherDims S2x3 S100000x1 S100000x3 where
  offsetDims := [1]
  collapsedSliceDims := [0]
  operandBatchingDims := []
  startIndicesBatchingDims := []
  startIndexMap := [0]
  indexVectorDim := 1
  sliceSizes := ![1, 3]
  wf := gather_S2x3_S100000x1_S100000x3_1_0_n_n_0_1_13_wf
def dot_S10000x6_S6x32_S10000x32_1_0_0_1_n_n : DotDims S10000x6 S6x32 S10000x32 where
  lhsContracting := [1]
  rhsContracting := [0]
  lhsNonContracting := [0]
  rhsNonContracting := [1]
  lhsBatch := []
  rhsBatch := []
  wf := dot_S10000x6_S6x32_S10000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S10000x32_S32x64_S10000x64_1_0_0_1_n_n : DotDims S10000x32 S32x64 S10000x64 where
  lhsContracting := [1]
  rhsContracting := [0]
  lhsNonContracting := [0]
  rhsNonContracting := [1]
  lhsBatch := []
  rhsBatch := []
  wf := dot_S10000x32_S32x64_S10000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def dot_S10000x32_S32x3_S10000x3_1_0_0_1_n_n : DotDims S10000x32 S32x3 S10000x3 where
  lhsContracting := [1]
  rhsContracting := [0]
  lhsNonContracting := [0]
  rhsNonContracting := [1]
  lhsBatch := []
  rhsBatch := []
  wf := dot_S10000x32_S32x3_S10000x3_1_0_0_1_n_n_wf
def gather_S100000x3_S3300000x1_S3300000x3_1_0_n_n_0_1_13 : GatherDims S100000x3 S3300000x1 S3300000x3 where
  offsetDims := [1]
  collapsedSliceDims := [0]
  operandBatchingDims := []
  startIndicesBatchingDims := []
  startIndexMap := [0]
  indexVectorDim := 1
  sliceSizes := ![1, 3]
  wf := gather_S100000x3_S3300000x1_S3300000x3_1_0_n_n_0_1_13_wf
def scatter_S100000x3_S3300000x1_S3300000x3_1_0_0_1 : ScatterDims S100000x3 S3300000x1 S3300000x3 where
  updateWindowDims := [1]
  insertedWindowDims := [0]
  scatterDimsToOperandDims := [0]
  indexVectorDim := 1
  wf := scatter_S100000x3_S3300000x1_S3300000x3_1_0_0_1_wf

abbrev win0_0 : Pipeline.Window sig grid0 :=
  Pipeline.Window.ofSpec (Memref.whole main_v37) S10000x6.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S6x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v38) S10000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v51) S10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v52) S1x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v53) S10000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v53) S10000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S32x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v54) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v67) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v68) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v69) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v69) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg8) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v70) S10000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v83) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v84) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v85) S10000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v85) S10000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg10) S64x32.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v86) S10000x32.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v99) S10000x32.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v100) S1x32.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v101) S10000x32.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v101) S10000x32.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg12) S32x3.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v102) S10000x3.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v115) S10000x3.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v116) S1x3.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v117) S10000x3.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

class Facts : Prop extends Facts₀ where

variable [Facts]
-- ==== ReferenceIdeal.lean ====
abbrev S100000x3 : Shape := ⟨2, ![100000, 3]⟩
abbrev S100000 : Shape := ⟨1, ![100000]⟩
abbrev S2x3200000 : Shape := ⟨2, ![2, 3200000]⟩
abbrev S2x3 : Shape := ⟨2, ![2, 3]⟩
abbrev S6x32 : Shape := ⟨2, ![6, 32]⟩
abbrev S32 : Shape := ⟨1, ![32]⟩
abbrev S32x64 : Shape := ⟨2, ![32, 64]⟩
abbrev S64 : Shape := ⟨1, ![64]⟩
abbrev S64x64 : Shape := ⟨2, ![64, 64]⟩
abbrev S64x32 : Shape := ⟨2, ![64, 32]⟩
abbrev S32x3 : Shape := ⟨2, ![32, 3]⟩
abbrev S3 : Shape := ⟨1, ![3]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x1 : Shape := ⟨2, ![100000, 1]⟩
abbrev S100000x6 : Shape := ⟨2, ![100000, 6]⟩
abbrev S100000x32 : Shape := ⟨2, ![100000, 32]⟩
abbrev S3300000x32 : Shape := ⟨2, ![3300000, 32]⟩
abbrev S1x32 : Shape := ⟨2, ![1, 32]⟩
abbrev S100000x64 : Shape := ⟨2, ![100000, 64]⟩
abbrev S3300000x64 : Shape := ⟨2, ![3300000, 64]⟩
abbrev S1x64 : Shape := ⟨2, ![1, 64]⟩
abbrev S3300000x3 : Shape := ⟨2, ![3300000, 3]⟩
abbrev S1x3 : Shape := ⟨2, ![1, 3]⟩

abbrev nBuf : Space → Nat
  | .hbm => 176
  | .vmem => 0
  | .smem => 0
  | _ => 0

abbrev hbmTy0_0 (i : Nat) : BufTy := match i % 128 with
  | 0 => ⟨S100000x3, .f32⟩
  | 1 => ⟨S100000, .i32⟩
  | 2 => ⟨S2x3200000, .i32⟩
  | 3 => ⟨S2x3, .f32⟩
  | 4 => ⟨S6x32, .f32⟩
  | 5 => ⟨S32, .f32⟩
  | 6 => ⟨S32x64, .f32⟩
  | 7 => ⟨S64, .f32⟩
  | 8 => ⟨S64x64, .f32⟩
  | 9 => ⟨S64, .f32⟩
  | 10 => ⟨S64x32, .f32⟩
  | 11 => ⟨S32, .f32⟩
  | 12 => ⟨S32x3, .f32⟩
  | 13 => ⟨S3, .f32⟩
  | 14 => ⟨S100000, .i32⟩
  | 15 => ⟨S1x3200000, .i32⟩
  | 16 => ⟨S3200000, .i32⟩
  | 17 => ⟨S3300000, .i32⟩
  | 18 => ⟨S1x3200000, .i32⟩
  | 19 => ⟨S3200000, .i32⟩
  | 20 => ⟨S3300000, .i32⟩
  | 21 => ⟨S_, .f32⟩
  | 22 => ⟨S3300000, .f32⟩
  | 23 => ⟨S_, .f32⟩
  | 24 => ⟨S100000, .f32⟩
  | 25 => ⟨S3300000x1, .i32⟩
  | 26 => ⟨S100000, .f32⟩
  | 27 => ⟨S_, .f32⟩
  | 28 => ⟨S100000, .f32⟩
  | 29 => ⟨S100000, .i1⟩
  | 30 => ⟨S100000, .f32⟩
  | 31 => ⟨S_, .f32⟩
  | 32 => ⟨S_, .f32⟩
  | 33 => ⟨S100000, .f32⟩
  | 34 => ⟨S100000, .f32⟩
  | 35 => ⟨S_, .i32⟩
  | 36 => ⟨S3300000, .i32⟩
  | 37 => ⟨S3300000, .i1⟩
  | 38 => ⟨S_, .i32⟩
  | 39 => ⟨S3300000, .i32⟩
  | 40 => ⟨S3300000, .i32⟩
  | 41 => ⟨S3300000, .i32⟩
  | 42 => ⟨S3300000x1, .i32⟩
  | 43 => ⟨S3300000, .f32⟩
  | 44 => ⟨S_, .i32⟩
  | 45 => ⟨S3300000, .i32⟩
  | 46 => ⟨S3300000, .i1⟩
  | 47 => ⟨S_, .i32⟩
  | 48 => ⟨S3300000, .i32⟩
  | 49 => ⟨S3300000, .i32⟩
  | 50 => ⟨S3300000, .i32⟩
  | 51 => ⟨S3300000x1, .i32⟩
  | 52 => ⟨S3300000, .f32⟩
  | 53 => ⟨S3300000, .f32⟩
  | 54 => ⟨S_, .i32⟩
  | 55 => ⟨S100000, .i32⟩
  | 56 => ⟨S100000, .i1⟩
  | 57 => ⟨S_, .i32⟩
  | 58 => ⟨S100000, .i32⟩
  | 59 => ⟨S100000, .i32⟩
  | 60 => ⟨S100000, .i32⟩
  | 61 => ⟨S100000x1, .i32⟩
  | 62 => ⟨S100000x3, .f32⟩
  | 63 => ⟨S100000x6, .f32⟩
  | 64 => ⟨S100000x32, .f32⟩
  | 65 => ⟨S_, .i32⟩
  | 66 => ⟨S3300000, .i32⟩
  | 67 => ⟨S3300000, .i1⟩
  | 68 => ⟨S_, .i32⟩
  | 69 => ⟨S3300000, .i32⟩
  | 70 => ⟨S3300000, .i32⟩
  | 71 => ⟨S3300000, .i32⟩
  | 72 => ⟨S3300000x1, .i32⟩
  | 73 => ⟨S3300000x32, .f32⟩
  | 74 => ⟨S3300000x1, .f32⟩
  | 75 => ⟨S3300000x32, .f32⟩
  | 76 => ⟨S3300000x32, .f32⟩
  | 77 => ⟨S_, .f32⟩
  | 78 => ⟨S100000x32, .f32⟩
  | 79 => ⟨S3300000x1, .i32⟩
  | 80 => ⟨S100000x32, .f32⟩
  | 81 => ⟨S1x32, .f32⟩
  | 82 => ⟨S100000x32, .f32⟩
  | 83 => ⟨S100000x32, .f32⟩
  | 84 => ⟨S_, .f32⟩
  | 85 => ⟨S100000x32, .f32⟩
  | 86 => ⟨S100000x32, .f32⟩
  | 87 => ⟨S100000x64, .f32⟩
  | 88 => ⟨S_, .i32⟩
  | 89 => ⟨S3300000, .i32⟩
  | 90 => ⟨S3300000, .i1⟩
  | 91 => ⟨S_, .i32⟩
  | 92 => ⟨S3300000, .i32⟩
  | 93 => ⟨S3300000, .i32⟩
  | 94 => ⟨S3300000, .i32⟩
  | 95 => ⟨S3300000x1, .i32⟩
  | 96 => ⟨S3300000x64, .f32⟩
  | 97 => ⟨S3300000x1, .f32⟩
  | 98 => ⟨S3300000x64, .f32⟩
  | 99 => ⟨S3300000x64, .f32⟩
  | 100 => ⟨S_, .f32⟩
  | 101 => ⟨S100000x64, .f32⟩
  | 102 => ⟨S3300000x1, .i32⟩
  | 103 => ⟨S100000x64, .f32⟩
  | 104 => ⟨S1x64, .f32⟩
  | 105 => ⟨S100000x64, .f32⟩
  | 106 => ⟨S100000x64, .f32⟩
  | 107 => ⟨S_, .f32⟩
  | 108 => ⟨S100000x64, .f32⟩
  | 109 => ⟨S100000x64, .f32⟩
  | 110 => ⟨S100000x64, .f32⟩
  | 111 => ⟨S_, .i32⟩
  | 112 => ⟨S3300000, .i32⟩
  | 113 => ⟨S3300000, .i1⟩
  | 114 => ⟨S_, .i32⟩
  | 115 => ⟨S3300000, .i32⟩
  | 116 => ⟨S3300000, .i32⟩
  | 117 => ⟨S3300000, .i32⟩
  | 118 => ⟨S3300000x1, .i32⟩
  | 119 => ⟨S3300000x64, .f32⟩
  | 120 => ⟨S3300000x1, .f32⟩
  | 121 => ⟨S3300000x64, .f32⟩
  | 122 => ⟨S3300000x64, .f32⟩
  | 123 => ⟨S_, .f32⟩
  | 124 => ⟨S100000x64, .f32⟩
  | 125 => ⟨S3300000x1, .i32⟩
  | 126 => ⟨S100000x64, .f32⟩
  | 127 => ⟨S1x64, .f32⟩
  | _ => ⟨S100000x3, .f32⟩

abbrev hbmTy0_1 (i : Nat) : BufTy := match i % 128 with
  | 0 => ⟨S100000x64, .f32⟩
  | 1 => ⟨S100000x64, .f32⟩
  | 2 => ⟨S_, .f32⟩
  | 3 => ⟨S100000x64, .f32⟩
  | 4 => ⟨S100000x64, .f32⟩
  | 5 => ⟨S100000x32, .f32⟩
  | 6 => ⟨S_, .i32⟩
  | 7 => ⟨S3300000, .i32⟩
  | 8 => ⟨S3300000, .i1⟩
  | 9 => ⟨S_, .i32⟩
  | 10 => ⟨S3300000, .i32⟩
  | 11 => ⟨S3300000, .i32⟩
  | 12 => ⟨S3300000, .i32⟩
  | 13 => ⟨S3300000x1, .i32⟩
  | 14 => ⟨S3300000x32, .f32⟩
  | 15 => ⟨S3300000x1, .f32⟩
  | 16 => ⟨S3300000x32, .f32⟩
  | 17 => ⟨S3300000x32, .f32⟩
  | 18 => ⟨S_, .f32⟩
  | 19 => ⟨S100000x32, .f32⟩
  | 20 => ⟨S3300000x1, .i32⟩
  | 21 => ⟨S100000x32, .f32⟩
  | 22 => ⟨S1x32, .f32⟩
  | 23 => ⟨S100000x32, .f32⟩
  | 24 => ⟨S100000x32, .f32⟩
  | 25 => ⟨S_, .f32⟩
  | 26 => ⟨S100000x32, .f32⟩
  | 27 => ⟨S100000x32, .f32⟩
  | 28 => ⟨S100000x3, .f32⟩
  | 29 => ⟨S_, .i32⟩
  | 30 => ⟨S3300000, .i32⟩
  | 31 => ⟨S3300000, .i1⟩
  | 32 => ⟨S_, .i32⟩
  | 33 => ⟨S3300000, .i32⟩
  | 34 => ⟨S3300000, .i32⟩
  | 35 => ⟨S3300000, .i32⟩
  | 36 => ⟨S3300000x1, .i32⟩
  | 37 => ⟨S3300000x3, .f32⟩
  | 38 => ⟨S3300000x1, .f32⟩
  | 39 => ⟨S3300000x3, .f32⟩
  | 40 => ⟨S3300000x3, .f32⟩
  | 41 => ⟨S_, .f32⟩
  | 42 => ⟨S100000x3, .f32⟩
  | 43 => ⟨S3300000x1, .i32⟩
  | 44 => ⟨S100000x3, .f32⟩
  | 45 => ⟨S1x3, .f32⟩
  | 46 => ⟨S100000x3, .f32⟩
  | 47 => ⟨S100000x3, .f32⟩
  | _ => ⟨S100000x3, .f32⟩

abbrev hbmTy (i : Nat) : BufTy := match i / 128 with
  | 0 => hbmTy0_0 i
  | 1 => hbmTy0_1 i
  | _ => ⟨S100000x3, .f32⟩

abbrev bufTy : (tb : Table) → Fin (tcTables nBuf tb) → BufTy
  | .hbm, ⟨i, _⟩ => hbmTy i
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v14 : Ref sig .tc := ⟨.hbm, 34, rfl⟩
abbrev main_c : Ref sig .tc := ⟨.hbm, 35, rfl⟩
abbrev main_v15 : Ref sig .tc := ⟨.hbm, 36, rfl⟩
abbrev main_v16 : Ref sig .tc := ⟨.hbm, 37, rfl⟩
abbrev main_c_3 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_c_4 : Ref sig .tc := ⟨.hbm, 44, rfl⟩
abbrev main_v22 : Ref sig .tc := ⟨.hbm, 45, rfl⟩
abbrev main_v23 : Ref sig .tc := ⟨.hbm, 46, rfl⟩
abbrev main_c_5 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_c_6 : Ref sig .tc := ⟨.hbm, 54, rfl⟩
abbrev main_v30 : Ref sig .tc := ⟨.hbm, 55, rfl⟩
abbrev main_v31 : Ref sig .tc := ⟨.hbm, 56, rfl⟩
abbrev main_c_7 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_c_8 : Ref sig .tc := ⟨.hbm, 65, rfl⟩
abbrev main_v39 : Ref sig .tc := ⟨.hbm, 66, rfl⟩
abbrev main_v40 : Ref sig .tc := ⟨.hbm, 67, rfl⟩
abbrev main_c_9 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_10 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_call1_cst : Ref sig .tc := ⟨.hbm, 84, rfl⟩
abbrev main_call1_v0 : Ref sig .tc := ⟨.hbm, 85, rfl⟩
abbrev main_v55 : Ref sig .tc := ⟨.hbm, 86, rfl⟩
abbrev main_v56 : Ref sig .tc := ⟨.hbm, 87, rfl⟩
abbrev main_c_11 : Ref sig .tc := ⟨.hbm, 88, rfl⟩
abbrev main_v57 : Ref sig .tc := ⟨.hbm, 89, rfl⟩
abbrev main_v58 : Ref sig .tc := ⟨.hbm, 90, rfl⟩
abbrev main_c_12 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_cst_13 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_call2_cst : Ref sig .tc := ⟨.hbm, 107, rfl⟩
abbrev main_call2_v0 : Ref sig .tc := ⟨.hbm, 108, rfl⟩
abbrev main_v73 : Ref sig .tc := ⟨.hbm, 109, rfl⟩
abbrev main_v74 : Ref sig .tc := ⟨.hbm, 110, rfl⟩
abbrev main_c_14 : Ref sig .tc := ⟨.hbm, 111, rfl⟩
abbrev main_v75 : Ref sig .tc := ⟨.hbm, 112, rfl⟩
abbrev main_v76 : Ref sig .tc := ⟨.hbm, 113, rfl⟩
abbrev main_c_15 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_cst_16 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_call3_cst : Ref sig .tc := ⟨.hbm, 130, rfl⟩
abbrev main_call3_v0 : Ref sig .tc := ⟨.hbm, 131, rfl⟩
abbrev main_v91 : Ref sig .tc := ⟨.hbm, 132, rfl⟩
abbrev main_v92 : Ref sig .tc := ⟨.hbm, 133, rfl⟩
abbrev main_c_17 : Ref sig .tc := ⟨.hbm, 134, rfl⟩
abbrev main_v93 : Ref sig .tc := ⟨.hbm, 135, rfl⟩
abbrev main_v94 : Ref sig .tc := ⟨.hbm, 136, rfl⟩
abbrev main_c_18 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_cst_19 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_call4_cst : Ref sig .tc := ⟨.hbm, 153, rfl⟩
abbrev main_call4_v0 : Ref sig .tc := ⟨.hbm, 154, rfl⟩
abbrev main_v109 : Ref sig .tc := ⟨.hbm, 155, rfl⟩
abbrev main_v110 : Ref sig .tc := ⟨.hbm, 156, rfl⟩
abbrev main_c_20 : Ref sig .tc := ⟨.hbm, 157, rfl⟩
abbrev main_v111 : Ref sig .tc := ⟨.hbm, 158, rfl⟩
abbrev main_v112 : Ref sig .tc := ⟨.hbm, 159, rfl⟩
abbrev main_c_21 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_cst_22 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S100000_S100000x1_0 : S100000.BroadcastsInDim S100000x1 (![0] : Fin 1 → Fin S100000x1.rank)
  concatenates_S100000x3_S100000x3_S100000x6_d1 : Shape.Concatenates [S100000x3, S100000x3] S100000x6 1
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S3300000x1_S3300000x3_0_1 : S3300000x1.BroadcastsInDim S3300000x3 (![0, 1] : Fin 2 → Fin S3300000x3.rank)
  bcast_S_S100000x3 : S_.BroadcastsInDim S100000x3 (![] : Fin 0 → Fin S100000x3.rank)
  bcast_S3_S1x3_1 : S3.BroadcastsInDim S1x3 (![1] : Fin 1 → Fin S1x3.rank)
  bcast_S1x3_S100000x3_0_1 : S1x3.BroadcastsInDim S100000x3 (![0, 1] : Fin 2 → Fin S100000x3.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S2x3_S100000x1_S100000x3_1_0_n_n_0_1_13_wf : GatherDims.WF S2x3 S100000x1 S100000x3 [1] [0] [] [0] [] 1 ![1, 3]
  dot_S100000x6_S6x32_S100000x32_1_0_0_1_n_n_wf : DotDims.WF S100000x6 S6x32 S100000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S100000x32_S32x64_S100000x64_1_0_0_1_n_n_wf : DotDims.WF S100000x32 S32x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x64_S100000x64_1_0_0_1_n_n_wf : DotDims.WF S100000x64 S64x64 S100000x64 [1] [0] [0] [1] [] []
  dot_S100000x64_S64x32_S100000x32_1_0_0_1_n_n_wf : DotDims.WF S100000x64 S64x32 S100000x32 [1] [0] [0] [1] [] []
  dot_S100000x32_S32x3_S100000x3_1_0_0_1_n_n_wf : DotDims.WF S100000x32 S32x3 S100000x3 [1] [0] [0] [1] [] []
  gather_S100000x3_S3300000x1_S3300000x3_1_0_n_n_0_1_13_wf : GatherDims.WF S100000x3 S3300000x1 S3300000x3 [1] [0] [] [0] [] 1 ![1, 3]
  scatter_S100000x3_S3300000x1_S3300000x3_1_0_0_1_wf : ScatterDims.WF S100000x3 S3300000x1 S3300000x3 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S2x3_S100000x1_S100000x3_1_0_n_n_0_1_13 : GatherDims S2x3 S100000x1 S100000x3 where
  offsetDims := [1]
  collapsedSliceDims := [0]
  operandBatchingDims := []
  startIndicesBatchingDims := []
  startIndexMap := [0]
  indexVectorDim := 1
  sliceSizes := ![1, 3]
  wf := gather_S2x3_S100000x1_S100000x3_1_0_n_n_0_1_13_wf
def dot_S100000x6_S6x32_S100000x32_1_0_0_1_n_n : DotDims S100000x6 S6x32 S100000x32 where
  lhsContracting := [1]
  rhsContracting := [0]
  lhsNonContracting := [0]
  rhsNonContracting := [1]
  lhsBatch := []
  rhsBatch := []
  wf := dot_S100000x6_S6x32_S100000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def dot_S100000x32_S32x3_S100000x3_1_0_0_1_n_n : DotDims S100000x32 S32x3 S100000x3 where
  lhsContracting := [1]
  rhsContracting := [0]
  lhsNonContracting := [0]
  rhsNonContracting := [1]
  lhsBatch := []
  rhsBatch := []
  wf := dot_S100000x32_S32x3_S100000x3_1_0_0_1_n_n_wf
def gather_S100000x3_S3300000x1_S3300000x3_1_0_n_n_0_1_13 : GatherDims S100000x3 S3300000x1 S3300000x3 where
  offsetDims := [1]
  collapsedSliceDims := [0]
  operandBatchingDims := []
  startIndicesBatchingDims := []
  startIndexMap := [0]
  indexVectorDim := 1
  sliceSizes := ![1, 3]
  wf := gather_S100000x3_S3300000x1_S3300000x3_1_0_n_n_0_1_13_wf
def scatter_S100000x3_S3300000x1_S3300000x3_1_0_0_1 : ScatterDims S100000x3 S3300000x1 S3300000x3 where
  updateWindowDims := [1]
  insertedWindowDims := [0]
  scatterDimsToOperandDims := [0]
  indexVectorDim := 1
  wf := scatter_S100000x3_S3300000x1_S3300000x3_1_0_0_1_wf

class Facts : Prop extends Facts₀ where

variable [Facts]
-- ==== Proof.KernelRun.lean ====
/-
  The idealized kernel's run with its result named.

  The program is eighteen segments: stretches of whole-array operations and ten tiled regions. Every weakly fair
  execution runs them in order, and the contents of every buffer at each boundary are a fold from the launch memory:
  a stretch applies its operations, a region leaves its output array at what its ten write-backs leave and every other
  buffer as it was. The run below is the launch of those segments with, beside the unchanged arguments, the result
  buffer read at the last boundary's contents. What those contents ARE, as a function of the arguments, is the next
  modules' matter.
-/
import proofs.«125373_j36541581754987_1_alg».proof.Proof.Gen.KernelIdeal.Frame

set_option maxRecDepth 16384

noncomputable section

namespace Cert.KernelIdeal.Result

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's contents and
    every argument array as launched. -/
theorem run_result : θ_run defs (onTc (τ := τ) (main (F := F))) ⟨m, fun _ => 0, ρ⟩ (fun r => ∀ c : Dev nD,
      r.2.mem ((c.tc : Thread nD τ).loc main_v117) = W18 m ρ c (Proc.devRef .tc main_v117)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h c =>
      ⟨h c _ (mem_uc main_v117 (by decide)),
       (h c _ (mem_uc main_arg0 (by decide))).trans (W18_main_arg0 m ρ c),
       (h c _ (mem_uc main_arg1 (by decide))).trans (W18_main_arg1 m ρ c),
       (h c _ (mem_uc main_arg2 (by decide))).trans (W18_main_arg2 m ρ c),
       (h c _ (mem_uc main_arg3 (by decide))).trans (W18_main_arg3 m ρ c),
       (h c _ (mem_uc main_arg4 (by decide))).trans (W18_main_arg4 m ρ c),
       (h c _ (mem_uc main_arg5 (by decide))).trans (W18_main_arg5 m ρ c),
       (h c _ (mem_uc main_arg6 (by decide))).trans (W18_main_arg6 m ρ c),
       (h c _ (mem_uc main_arg7 (by decide))).trans (W18_main_arg7 m ρ c),
       (h c _ (mem_uc main_arg8 (by decide))).trans (W18_main_arg8 m ρ c),
       (h c _ (mem_uc main_arg9 (by decide))).trans (W18_main_arg9 m ρ c),
       (h c _ (mem_uc main_arg10 (by decide))).trans (W18_main_arg10 m ρ c),
       (h c _ (mem_uc main_arg11 (by decide))).trans (W18_main_arg11 m ρ c),
       (h c _ (mem_uc main_arg12 (by decide))).trans (W18_main_arg12 m ρ c),
       (h c _ (mem_uc main_arg13 (by decide))).trans (W18_main_arg13 m ρ c)⟩)

end Cert.KernelIdeal.Result

end
-- ==== Proof.LibDotPlain.lean ====
/-
  The dimension numbers of a plain matrix product — the left operand contracted on its last axis, the right on its
  first, no batch axes — read at an index. At result position (i, q) and contraction position k the left operand is
  read at (i, k) and the right at (k, q); the contraction shape has one axis of the shared extent, so the sum over it
  is the ordinary sum over k of l(i, k) · r(k, q). Both a tiled matrix unit product into a zero accumulator and a host
  dot product then read, at the ideal instance, as that sum, whatever the extents.
-/
import Idealize.ShloMosaic.PureOps.Ideal.Laws
import Idealize.ShloMosaic.Lib.ValueIdx

noncomputable section

open scoped BigOperators

namespace Idealize.ShloMosaic.DotPlain

open Idealize.ShloMosaic Idealize.ShloMosaic.ValueIdx

variable {M K N : Nat} (d : DotDims ⟨2, ![M, K]⟩ ⟨2, ![K, N]⟩ ⟨2, ![M, N]⟩)

/-- The dimension numbers are those of a plain product: [1] × [0] contracted, [0] and [1] kept, no batch axes. -/
structure IsPlain : Prop where
  lc : d.lhsContracting = [1]
  rc : d.rhsContracting = [0]
  ln : d.lhsNonContracting = [0]
  rn : d.rhsNonContracting = [1]
  lb : d.lhsBatch = []
  rb : d.rhsBatch = []

variable {d}

theorem rank_one (h : IsPlain d) : d.contr.rank = 1 := by rw [d.rank_contr, h.lc]; rfl

theorem size_zero (h : IsPlain d) : d.contr.size ⟨0, by rw [rank_one h]; exact Nat.one_pos⟩ = K := by
  rw [d.size_contr 0 (by rw [h.lc]; exact Nat.one_pos)]
  have e : d.lhsContracting[0]'(by rw [h.lc]; exact Nat.one_pos) = (1 : Fin 2) := by simp [h.lc]
  rw [e]; rfl

/-- The contraction positions are the numbers below the shared extent. -/
def pos (h : IsPlain d) : d.contr.Idx ≃ Fin K := contrEquiv1 d K (rank_one h) (size_zero h)

private theorem val_congr {n : Nat} {s : Fin n → Nat} (j : (i : Fin n) → Fin (s i)) :
    ∀ (p q : Nat) (hp : p < n) (hq : q < n), p = q → (j ⟨p, hp⟩).val = (j ⟨q, hq⟩).val :=
  fun p q hp hq e => by subst e; rfl

theorem lhsIdx_row (h : IsPlain d) (j : (⟨2, ![M, N]⟩ : Shape).Idx) (k : d.contr.Idx) :
    (d.lhsIdx j k 0).val = (j 0).val := by
  have hb : (0 : Fin 2) ∉ d.lhsBatch := by rw [h.lb]; exact List.not_mem_nil
  have hn : (0 : Fin 2) ∈ d.lhsNonContracting := by rw [h.ln]; exact List.mem_singleton.mpr rfl
  unfold DotDims.lhsIdx
  rw [dif_neg hb, dif_pos hn]
  simp only [Fin.val_cast]
  exact val_congr j _ _ _ _ (by simp [h.lb, h.ln])

theorem lhsIdx_col (h : IsPlain d) (j : (⟨2, ![M, N]⟩ : Shape).Idx) (k : d.contr.Idx) :
    (d.lhsIdx j k 1).val = (pos h k).val := by
  rw [d.lhsIdx_val_of_single h.lc j k]; rfl

theorem rhsIdx_row (h : IsPlain d) (j : (⟨2, ![M, N]⟩ : Shape).Idx) (k : d.contr.Idx) :
    (d.rhsIdx j k 0).val = (pos h k).val := by
  rw [d.rhsIdx_val_of_single h.rc j k]; rfl

theorem rhsIdx_col (h : IsPlain d) (j : (⟨2, ![M, N]⟩ : Shape).Idx) (k : d.contr.Idx) :
    (d.rhsIdx j k 1).val = (j 1).val := by
  have hb : (1 : Fin 2) ∉ d.rhsBatch := by rw [h.rb]; exact List.not_mem_nil
  have hn : (1 : Fin 2) ∈ d.rhsNonContracting := by rw [h.rn]; exact List.mem_singleton.mpr rfl
  unfold DotDims.rhsIdx
  rw [dif_neg hb, dif_pos hn]
  simp only [Fin.val_cast]
  exact val_congr j _ _ _ _ (by simp [h.lb, h.ln, h.rn])

theorem lhsIdx_eq (h : IsPlain d) (j : (⟨2, ![M, N]⟩ : Shape).Idx) (k : d.contr.Idx) :
    d.lhsIdx j k = ix2 (j 0) (pos h k) := by
  funext a; apply Fin.ext
  match a with
  | ⟨0, _⟩ => exact lhsIdx_row h j k
  | ⟨1, _⟩ => exact lhsIdx_col h j k

theorem rhsIdx_eq (h : IsPlain d) (j : (⟨2, ![M, N]⟩ : Shape).Idx) (k : d.contr.Idx) :
    d.rhsIdx j k = ix2 (pos h k) (j 1) := by
  funext a; apply Fin.ext
  match a with
  | ⟨0, _⟩ => exact rhsIdx_row h j k
  | ⟨1, _⟩ => exact rhsIdx_col h j k

/-- THE CONTRACTION SUM of a plain product is the sum over k below the shared extent of l(i, k) · r(k, q). -/
theorem sum_eq (h : IsPlain d) (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k) = ∑ k : Fin K, l (ix2 (j 0) k) * r (ix2 k (j 1)) := by
  rw [← Equiv.sum_comp (pos h) (fun k : Fin K => l (ix2 (j 0) k) * r (ix2 k (j 1)))]
  exact Finset.sum_congr rfl fun k _ => by rw [lhsIdx_eq h j k, rhsIdx_eq h j k]; rfl

/-- A matrix unit product into a zero accumulator, at the ideal instance and at an index. -/
theorem matmul_zero_apply (h : IsPlain d) (prec : Option ContractPrecision) {φ₁ φ₂ : FTy}
    (l : FVec Ideal ⟨2, ![M, K]⟩ φ₁) (r : FVec Ideal ⟨2, ![K, N]⟩ φ₂) (j : (⟨2, ![M, N]⟩ : Shape).Idx) :
    matmul d prec l r (constant (F := Ideal) ⟨2, ![M, N]⟩ .f32 0x00000000#32) j = ∑ k : Fin K, l (ix2 (j 0) k) * r (ix2 k (j 1)) :=
  (Ideal.matmul_constant_zero_apply d prec l r j).trans (sum_eq h l r j)

/-- A host dot product, at the ideal instance and at an index. -/
theorem dotGeneral_apply (h : IsPlain d) (prec : Option ContractPrecision) {φ₁ φ₂ : FTy}
    (l : FVec Ideal ⟨2, ![M, K]⟩ φ₁) (r : FVec Ideal ⟨2, ![K, N]⟩ φ₂) (j : (⟨2, ![M, N]⟩ : Shape).Idx) :
    Host.dotGeneral d prec l r j = ∑ k : Fin K, l (ix2 (j 0) k) * r (ix2 k (j 1)) := by
  unfold Host.dotGeneral
  exact (Ideal.dotGeneral_apply d prec _ l r j).trans (sum_eq h l r j)

end Idealize.ShloMosaic.DotPlain

end
-- ==== Proof.LibMatProd.lean ====
/-
  The product of an M×K and a K×N array of extended reals as ONE function of the two arrays: entry (i, q) is the sum over
  k of l(i, k) · r(k, q). A host dot product with plain matrix-product dimension numbers, and a matrix-unit product into
  a zero accumulator, are that function at the ideal instance; and an entry of the product depends only on row i of the
  left operand and column q of the right one, so the product of a block of rows with the right operand is that block of
  rows of the whole product.
-/
import proofs.«125373_j36541581754987_1_alg».proof.Proof.LibDotPlain

noncomputable section

open scoped BigOperators

namespace Idealize.ShloMosaic.MatProd

open Idealize.ShloMosaic Idealize.ShloMosaic.ValueIdx Idealize.ShloMosaic.DotPlain

/-- Entry (i, q) of the product: the sum over k of l(i, k) · r(k, q). -/
def matProd {M K N : Nat} (l : (⟨2, ![M, K]⟩ : Shape).Idx → EReal) (r : (⟨2, ![K, N]⟩ : Shape).Idx → EReal) :
    (⟨2, ![M, N]⟩ : Shape).Idx → EReal :=
  fun j => ∑ k : Fin K, l (ix2 (j 0) k) * r (ix2 k (j 1))

variable {M K N : Nat} {d : DotDims ⟨2, ![M, K]⟩ ⟨2, ![K, N]⟩ ⟨2, ![M, N]⟩}

/-- A host dot product with plain dimension numbers is the product. -/
theorem dotGeneral_eq (h : IsPlain d) (prec : Option ContractPrecision) {φ₁ φ₂ : FTy}
    (l : FVec Ideal ⟨2, ![M, K]⟩ φ₁) (r : FVec Ideal ⟨2, ![K, N]⟩ φ₂) :
    Host.dotGeneral d prec l r = matProd l r :=
  funext fun j => DotPlain.dotGeneral_apply h prec l r j

/-- A matrix-unit product into a zero accumulator is the product, at an entry. -/
theorem matmul_zero_apply (h : IsPlain d) (prec : Option ContractPrecision) {φ₁ φ₂ : FTy}
    (l : FVec Ideal ⟨2, ![M, K]⟩ φ₁) (r : FVec Ideal ⟨2, ![K, N]⟩ φ₂) (j : (⟨2, ![M, N]⟩ : Shape).Idx) :
    matmul d prec l r (constant (F := Ideal) ⟨2, ![M, N]⟩ .f32 0x00000000#32) j = matProd l r j :=
  DotPlain.matmul_zero_apply h prec l r j

/-- An entry of a product of a block of rows (and a copy of the right operand) is the entry of the whole product whose
    row the block's row is: the sums agree term by term. -/
theorem matProd_of_rows {B : Nat} (lb : (⟨2, ![B, K]⟩ : Shape).Idx → EReal) (rb : (⟨2, ![K, N]⟩ : Shape).Idx → EReal)
    (l : (⟨2, ![M, K]⟩ : Shape).Idx → EReal) (r : (⟨2, ![K, N]⟩ : Shape).Idx → EReal)
    (p : Fin B) (q : Fin N) (i : Fin M)
    (hl : ∀ k : Fin K, lb (ix2 p k) = l (ix2 i k)) (hr : ∀ k : Fin K, rb (ix2 k q) = r (ix2 k q)) :
    matProd lb rb (ix2 p q) = matProd l r (ix2 i q) :=
  Finset.sum_congr rfl fun k _ => by
    show lb (ix2 p k) * rb (ix2 k q) = l (ix2 i k) * r (ix2 k q)
    rw [hl k, hr k]

end Idealize.ShloMosaic.MatProd

end
-- ==== Proof.LibActivation.lean ====
/-
  Bias and activation, entry by entry, as functions of whole arrays.

  A hidden layer adds a bias to every row of an array and takes the maximum with zero; the output layer adds a bias and
  applies the logistic function 1 / (1 + e^(-x)). The bias comes either as a vector of length n or as an array of one
  row [1, n]; entry (i, d) of the result uses the bias entry d either way, so the one-row form over a vector laid out as
  a row is the vector form. Zero is kept as the float word it is written with in both programs.
-/
import Idealize.ShloMosaic.PureOps.Ideal
import Idealize.ShloMosaic.Lib.ValueIdx
import Idealize.ShloMosaic.Lib.ValueLayout
import Idealize.ShloMosaic.Lib.Pipeline.Value

noncomputable section

namespace Cert.Activation

open Idealize.ShloMosaic Idealize.ShloMosaic.ValueIdx

variable {a n : Nat}

/-- Bias row added to every row, then the maximum with zero. -/
def rectifiedRow (A : (⟨2, ![a, n]⟩ : Shape).Idx → EReal) (b : (⟨2, ![1, n]⟩ : Shape).Idx → EReal) :
    (⟨2, ![a, n]⟩ : Shape).Idx → EReal :=
  fun i => max (A i + b (ix2 (0 : Fin 1) (i 1))) (Ideal.ofBits .f32 0x00000000#32)

theorem rectifiedRow_apply (A : (⟨2, ![a, n]⟩ : Shape).Idx → EReal) (b : (⟨2, ![1, n]⟩ : Shape).Idx → EReal)
    (p : Fin a) (d : Fin n) :
    rectifiedRow A b (ix2 p d) = max (A (ix2 p d) + b (ix2 (0 : Fin 1) d)) (Ideal.ofBits .f32 0x00000000#32) := rfl

/-- Bias vector added to every row, then the maximum with zero. -/
def rectified (A : (⟨2, ![a, n]⟩ : Shape).Idx → EReal) (b : (⟨1, ![n]⟩ : Shape).Idx → EReal) :
    (⟨2, ![a, n]⟩ : Shape).Idx → EReal :=
  fun i => max (A i + b (ix1 (i 1))) (Ideal.ofBits .f32 0x00000000#32)

theorem rectified_apply (A : (⟨2, ![a, n]⟩ : Shape).Idx → EReal) (b : (⟨1, ![n]⟩ : Shape).Idx → EReal)
    (p : Fin a) (d : Fin n) :
    rectified A b (ix2 p d) = max (A (ix2 p d) + b (ix1 d)) (Ideal.ofBits .f32 0x00000000#32) := rfl

/-- Bias row added to every row, then the logistic function. -/
def logisticRow (A : (⟨2, ![a, n]⟩ : Shape).Idx → EReal) (b : (⟨2, ![1, n]⟩ : Shape).Idx → EReal) :
    (⟨2, ![a, n]⟩ : Shape).Idx → EReal :=
  fun i => Ideal.logistic (A i + b (ix2 (0 : Fin 1) (i 1)))

theorem logisticRow_apply (A : (⟨2, ![a, n]⟩ : Shape).Idx → EReal) (b : (⟨2, ![1, n]⟩ : Shape).Idx → EReal)
    (p : Fin a) (d : Fin n) :
    logisticRow A b (ix2 p d) = Ideal.logistic (A (ix2 p d) + b (ix2 (0 : Fin 1) d)) := rfl

/-- Bias vector added to every row, then the logistic function. -/
def logisticOf (A : (⟨2, ![a, n]⟩ : Shape).Idx → EReal) (b : (⟨1, ![n]⟩ : Shape).Idx → EReal) :
    (⟨2, ![a, n]⟩ : Shape).Idx → EReal :=
  fun i => Ideal.logistic (A i + b (ix1 (i 1)))

theorem logisticOf_apply (A : (⟨2, ![a, n]⟩ : Shape).Idx → EReal) (b : (⟨1, ![n]⟩ : Shape).Idx → EReal)
    (p : Fin a) (d : Fin n) :
    logisticOf A b (ix2 p d) = Ideal.logistic (A (ix2 p d) + b (ix1 d)) := rfl

/-- A bias vector laid out as one row gives the vector form of the rectified array. -/
theorem rectifiedRow_of_vector (A : (⟨2, ![a, n]⟩ : Shape).Idx → EReal) (b : (⟨1, ![n]⟩ : Shape).Idx → EReal)
    (h : (⟨1, ![n]⟩ : Shape).ShapeCasts ⟨2, ![1, n]⟩) :
    rectifiedRow A (shapeCast ⟨2, ![1, n]⟩ b h) = rectified A b := by
  funext i
  obtain ⟨p, d, rfl⟩ : ∃ (p : Fin a) (d : Fin n), i = ix2 p d := ⟨i 0, i 1, eq_ix2 i⟩
  rw [rectifiedRow_apply, rectified_apply, shapeCast_a_1a_apply]

/-- A bias vector laid out as one row gives the vector form of the logistic array. -/
theorem logisticRow_of_vector (A : (⟨2, ![a, n]⟩ : Shape).Idx → EReal) (b : (⟨1, ![n]⟩ : Shape).Idx → EReal)
    (h : (⟨1, ![n]⟩ : Shape).ShapeCasts ⟨2, ![1, n]⟩) :
    logisticRow A (shapeCast ⟨2, ![1, n]⟩ b h) = logisticOf A b := by
  funext i
  obtain ⟨p, d, rfl⟩ : ∃ (p : Fin a) (d : Fin n), i = ix2 p d := ⟨i 0, i 1, eq_ix2 i⟩
  rw [logisticRow_apply, logisticOf_apply, shapeCast_a_1a_apply]

end Cert.Activation

end
-- ==== Proof.LibRowOfVector.lean ====
/-
  A bias vector as an array of one row, two ways.

  A vector of length `a` can be made an array of shape `[1, a]` by a reshape (row-major positions are kept) or by a
  broadcast that sends the vector's axis to the array's second axis. Both arrays have entry `(0, q)` equal to entry `q`
  of the vector, so they are the same array. A tiled kernel usually receives its bias in the first form, a whole-array
  reference usually builds the second.
-/
import Idealize.ShloMosaic.Lib.ValueLayout
import Idealize.ShloMosaic.Lib.ValueIdx
import Idealize.ShloMosaic.Lib.Pipeline.Value

noncomputable section

namespace Cert.LibRowOfVector

open Idealize.ShloMosaic Idealize.ShloMosaic.ValueIdx

/-- A vector reshaped to an array of one row is the vector broadcast along that row: entry `(0, q)` of either is
    entry `q` of the vector. Holds for any element type and any length (for length one the broadcast reads index
    `0`, which is the only index). -/
theorem row_of_vector {α : Type} {a : ℕ} (x : (⟨1, ![a]⟩ : Shape).Idx → α) (h : (⟨1, ![a]⟩ : Shape).ShapeCasts ⟨2, ![1, a]⟩)
    (hb : (⟨1, ![a]⟩ : Shape).BroadcastsInDim ⟨2, ![1, a]⟩ ![1]) :
    shapeCast ⟨2, ![1, a]⟩ x h = broadcastInDim ⟨2, ![1, a]⟩ ![1] hb x := by
  funext i
  obtain ⟨u, q, rfl⟩ : ∃ (u : Fin 1) (q : Fin a), i = ix2 u q := ⟨i 0, i 1, eq_ix2 i⟩
  rw [shapeCast_a_1a_apply]
  refine (broadcastInDim_apply _ hb x (ix2 u q) (ix1 q) (fun d => ?_)).symm
  match d with
  | ⟨0, _⟩ =>
    show q.val = if a = 1 then 0 else q.val
    split
    · have := q.isLt; omega
    · rfl

end Cert.LibRowOfVector

end
-- ==== Proof.LibHostBroadcast.lean ====
/-
  Two host broadcasts read at an entry.

  A one-row array [1, b] broadcast to [a, b] with both axes kept (dims = [0, 1]) reads, at (i, q), the row's entry
  (0, q): the unit axis reads index 0, the other axis its own coordinate (and when b = 1 that coordinate is 0 too).
  A scalar broadcast to any shape (dims = []) reads the scalar at every entry. These are the forms a whole-array
  reference builds a bias row and a constant array in.
-/
import Idealize.ShloMosaic.Lib.ValueIdx
import Idealize.ShloMosaic.Lib.Pipeline.Value

noncomputable section

namespace Cert.LibHostBroadcast

open Idealize.ShloMosaic Idealize.ShloMosaic.ValueIdx

/-- A one-row array broadcast down the rows (both axes kept) reads, at (i, q), the row's entry (0, q). -/
theorem bcast_rows_apply {α : Type} {a b : ℕ} (v : (⟨2, ![1, b]⟩ : Shape).Idx → α)
    (h : (⟨2, ![1, b]⟩ : Shape).BroadcastsInDim ⟨2, ![a, b]⟩ ![0, 1]) (i : Fin a) (q : Fin b) :
    broadcastInDim ⟨2, ![a, b]⟩ ![0, 1] h v (ix2 i q) = v (ix2 (0 : Fin 1) q) := by
  refine broadcastInDim_apply _ h v (ix2 i q) (ix2 (0 : Fin 1) q) fun d => ?_
  match d with
  | ⟨0, _⟩ => rfl
  | ⟨1, _⟩ =>
    show q.val = if b = 1 then 0 else q.val
    split
    · have := q.isLt; omega
    · rfl

/-- A scalar broadcast to an array reads the scalar at every entry. -/
theorem bcast_scalar_apply {α : Type} {t : Shape} (v : (⟨0, ![]⟩ : Shape).Idx → α)
    (h : (⟨0, ![]⟩ : Shape).BroadcastsInDim t ![]) (j : t.Idx) :
    broadcastInDim t ![] h v j = v ix0 :=
  broadcastInDim_apply _ h v j ix0 fun d => d.elim0

end Cert.LibHostBroadcast

end
-- ==== Proof.LibHostBiasRelu.lean ====
/-
  Bias and rectifier as a host program spells them, and a block of rows standing for the whole array.

  A whole-array program adds a bias vector b of length n to every row of an [a, n] array by broadcasting b to one row
  [1, n], that row down the a rows, adding, and taking the maximum with a broadcast zero. Entry (i, d) of the result is
  max(A(i, d) + b(d), 0): the bias-and-rectifier with the bias laid out as one row (the form a tiled kernel receives it
  in, by a reshape). And since entry (i, d) of that array uses row i of A only, a block of rows of A, rectified with a
  copy of the bias row, is that block of rows of the rectified whole array. Any extents; no finiteness is used.
-/
import proofs.«125373_j36541581754987_1_alg».proof.Proof.LibActivation
import proofs.«125373_j36541581754987_1_alg».proof.Proof.LibRowOfVector
import proofs.«125373_j36541581754987_1_alg».proof.Proof.LibHostBroadcast
import Idealize.ShloMosaic.Lib.ValueLayout

noncomputable section

namespace Cert.HostBiasRelu

open Idealize.ShloMosaic Idealize.ShloMosaic.ValueIdx Cert.Activation

/-- A vector broadcast to one row reads, at (0, d), the vector's entry d. -/
theorem biasRow_apply {α : Type} {n : Nat} (b : (⟨1, ![n]⟩ : Shape).Idx → α) (hb : (⟨1, ![n]⟩ : Shape).BroadcastsInDim ⟨2, ![1, n]⟩ ![1])
    (hs : (⟨1, ![n]⟩ : Shape).ShapeCasts ⟨2, ![1, n]⟩) (d : Fin n) :
    broadcastInDim ⟨2, ![1, n]⟩ ![1] hb b (ix2 (0 : Fin 1) d) = b (ix1 d) := by
  rw [← Cert.LibRowOfVector.row_of_vector b hs hb, shapeCast_a_1a_apply]

/-- The host's add-bias-and-floor-at-zero, with the bias broadcast from a vector, is the bias-and-rectifier with the
    bias laid out as one row. -/
theorem hostBiasRelu {a n : Nat} (A : FVec Ideal ⟨2, ![a, n]⟩ .f32) (b : FVec Ideal ⟨1, ![n]⟩ .f32)
    (h1 : (⟨2, ![1, n]⟩ : Shape).BroadcastsInDim ⟨2, ![a, n]⟩ ![0, 1])
    (h2 : (⟨1, ![n]⟩ : Shape).BroadcastsInDim ⟨2, ![1, n]⟩ ![1])
    (h0 : (⟨0, ![]⟩ : Shape).BroadcastsInDim ⟨2, ![a, n]⟩ ![])
    (hs : (⟨1, ![n]⟩ : Shape).ShapeCasts ⟨2, ![1, n]⟩) :
    maximumf (addf A (broadcastInDim ⟨2, ![a, n]⟩ ![0, 1] h1 (broadcastInDim ⟨2, ![1, n]⟩ ![1] h2 b)))
        (broadcastInDim ⟨2, ![a, n]⟩ ![] h0 (constant (F := Ideal) ⟨0, ![]⟩ .f32 0x00000000#32))
      = rectifiedRow A (shapeCast ⟨2, ![1, n]⟩ b hs) := by
  funext i
  obtain ⟨p, d, rfl⟩ : ∃ (p : Fin a) (d : Fin n), i = ix2 p d := ⟨i 0, i 1, eq_ix2 i⟩
  rw [rectifiedRow_apply, shapeCast_a_1a_apply]
  show max (A (ix2 p d) + broadcastInDim ⟨2, ![a, n]⟩ ![0, 1] h1 (broadcastInDim ⟨2, ![1, n]⟩ ![1] h2 b) (ix2 p d))
      (broadcastInDim ⟨2, ![a, n]⟩ ![] h0 (constant (F := Ideal) ⟨0, ![]⟩ .f32 0x00000000#32) (ix2 p d)) = _
  rw [Cert.LibHostBroadcast.bcast_rows_apply, Cert.LibHostBroadcast.bcast_scalar_apply, biasRow_apply b h2 hs d]
  rfl

/-- A row of the rectified array depends on its own row only: a block of rows, rectified with a copy of the bias row,
    is that block of the rectified whole array. -/
theorem rectifiedRow_of_rows {B M n : Nat} (ab : (⟨2, ![B, n]⟩ : Shape).Idx → EReal) (bb : (⟨2, ![1, n]⟩ : Shape).Idx → EReal)
    (A : (⟨2, ![M, n]⟩ : Shape).Idx → EReal) (b : (⟨2, ![1, n]⟩ : Shape).Idx → EReal) (p : Fin B) (d : Fin n) (i : Fin M)
    (hA : ab (ix2 p d) = A (ix2 i d)) (hb : bb (ix2 (0 : Fin 1) d) = b (ix2 (0 : Fin 1) d)) :
    rectifiedRow ab bb (ix2 p d) = rectifiedRow A b (ix2 i d) := by
  rw [rectifiedRow_apply, rectifiedRow_apply, hA, hb]

end Cert.HostBiasRelu

end
-- ==== Proof.LibBiasRow.lean ====
/-
  A bias row added to every row of an array, with no activation, entry by entry.

  The last layer of a network adds a bias to every row of an [a, n] array and stops there. Entry (i, d) of the result is
  A(i, d) + b(d), with the bias given as an array of one row [1, n]. A whole-array program builds that row from a
  vector of length n by two broadcasts; a tiled program receives the vector reshaped to one row and adds it to a block
  of rows at a time. Entry (i, d) uses row i of A only, so a block of rows with a copy of the bias row is that block of
  the whole result. Any extents; no finiteness is used.
-/
import proofs.«125373_j36541581754987_1_alg».proof.Proof.LibRowOfVector
import proofs.«125373_j36541581754987_1_alg».proof.Proof.LibHostBroadcast
import Idealize.ShloMosaic.PureOps.Ideal
import Idealize.ShloMosaic.Lib.ValueIdx
import Idealize.ShloMosaic.Lib.ValueLayout
import Idealize.ShloMosaic.Lib.Pipeline.Value

noncomputable section

namespace Cert.BiasRow

open Idealize.ShloMosaic Idealize.ShloMosaic.ValueIdx

/-- Bias row added to every row. -/
def biasedRow {a n : Nat} (A : (⟨2, ![a, n]⟩ : Shape).Idx → EReal) (b : (⟨2, ![1, n]⟩ : Shape).Idx → EReal) :
    (⟨2, ![a, n]⟩ : Shape).Idx → EReal :=
  fun i => A i + b (ix2 (0 : Fin 1) (i 1))

theorem biasedRow_apply {a n : Nat} (A : (⟨2, ![a, n]⟩ : Shape).Idx → EReal) (b : (⟨2, ![1, n]⟩ : Shape).Idx → EReal)
    (p : Fin a) (d : Fin n) : biasedRow A b (ix2 p d) = A (ix2 p d) + b (ix2 (0 : Fin 1) d) := rfl

/-- The host's add-bias, with the bias broadcast from a vector to one row and that row down the rows, is the biased
    array with the bias vector laid out as one row. -/
theorem hostBias {a n : Nat} (A : FVec Ideal ⟨2, ![a, n]⟩ .f32) (b : FVec Ideal ⟨1, ![n]⟩ .f32)
    (h1 : (⟨2, ![1, n]⟩ : Shape).BroadcastsInDim ⟨2, ![a, n]⟩ ![0, 1])
    (h2 : (⟨1, ![n]⟩ : Shape).BroadcastsInDim ⟨2, ![1, n]⟩ ![1])
    (hs : (⟨1, ![n]⟩ : Shape).ShapeCasts ⟨2, ![1, n]⟩) :
    addf A (broadcastInDim ⟨2, ![a, n]⟩ ![0, 1] h1 (broadcastInDim ⟨2, ![1, n]⟩ ![1] h2 b))
      = biasedRow A (shapeCast ⟨2, ![1, n]⟩ b hs) := by
  funext i
  obtain ⟨p, d, rfl⟩ : ∃ (p : Fin a) (d : Fin n), i = ix2 p d := ⟨i 0, i 1, eq_ix2 i⟩
  rw [biasedRow_apply]
  show A (ix2 p d) + broadcastInDim ⟨2, ![a, n]⟩ ![0, 1] h1 (broadcastInDim ⟨2, ![1, n]⟩ ![1] h2 b) (ix2 p d) = _
  rw [Cert.LibHostBroadcast.bcast_rows_apply, ← Cert.LibRowOfVector.row_of_vector b hs h2]

/-- A row of the biased array depends on its own row only: a block of rows, with a copy of the bias row, is that block
    of the biased whole array. -/
theorem biasedRow_of_rows {B M n : Nat} (ab : (⟨2, ![B, n]⟩ : Shape).Idx → EReal) (bb : (⟨2, ![1, n]⟩ : Shape).Idx → EReal)
    (A : (⟨2, ![M, n]⟩ : Shape).Idx → EReal) (b : (⟨2, ![1, n]⟩ : Shape).Idx → EReal) (p : Fin B) (d : Fin n) (i : Fin M)
    (hA : ab (ix2 p d) = A (ix2 i d)) (hb : bb (ix2 (0 : Fin 1) d) = b (ix2 (0 : Fin 1) d)) :
    biasedRow ab bb (ix2 p d) = biasedRow A b (ix2 i d) := by
  rw [biasedRow_apply, biasedRow_apply, hA, hb]

end Cert.BiasRow

end
-- ==== Proof.Spec.lean ====
/-
  The network as ONE function of the argument arrays.

  A graph of 100000 nodes and 3200000 directed edges, to which every node's self loop is appended (3300000 edges in
  all). The degree of a node counts the edges that end in it; dinv is its inverse square root where the degree is
  positive and zero elsewhere; the weight of edge e is dinv(src e) · dinv(dst e). A node's input features are its three
  coordinates followed by the embedding row of its type. One layer multiplies the [100000, k] features by a [k, n]
  matrix, sends row src(e) of the product, scaled by the edge's weight, along every edge e and sums what arrives at
  each node, adds a bias row and (all layers but the last) takes the maximum with zero. Five layers: 6 → 32 → 64 → 64 →
  32 → 3. Index vectors go through the usual wrap of negative indices before they are used to gather.
  The whole-array operations are spelt as both programs spell them; the matrix product and the bias-and-rectifier
  are the two functions that a tiled program and a whole-array program reach by different routes.
-/
import proofs.«125373_j36541581754987_1_alg».proof.Proof.LibMatProd
import proofs.«125373_j36541581754987_1_alg».proof.Proof.LibHostBiasRelu
import proofs.«125373_j36541581754987_1_alg».proof.Proof.LibBiasRow
import proofs.«125373_j36541581754987_1_alg».proof.Proof.Gen.KernelIdeal
import Idealize.ShloMosaic.PureOps.Ideal

noncomputable section

namespace Cert.Gcn

open Idealize.ShloMosaic Idealize.ShloMosaic.MatProd Cert.Activation Cert.BiasRow Cert.KernelIdeal Cert.KernelIdeal.Gen

/-- A 32-bit integer array of shape s. -/
abbrev Ix (s : Shape) : Type := IVec s 32
/-- An array of extended reals of shape s. -/
abbrev Fx (s : Shape) : Type := FVec Ideal s .f32

/-- Row 0 of the edge list (the sources), then the node numbers (the self loops). -/
def srcOf (e : Ix S2x3200000) : Ix S3300000 :=
  concatenate S3300000 0 [⟨S3200000, shapeCast S3200000 (extractStridedSlice S1x3200000 ![0, 0] e slices_S2x3200000_S1x3200000_0_0) shapeCasts_S1x3200000_S3200000⟩,
    ⟨S100000, iotaInDim S100000 32 0⟩] concatenates_S3200000_S100000_S3300000_d0

/-- Row 1 of the edge list (the targets), then the node numbers. -/
def dstOf (e : Ix S2x3200000) : Ix S3300000 :=
  concatenate S3300000 0 [⟨S3200000, shapeCast S3200000 (extractStridedSlice S1x3200000 ![1, 0] e slices_S2x3200000_S1x3200000_1_0) shapeCasts_S1x3200000_S3200000⟩,
    ⟨S100000, iotaInDim S100000 32 0⟩] concatenates_S3200000_S100000_S3300000_d0

/-- A negative node index counts from the end: add 100000 to it. -/
def wrap (s : Ix S3300000) : Ix S3300000 :=
  select (cmpi .slt s (broadcastInDim S3300000 ![] bcast_S_S3300000 (constantI S_ 32 0#32)))
    (addi s (broadcastInDim S3300000 ![] bcast_S_S3300000 (constantI S_ 32 100000#32))) s

/-- The number of edges that end in each node. -/
def degOf (dst : Ix S3300000) : Fx S100000 :=
  Host.scatterAdd scatter_S100000_S3300000x1_S3300000_n_0_0_1
    (broadcastInDim S100000 ![] bcast_S_S100000 (constant S_ .f32 0x00000000#32))
    (broadcastInDim S3300000x1 ![0] bcast_S3300000_S3300000x1_0 dst)
    (broadcastInDim S3300000 ![] bcast_S_S3300000 (constant S_ .f32 0x3F800000#32))

/-- The scalar that fills where the degree is not positive. -/
def fillArg (z : Fx S_) : Fx S_ := id z
/-- That scalar on every node. -/
def fillAll (z : Fx S_) : Fx S100000 := broadcastInDim S100000 ![] bcast_S_S100000 z
/-- The choice between two node arrays by a mask. -/
def pick (k : IVec S100000 1) (a b : Fx S100000) : Fx S100000 := select k a b

/-- The inverse square root of the degree where it is positive, zero elsewhere. -/
def dinvOf (deg : Fx S100000) : Fx S100000 :=
  pick (cmpf .ogt deg (broadcastInDim S100000 ![] bcast_S_S100000 (constant S_ .f32 0x00000000#32))) (Host.rsqrt deg)
    (fillAll (fillArg (constant S_ .f32 0x00000000#32)))

/-- The weight of every edge: dinv at its source times dinv at its target. -/
def normOf (src dst : Ix S3300000) : Fx S3300000 :=
  mulf (Host.gather gather_S100000_S3300000x1_S3300000_n_0_n_n_0_1_1 (dinvOf (degOf dst))
      (broadcastInDim S3300000x1 ![0] bcast_S3300000_S3300000x1_0 (wrap src)))
    (Host.gather gather_S100000_S3300000x1_S3300000_n_0_n_n_0_1_1 (dinvOf (degOf dst))
      (broadcastInDim S3300000x1 ![0] bcast_S3300000_S3300000x1_0 (wrap dst)))

/-- The input features: a node's coordinates, then the embedding row of its type (a negative type counts from 2). -/
def featuresOf (coords : Fx S100000x3) (types : Ix S100000) (emb : Fx S2x3) : Fx S100000x6 :=
  concatenate S100000x6 1 [⟨S100000x3, coords⟩,
    ⟨S100000x3, Host.gather gather_S2x3_S100000x1_S100000x3_1_0_n_n_0_1_13 emb
      (broadcastInDim S100000x1 ![0] bcast_S100000_S100000x1_0
        (select (cmpi .slt types (broadcastInDim S100000 ![] bcast_S_S100000 (constantI S_ 32 0#32)))
          (addi types (broadcastInDim S100000 ![] bcast_S_S100000 (constantI S_ 32 2#32))) types))⟩]
    concatenates_S100000x3_S100000x3_S100000x6_d1

/-- One layer's message passing on an [100000, 32] array: row src(e) of h scaled by norm(e), summed into row dst(e). -/
def agg32 (h : Fx S100000x32) (src dst : Ix S3300000) (norm : Fx S3300000) : Fx S100000x32 :=
  Host.scatterAdd scatter_S100000x32_S3300000x1_S3300000x32_1_0_0_1
    (broadcastInDim S100000x32 ![] bcast_S_S100000x32 (constant S_ .f32 0x00000000#32))
    (broadcastInDim S3300000x1 ![0] bcast_S3300000_S3300000x1_0 dst)
    (mulf (Host.gather gather_S100000x32_S3300000x1_S3300000x32_1_0_n_n_0_1_132 h
        (broadcastInDim S3300000x1 ![0] bcast_S3300000_S3300000x1_0 (wrap src)))
      (broadcastInDim S3300000x32 ![0, 1] bcast_S3300000x1_S3300000x32_0_1
        (broadcastInDim S3300000x1 ![0] bcast_S3300000_S3300000x1_0 norm)))

/-- One layer's message passing on an [100000, 64] array: row src(e) of h scaled by norm(e), summed into row dst(e). -/
def agg64 (h : Fx S100000x64) (src dst : Ix S3300000) (norm : Fx S3300000) : Fx S100000x64 :=
  Host.scatterAdd scatter_S100000x64_S3300000x1_S3300000x64_1_0_0_1
    (broadcastInDim S100000x64 ![] bcast_S_S100000x64 (constant S_ .f32 0x00000000#32))
    (broadcastInDim S3300000x1 ![0] bcast_S3300000_S3300000x1_0 dst)
    (mulf (Host.gather gather_S100000x64_S3300000x1_S3300000x64_1_0_n_n_0_1_164 h
        (broadcastInDim S3300000x1 ![0] bcast_S3300000_S3300000x1_0 (wrap src)))
      (broadcastInDim S3300000x64 ![0, 1] bcast_S3300000x1_S3300000x64_0_1
        (broadcastInDim S3300000x1 ![0] bcast_S3300000_S3300000x1_0 norm)))

/-- One layer's message passing on an [100000, 3] array: row src(e) of h scaled by norm(e), summed into row dst(e). -/
def agg3 (h : Fx S100000x3) (src dst : Ix S3300000) (norm : Fx S3300000) : Fx S100000x3 :=
  Host.scatterAdd scatter_S100000x3_S3300000x1_S3300000x3_1_0_0_1
    (broadcastInDim S100000x3 ![] bcast_S_S100000x3 (constant S_ .f32 0x00000000#32))
    (broadcastInDim S3300000x1 ![0] bcast_S3300000_S3300000x1_0 dst)
    (mulf (Host.gather gather_S100000x3_S3300000x1_S3300000x3_1_0_n_n_0_1_13 h
        (broadcastInDim S3300000x1 ![0] bcast_S3300000_S3300000x1_0 (wrap src)))
      (broadcastInDim S3300000x3 ![0, 1] bcast_S3300000x1_S3300000x3_0_1
        (broadcastInDim S3300000x1 ![0] bcast_S3300000_S3300000x1_0 norm)))

/-- The five layers. -/
def layer1 (x : Fx S100000x6) (W : Fx S6x32) (b : Fx S32) (src dst : Ix S3300000) (norm : Fx S3300000) : Fx S100000x32 :=
  rectifiedRow (a := 100000) (n := 32) (agg32 (matProd (M := 100000) (K := 6) (N := 32) x W) src dst norm) (shapeCast S1x32 b shapeCasts_S32_S1x32)
def layer2 (x : Fx S100000x32) (W : Fx S32x64) (b : Fx S64) (src dst : Ix S3300000) (norm : Fx S3300000) : Fx S100000x64 :=
  rectifiedRow (a := 100000) (n := 64) (agg64 (matProd (M := 100000) (K := 32) (N := 64) x W) src dst norm) (shapeCast S1x64 b shapeCasts_S64_S1x64)
def layer3 (x : Fx S100000x64) (W : Fx S64x64) (b : Fx S64) (src dst : Ix S3300000) (norm : Fx S3300000) : Fx S100000x64 :=
  rectifiedRow (a := 100000) (n := 64) (agg64 (matProd (M := 100000) (K := 64) (N := 64) x W) src dst norm) (shapeCast S1x64 b shapeCasts_S64_S1x64)
def layer4 (x : Fx S100000x64) (W : Fx S64x32) (b : Fx S32) (src dst : Ix S3300000) (norm : Fx S3300000) : Fx S100000x32 :=
  rectifiedRow (a := 100000) (n := 32) (agg32 (matProd (M := 100000) (K := 64) (N := 32) x W) src dst norm) (shapeCast S1x32 b shapeCasts_S32_S1x32)
def layer5 (x : Fx S100000x32) (W : Fx S32x3) (b : Fx S3) (src dst : Ix S3300000) (norm : Fx S3300000) : Fx S100000x3 :=
  biasedRow (a := 100000) (n := 3) (agg3 (matProd (M := 100000) (K := 32) (N := 3) x W) src dst norm) (shapeCast S1x3 b shapeCasts_S3_S1x3)

/-- THE RESULT: the five layers over the edge list with self loops. -/
def network (coords : Fx S100000x3) (types : Ix S100000) (e : Ix S2x3200000) (emb : Fx S2x3)
    (W1 : Fx S6x32) (b1 : Fx S32) (W2 : Fx S32x64) (b2 : Fx S64) (W3 : Fx S64x64) (b3 : Fx S64)
    (W4 : Fx S64x32) (b4 : Fx S32) (W5 : Fx S32x3) (b5 : Fx S3) : Fx S100000x3 :=
  layer5 (layer4 (layer3 (layer2 (layer1 (featuresOf coords types emb) W1 b1 (srcOf e) (dstOf e) (normOf (srcOf e) (dstOf e)))
    W2 b2 (srcOf e) (dstOf e) (normOf (srcOf e) (dstOf e))) W3 b3 (srcOf e) (dstOf e) (normOf (srcOf e) (dstOf e)))
    W4 b4 (srcOf e) (dstOf e) (normOf (srcOf e) (dstOf e))) W5 b5 (srcOf e) (dstOf e) (normOf (srcOf e) (dstOf e))

end Cert.Gcn

end
-- ==== Proof.LibRunStages.lean ====
/-
  A straight line of host operations, followed one operation at a time.

  The contents of the buffers after a line of operations is the fold of the operations' results. Instead of
  composing all the results into one term, keep a list of the references written so far, each with the contents it
  is known to hold, and extend it by one entry per operation: an operation reads its operands' contents off the
  list, writes its result reference, which is not yet on the list, and leaves every listed reference as it was.
  What a later reader needs of a buffer is then one entry of the list, and every step compares terms that are one
  operation deep.
-/
import Idealize.ShloMosaic.Lib.StableHlo.Run

namespace Idealize.ShloMosaic.RunStages

open Idealize.ShloMosaic Idealize.ShloMosaic.StableHlo

variable {τ : Topo} {sig : RefSig} {Val : EltTy → Type}

/-- A reference with the contents it is known to hold. -/
abbrev Known (sig : RefSig) (Val : EltTy → Type) : Type := (r : Ref sig .tc) × r.ty.Contents Val

/-- The valuation holds the listed contents at every listed reference; `R` lists (at least) the references. -/
def Agrees (R : List (Ref sig .tc)) (K : List (Known sig Val)) (V : Valuation τ sig Val) : Prop :=
  (∀ p ∈ K, p.1 ∈ R) ∧ ∀ p ∈ K, V (Proc.devRef .tc p.1) = p.2

/-- The contents after the line satisfy `Q`. -/
def Ends (ops : List (HloOp τ sig Val)) (V : Valuation τ sig Val) (Q : Valuation τ sig Val → Prop) : Prop :=
  Q (after ops V)

theorem ends_nil {V : Valuation τ sig Val} {Q : Valuation τ sig Val → Prop} (h : Q V) : Ends [] V Q := h

/-- One entry read off the list. -/
theorem Agrees.read {R : List (Ref sig .tc)} {K : List (Known sig Val)} {V : Valuation τ sig Val} (h : Agrees R K V)
    (r : Ref sig .tc) (v : r.ty.Contents Val) (hm : (⟨r, v⟩ : Known sig Val) ∈ K) : V (Proc.devRef .tc r) = v :=
  h.2 ⟨r, v⟩ hm

/-- The list of one reference at the contents the valuation has there. -/
theorem agrees_single (r : Ref sig .tc) (V : Valuation τ sig Val) :
    Agrees [r] [(⟨r, V (Proc.devRef .tc r)⟩ : Known sig Val)] V :=
  ⟨fun p hp => by rw [List.mem_singleton.mp hp]; exact List.mem_singleton.mpr rfl,
   fun p hp => by rw [List.mem_singleton.mp hp]⟩

/-- An operation that writes `y` only, a reference not yet listed, extends the list by `y` at its result. -/
theorem agrees_cons {R : List (Ref sig .tc)} {K : List (Known sig Val)} {V : Valuation τ sig Val}
    (op : HloOp τ sig Val) (y : Ref sig .tc) (vy : y.ty.Contents Val) (h : Agrees R K V)
    (hne : ∀ r : Ref sig .tc, r ≠ y → op.result V (Proc.devRef .tc r) = V (Proc.devRef .tc r))
    (hy : op.result V (Proc.devRef .tc y) = vy) (hk : y ∉ R) :
    Agrees (y :: R) ((⟨y, vy⟩ : Known sig Val) :: K) (op.result V) := by
  refine ⟨fun p hp => ?_, fun p hp => ?_⟩
  · rcases List.mem_cons.mp hp with rfl | hp'
    · exact List.mem_cons_self
    · exact List.mem_cons_of_mem _ (h.1 p hp')
  · rcases List.mem_cons.mp hp with rfl | hp'
    · exact hy
    · have hpy : p.1 ≠ y := fun e => hk (e ▸ h.1 p hp')
      exact (hne p.1 hpy).trans (h.2 p hp')

section Steps

variable {R : List (Ref sig .tc)} {K : List (Known sig Val)} {V : Valuation τ sig Val}
  {Q : Valuation τ sig Val → Prop} {ops : List (HloOp τ sig Val)}

/-- A step through an operation with no operand. -/
theorem ends_nullary {y : Ref sig .tc} {v : y.ty.Contents Val} {hy} (h : Agrees R K V)
    (vy : y.ty.Contents Val) (hv : v = vy) (hk : y ∉ R)
    (k : ∀ V' : Valuation τ sig Val, Agrees (y :: R) ((⟨y, vy⟩ : Known sig Val) :: K) V' → Ends ops V' Q) :
    Ends (nullary (τ := τ) y v hy :: ops) V Q :=
  k _ (agrees_cons _ y vy h (fun _ hr => nullary_result_ne y v hy V hr) ((nullary_result y v hy V).trans hv) hk)

/-- A step through an operation with one operand. -/
theorem ends_unary {x y : Ref sig .tc} {f : x.ty.Contents Val → y.ty.Contents Val} {hx hy} (h : Agrees R K V)
    {vx : x.ty.Contents Val} (vy : y.ty.Contents Val) (hmx : (⟨x, vx⟩ : Known sig Val) ∈ K) (hv : f vx = vy) (hk : y ∉ R)
    (k : ∀ V' : Valuation τ sig Val, Agrees (y :: R) ((⟨y, vy⟩ : Known sig Val) :: K) V' → Ends ops V' Q) :
    Ends (unary (τ := τ) x y f hx hy :: ops) V Q :=
  k _ (agrees_cons _ y vy h (fun _ hr => unary_result_ne x y f hx hy V hr)
    ((unary_result x y f hx hy V).trans (by rw [h.read x vx hmx]; exact hv)) hk)

/-- A step through an operation with two operands. -/
theorem ends_binary {a b y : Ref sig .tc} {f : a.ty.Contents Val → b.ty.Contents Val → y.ty.Contents Val} {ha hb hy}
    (h : Agrees R K V) {va : a.ty.Contents Val} {vb : b.ty.Contents Val} (vy : y.ty.Contents Val)
    (hma : (⟨a, va⟩ : Known sig Val) ∈ K) (hmb : (⟨b, vb⟩ : Known sig Val) ∈ K) (hv : f va vb = vy) (hk : y ∉ R)
    (k : ∀ V' : Valuation τ sig Val, Agrees (y :: R) ((⟨y, vy⟩ : Known sig Val) :: K) V' → Ends ops V' Q) :
    Ends (binary (τ := τ) a b y f ha hb hy :: ops) V Q :=
  k _ (agrees_cons _ y vy h (fun _ hr => binary_result_ne a b y f ha hb hy V hr)
    ((binary_result a b y f ha hb hy V).trans (by rw [h.read a va hma, h.read b vb hmb]; exact hv)) hk)

/-- A step through an operation with three operands. -/
theorem ends_ternary {c a b y : Ref sig .tc}
    {f : c.ty.Contents Val → a.ty.Contents Val → b.ty.Contents Val → y.ty.Contents Val} {hc ha hb hy}
    (h : Agrees R K V) {vc : c.ty.Contents Val} {va : a.ty.Contents Val} {vb : b.ty.Contents Val} (vy : y.ty.Contents Val)
    (hmc : (⟨c, vc⟩ : Known sig Val) ∈ K) (hma : (⟨a, va⟩ : Known sig Val) ∈ K) (hmb : (⟨b, vb⟩ : Known sig Val) ∈ K)
    (hv : f vc va vb = vy) (hk : y ∉ R)
    (k : ∀ V' : Valuation τ sig Val, Agrees (y :: R) ((⟨y, vy⟩ : Known sig Val) :: K) V' → Ends ops V' Q) :
    Ends (ternary (τ := τ) c a b y f hc ha hb hy :: ops) V Q :=
  k _ (agrees_cons _ y vy h (fun _ hr => ternary_result_ne a b c y f hc ha hb hy V hr)
    ((ternary_result c a b y f hc ha hb hy V).trans
      (by rw [h.read c vc hmc, h.read a va hma, h.read b vb hmb]; exact hv)) hk)

/-- A step through a reshape. -/
theorem ends_reshape {x y : Ref sig .tc} {he : x.ty.elt = y.ty.elt} {hn : x.ty.shape.ShapeCasts y.ty.shape} {hx hy}
    (h : Agrees R K V) {vx : x.ty.Contents Val} (vy : y.ty.Contents Val) (hmx : (⟨x, vx⟩ : Known sig Val) ∈ K)
    (hv : (fun i => he ▸ shapeCast y.ty.shape vx hn i) = vy) (hk : y ∉ R)
    (k : ∀ V' : Valuation τ sig Val, Agrees (y :: R) ((⟨y, vy⟩ : Known sig Val) :: K) V' → Ends ops V' Q) :
    Ends (reshape (τ := τ) (Val := Val) x y he hn hx hy :: ops) V Q :=
  k _ (agrees_cons _ y vy h (fun _ hr => reshape_result_ne x y he hn hx hy V hr)
    ((reshape_result x y he hn hx hy V).trans (by rw [h.read x vx hmx]; exact hv)) hk)

end Steps

/-- Finds an entry in a literal list. -/
macro "stage_mem" : tactic =>
  `(tactic| repeat (first | exact List.mem_cons_self | apply List.mem_cons_of_mem))

end Idealize.ShloMosaic.RunStages
-- ==== Proof.LibRunRegions.lean ====
/-
  A line of host operations followed one operation at a time, past steps that are not host operations.

  The list of references with the contents they are known to hold (the step lemmas of the file this one imports) grows
  by one entry per operation. Three more facts make it serve a long program with kernel launches in it: the empty list
  holds of any contents; the list may be trimmed to the entries still needed, so that its length stays bounded; and ANY
  change of the contents that rewrites one reference not yet listed, and leaves every other reference as it was,
  extends the list by that reference, whatever made the change (a kernel's output array written back block by block).
  The one-line tactics walk a literal list of operations: each names the contents the operation's result holds.
-/
import proofs.«125373_j36541581754987_1_alg».proof.Proof.LibRunStages

namespace Idealize.ShloMosaic.RunStages

open Idealize.ShloMosaic Idealize.ShloMosaic.StableHlo

variable {τ : Topo} {sig : RefSig} {Val : EltTy → Type}

/-- The empty list holds of any contents. -/
theorem agrees_nil (V : Valuation τ sig Val) : Agrees ([] : List (Ref sig .tc)) ([] : List (Known sig Val)) V :=
  ⟨fun _ h => absurd h List.not_mem_nil, fun _ h => absurd h List.not_mem_nil⟩

/-- A reference with the contents it holds joins the list. -/
theorem Agrees.push {R : List (Ref sig .tc)} {K : List (Known sig Val)} {V : Valuation τ sig Val}
    (h : Agrees R K V) (r : Ref sig .tc) (v : r.ty.Contents Val) (hv : V (Proc.devRef .tc r) = v) :
    Agrees (r :: R) ((⟨r, v⟩ : Known sig Val) :: K) V := by
  refine ⟨fun p hp => ?_, fun p hp => ?_⟩
  · rcases List.mem_cons.mp hp with rfl | hp'
    · exact List.mem_cons_self
    · exact List.mem_cons_of_mem _ (h.1 p hp')
  · rcases List.mem_cons.mp hp with rfl | hp'
    · exact hv
    · exact h.2 p hp'

/-- One entry of a list carried over to a (shorter) list of the same contents. -/
theorem Agrees.pick {R R' : List (Ref sig .tc)} {K K' : List (Known sig Val)} {V : Valuation τ sig Val}
    (h' : Agrees R' K' V) (h : Agrees R K V) (r : Ref sig .tc) (v : r.ty.Contents Val)
    (hm : (⟨r, v⟩ : Known sig Val) ∈ K) : Agrees (r :: R') ((⟨r, v⟩ : Known sig Val) :: K') V := by
  refine ⟨fun p hp => ?_, fun p hp => ?_⟩
  · rcases List.mem_cons.mp hp with rfl | hp'
    · exact List.mem_cons_self
    · exact List.mem_cons_of_mem _ (h'.1 p hp')
  · rcases List.mem_cons.mp hp with rfl | hp'
    · exact h.2 _ hm
    · exact h'.2 p hp'

/-- A change of the contents that rewrites `y` only, a reference not yet listed, extends the list by `y`. -/
theorem agrees_step {R : List (Ref sig .tc)} {K : List (Known sig Val)} {V V' : Valuation τ sig Val}
    (h : Agrees R K V) (y : Ref sig .tc) (vy : y.ty.Contents Val)
    (hne : ∀ r : Ref sig .tc, r ≠ y → V' (Proc.devRef .tc r) = V (Proc.devRef .tc r))
    (hy : V' (Proc.devRef .tc y) = vy) (hk : y ∉ R) :
    Agrees (y :: R) ((⟨y, vy⟩ : Known sig Val) :: K) V' := by
  refine ⟨fun p hp => ?_, fun p hp => ?_⟩
  · rcases List.mem_cons.mp hp with rfl | hp'
    · exact List.mem_cons_self
    · exact List.mem_cons_of_mem _ (h.1 p hp')
  · rcases List.mem_cons.mp hp with rfl | hp'
    · exact hy
    · have hpy : p.1 ≠ y := fun e => hk (e ▸ h.1 p hp')
      exact (hne p.1 hpy).trans (h.2 p hp')

/-- The line has been walked: what is asked of the contents is read off the list. -/
theorem ends_done {V : Valuation τ sig Val} {Q : Valuation τ sig Val → Prop} (h : Q V) : Ends [] V Q := h

/-! The walking tactics. Each takes the list hypothesis `h`, steps through the operation at the head of the line with
    the contents named for its result, and leaves `h` the extended list. -/

set_option hygiene false in
/-- Through an operation with no operand. -/
macro "stage0 " v:term : tactic =>
  `(tactic| (refine ends_nullary h $v (by rfl) (by decide) ?_; clear h; intro _ h))
set_option hygiene false in
/-- Through an operation with one operand. -/
macro "stage1 " v:term : tactic =>
  `(tactic| (refine ends_unary h $v (by stage_mem) (by rfl) (by decide) ?_; clear h; intro _ h))
set_option hygiene false in
/-- Through an operation with two operands. -/
macro "stage2 " v:term : tactic =>
  `(tactic| (refine ends_binary h $v (by stage_mem) (by stage_mem) (by rfl) (by decide) ?_; clear h; intro _ h))
set_option hygiene false in
/-- Through an operation with three operands. -/
macro "stage3 " v:term : tactic =>
  `(tactic| (refine ends_ternary h $v (by stage_mem) (by stage_mem) (by stage_mem) (by rfl) (by decide) ?_; clear h; intro _ h))
set_option hygiene false in
/-- Through a reshape. -/
macro "stageR " v:term : tactic =>
  `(tactic| (refine ends_reshape h $v (by stage_mem) (by rfl) (by decide) ?_; clear h; intro _ h))

/-! An operation of a called function moves its operands' contents out of their buffers' types and its result back in
    (moves along equations that hold by computation). Comparing the moved term with the named stage by unfolding would
    open the operands' contents; instead the stage is opened once, the operands' contents are replaced by variables, and
    each move, being along an equation between two spellings of one type, is rewritten away (`cast_eq`). The tactic takes the stage's contents, the stage's name and the operands'
    contents. -/

set_option hygiene false in
/-- Through an operation of a called function with one operand. -/
macro "stage1T " v:term:max n:ident a:term:max : tactic =>
  `(tactic| (refine ends_unary h $v (by stage_mem) (by unfold $n; generalize $a = p0; dsimp only [Idealize.ShloMosaic.StableHlo.TRef.toBuf, Idealize.ShloMosaic.StableHlo.TRef.ofBuf]; (repeat erw [cast_eq]); first | done | rfl) (by decide) ?_; clear h; intro _ h))
set_option hygiene false in
/-- Through an operation of a called function with two operands. -/
macro "stage2T " v:term:max n:ident a:term:max b:term:max : tactic =>
  `(tactic| (refine ends_binary h $v (by stage_mem) (by stage_mem) (by unfold $n; generalize $a = p0; generalize $b = p1; dsimp only [Idealize.ShloMosaic.StableHlo.TRef.toBuf, Idealize.ShloMosaic.StableHlo.TRef.ofBuf]; (repeat erw [cast_eq]); first | done | rfl) (by decide) ?_; clear h; intro _ h))
set_option hygiene false in
/-- Through an operation of a called function with three operands. -/
macro "stage3T " v:term:max n:ident a:term:max b:term:max c:term:max : tactic =>
  `(tactic| (refine ends_ternary h $v (by stage_mem) (by stage_mem) (by stage_mem) (by unfold $n; generalize $a = p0; generalize $b = p1; generalize $c = p2; dsimp only [Idealize.ShloMosaic.StableHlo.TRef.toBuf, Idealize.ShloMosaic.StableHlo.TRef.ofBuf]; (repeat erw [cast_eq]); first | done | rfl) (by decide) ?_; clear h; intro _ h))

end Idealize.ShloMosaic.RunStages
-- ==== Proof.Walk0.lean ====
/-
  From the launch to the first region: the edge endpoints, the edge weights and the input features.

  The first fifty whole-array operations build, from the edge list, the two endpoint vectors with the self loops
  appended, the degree of every node, its inverse square root where positive, the weight of every edge, and, from
  the coordinates, the node types and the embedding table, the six input features of every node. They are followed
  one operation at a time, each result named; what the later layers read is kept: the features, the endpoints, the
  weights and the weight and bias arguments.
-/
import proofs.«125373_j36541581754987_1_alg».proof.Proof.Gen.KernelIdeal.Frame
import proofs.«125373_j36541581754987_1_alg».proof.Proof.Spec
import proofs.«125373_j36541581754987_1_alg».proof.Proof.LibRunRegions

set_option maxRecDepth 16384

noncomputable section

namespace Cert.KernelIdeal.Walk

open Idealize.ShloMosaic Idealize.ShloMosaic.TcCoe Idealize.ShloMosaic.StableHlo Idealize.ShloMosaic.RunStages Idealize.ShloMosaic.MatProd Idealize.SL.Sem
open Cert.KernelIdeal Cert.KernelIdeal.Gen Cert.Gcn Cert.Activation Cert.BiasRow

variable (m : (ℓ : Loc nD τ sig) → Buf (Elt Ideal) ℓ) (ρ : Dev nD → PrngReg)

/-- A list of known contents restricted to some of its entries, the references listed literally. -/
theorem restrict {R : List (Ref sig .tc)} {K : List (Known sig (Elt Ideal))} {V : Valuation τ sig (Elt Ideal)}
    (h : Agrees R K V) (R' : List (Ref sig .tc)) (K' : List (Known sig (Elt Ideal))) (hR : K'.map (·.1) = R')
    (hsub : ∀ p ∈ K', p ∈ K) : Agrees R' K' V := by
  subst hR
  exact ⟨fun p hp => List.mem_map_of_mem hp, fun p hp => h.2 p (hsub p hp)⟩

/-- The references of what every layer reads. -/
abbrev keptRefs : List (Ref sig .tc) := [main_v29, main_v6, main_v3, main_arg4, main_arg5, main_arg6, main_arg7, main_arg8, main_arg9, main_arg10, main_arg11, main_arg12, main_arg13]

/-- What every layer reads: the edge weights, the two endpoint vectors, the weight matrices and the biases. -/
abbrev kept (c : Dev nD) : List (Known sig (Elt Ideal)) :=
  [⟨main_v29, normOf (srcOf (m ((c : Thread nD τ).loc main_arg2))) (dstOf (m ((c : Thread nD τ).loc main_arg2)))⟩,
   ⟨main_v6, dstOf (m ((c : Thread nD τ).loc main_arg2))⟩,
   ⟨main_v3, srcOf (m ((c : Thread nD τ).loc main_arg2))⟩,
   ⟨main_arg4, (m ((c : Thread nD τ).loc main_arg4))⟩,
   ⟨main_arg5, (m ((c : Thread nD τ).loc main_arg5))⟩,
   ⟨main_arg6, (m ((c : Thread nD τ).loc main_arg6))⟩,
   ⟨main_arg7, (m ((c : Thread nD τ).loc main_arg7))⟩,
   ⟨main_arg8, (m ((c : Thread nD τ).loc main_arg8))⟩,
   ⟨main_arg9, (m ((c : Thread nD τ).loc main_arg9))⟩,
   ⟨main_arg10, (m ((c : Thread nD τ).loc main_arg10))⟩,
   ⟨main_arg11, (m ((c : Thread nD τ).loc main_arg11))⟩,
   ⟨main_arg12, (m ((c : Thread nD τ).loc main_arg12))⟩,
   ⟨main_arg13, (m ((c : Thread nD τ).loc main_arg13))⟩]

/-- The input features on the launch memory's arguments. -/
def feat0 (c : Dev nD) : Fx S100000x6 := featuresOf (m ((c : Thread nD τ).loc main_arg0)) (m ((c : Thread nD τ).loc main_arg1)) (m ((c : Thread nD τ).loc main_arg3))
/-- The features after layer 1. -/
def feat1 (c : Dev nD) : Fx S100000x32 := layer1 (feat0 m c) (m ((c : Thread nD τ).loc main_arg4)) (m ((c : Thread nD τ).loc main_arg5)) (srcOf (m ((c : Thread nD τ).loc main_arg2))) (dstOf (m ((c : Thread nD τ).loc main_arg2))) (normOf (srcOf (m ((c : Thread nD τ).loc main_arg2))) (dstOf (m ((c : Thread nD τ).loc main_arg2))))
/-- The features after layer 2. -/
def feat2 (c : Dev nD) : Fx S100000x64 := layer2 (feat1 m c) (m ((c : Thread nD τ).loc main_arg6)) (m ((c : Thread nD τ).loc main_arg7)) (srcOf (m ((c : Thread nD τ).loc main_arg2))) (dstOf (m ((c : Thread nD τ).loc main_arg2))) (normOf (srcOf (m ((c : Thread nD τ).loc main_arg2))) (dstOf (m ((c : Thread nD τ).loc main_arg2))))
/-- The features after layer 3. -/
def feat3 (c : Dev nD) : Fx S100000x64 := layer3 (feat2 m c) (m ((c : Thread nD τ).loc main_arg8)) (m ((c : Thread nD τ).loc main_arg9)) (srcOf (m ((c : Thread nD τ).loc main_arg2))) (dstOf (m ((c : Thread nD τ).loc main_arg2))) (normOf (srcOf (m ((c : Thread nD τ).loc main_arg2))) (dstOf (m ((c : Thread nD τ).loc main_arg2))))
/-- The features after layer 4. -/
def feat4 (c : Dev nD) : Fx S100000x32 := layer4 (feat3 m c) (m ((c : Thread nD τ).loc main_arg10)) (m ((c : Thread nD τ).loc main_arg11)) (srcOf (m ((c : Thread nD τ).loc main_arg2))) (dstOf (m ((c : Thread nD τ).loc main_arg2))) (normOf (srcOf (m ((c : Thread nD τ).loc main_arg2))) (dstOf (m ((c : Thread nD τ).loc main_arg2))))
/-- The features after layer 5. -/
def feat5 (c : Dev nD) : Fx S100000x3 := layer5 (feat4 m c) (m ((c : Thread nD τ).loc main_arg12)) (m ((c : Thread nD τ).loc main_arg13)) (srcOf (m ((c : Thread nD τ).loc main_arg2))) (dstOf (m ((c : Thread nD τ).loc main_arg2))) (normOf (srcOf (m ((c : Thread nD τ).loc main_arg2))) (dstOf (m ((c : Thread nD τ).loc main_arg2))))

/-- After the last layer: the network on the launch memory's arguments. -/
theorem feat5_eq (c : Dev nD) : feat5 m c = network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := rfl

/-- At the first region's entry: the input features, and what every layer reads. -/
abbrev known3 (c : Dev nD) : List (Known sig (Elt Ideal)) :=
  ⟨main_v37, feat0 m c⟩ :: kept m c

/-- The argument arrays at launch. -/
theorem atLaunch (c : Dev nD) : Agrees [main_arg13, main_arg12, main_arg11, main_arg10, main_arg9, main_arg8, main_arg7, main_arg6, main_arg5, main_arg4, main_arg3, main_arg2, main_arg1, main_arg0]
    [⟨main_arg13, (m ((c : Thread nD τ).loc main_arg13))⟩,
     ⟨main_arg12, (m ((c : Thread nD τ).loc main_arg12))⟩,
     ⟨main_arg11, (m ((c : Thread nD τ).loc main_arg11))⟩,
     ⟨main_arg10, (m ((c : Thread nD τ).loc main_arg10))⟩,
     ⟨main_arg9, (m ((c : Thread nD τ).loc main_arg9))⟩,
     ⟨main_arg8, (m ((c : Thread nD τ).loc main_arg8))⟩,
     ⟨main_arg7, (m ((c : Thread nD τ).loc main_arg7))⟩,
     ⟨main_arg6, (m ((c : Thread nD τ).loc main_arg6))⟩,
     ⟨main_arg5, (m ((c : Thread nD τ).loc main_arg5))⟩,
     ⟨main_arg4, (m ((c : Thread nD τ).loc main_arg4))⟩,
     ⟨main_arg3, (m ((c : Thread nD τ).loc main_arg3))⟩,
     ⟨main_arg2, (m ((c : Thread nD τ).loc main_arg2))⟩,
     ⟨main_arg1, (m ((c : Thread nD τ).loc main_arg1))⟩,
     ⟨main_arg0, (m ((c : Thread nD τ).loc main_arg0))⟩] (W0 m ρ c) :=
  (((((((((((((((agrees_nil (W0 m ρ c)).push main_arg0 _ rfl).push main_arg1 _ rfl).push main_arg2 _ rfl).push main_arg3 _ rfl).push main_arg4 _ rfl).push main_arg5 _ rfl).push main_arg6 _ rfl).push main_arg7 _ rfl).push main_arg8 _ rfl).push main_arg9 _ rfl).push main_arg10 _ rfl).push main_arg11 _ rfl).push main_arg12 _ rfl).push main_arg13 _ rfl)

set_option maxHeartbeats 4000000 in
theorem at3 (c : Dev nD) : Agrees (main_v37 :: keptRefs) (known3 m c) (W3 m ρ c) := by
  have h := atLaunch m ρ c
  show Ends hostOps0 (W0 m ρ c) (fun V => Ends hostOps0_1 V (fun V => Ends hostOps0_2 V (fun V => Agrees (main_v37 :: keptRefs) (known3 m c) V)))
  -- the endpoints with the self loops
  stage0 _
  stage1 _
  stageR _
  stage2 (srcOf (m ((c : Thread nD τ).loc main_arg2)))
  stage1 _
  stageR _
  stage2 (dstOf (m ((c : Thread nD τ).loc main_arg2)))
  -- the degree, and its inverse square root where positive
  stage0 _
  stage1 _
  stage0 _
  stage1 _
  stage1 _
  stage3 (degOf (dstOf (m ((c : Thread nD τ).loc main_arg2))))
  stage0 _
  stage1 _
  stage2 (cmpf .ogt (degOf (dstOf (m ((c : Thread nD τ).loc main_arg2)))) (broadcastInDim S100000 ![] bcast_S_S100000 (constant (F := Ideal) S_ .f32 0x00000000#32)))
  stage1 (Host.rsqrt (degOf (dstOf (m ((c : Thread nD τ).loc main_arg2)))))
  stage0 (constant (F := Ideal) S_ .f32 0x00000000#32)
  refine ends_done ?_
  show Ends hostOps0_1 _ _
  stage1T (fillArg (constant (F := Ideal) S_ .f32 0x00000000#32)) fillArg (constant (F := Ideal) S_ .f32 0x00000000#32)
  stage1T (fillAll (fillArg (constant (F := Ideal) S_ .f32 0x00000000#32))) fillAll (fillArg (constant (F := Ideal) S_ .f32 0x00000000#32))
  stage3T (dinvOf (degOf (dstOf (m ((c : Thread nD τ).loc main_arg2))))) dinvOf (cmpf .ogt (degOf (dstOf (m ((c : Thread nD τ).loc main_arg2)))) (broadcastInDim S100000 ![] bcast_S_S100000 (constant (F := Ideal) S_ .f32 0x00000000#32))) (Host.rsqrt (degOf (dstOf (m ((c : Thread nD τ).loc main_arg2))))) (fillAll (fillArg (constant (F := Ideal) S_ .f32 0x00000000#32)))
  refine ends_done ?_
  show Ends hostOps0_2 _ _
  -- the edge weights
  stage0 _
  stage1 _
  stage2 _
  stage0 _
  stage1 _
  stage2 _
  stage3 (wrap (srcOf (m ((c : Thread nD τ).loc main_arg2))))
  stage1 _
  stage2 _
  stage0 _
  stage1 _
  stage2 _
  stage0 _
  stage1 _
  stage2 _
  stage3 (wrap (dstOf (m ((c : Thread nD τ).loc main_arg2))))
  stage1 _
  stage2 _
  stage2 (normOf (srcOf (m ((c : Thread nD τ).loc main_arg2))) (dstOf (m ((c : Thread nD τ).loc main_arg2))))
  -- the input features
  stage0 _
  stage1 _
  stage2 _
  stage0 _
  stage1 _
  stage2 _
  stage3 _
  stage1 _
  stage2 _
  stage2 (feat0 m c)
  refine ends_done (restrict h (main_v37 :: keptRefs) (known3 m c) rfl ?_)
  simp only [known3, kept, List.forall_mem_cons, List.forall_mem_nil, and_true]
  repeat' apply And.intro
  all_goals first | (intro p hp; exact absurd hp List.not_mem_nil) | stage_mem

end Cert.KernelIdeal.Walk

end
-- ==== Proof.Region0.lean ====
/-
  Region 0: a block of 10000 rows of an [100000, 6] array times a resident [6, 32] matrix, ten blocks.

  The body multiplies the block by the matrix into a zero accumulator (the narrowing of both operands to a shorter
  float format is the identity on extended reals), so entry (p, q) of what point t writes back is the sum over k of
  block(p, k) · W(k, q). Row p of point t's block is row t·10000 + p of the array, the matrix is read whole at every
  point, and the ten output blocks tile the result; hence the output array ends as the product of the two arrays as
  the region finds them.
-/
import proofs.«125373_j36541581754987_1_alg».proof.Proof.Gen.KernelIdeal.Frame
import proofs.«125373_j36541581754987_1_alg».proof.Proof.LibMatProd
import Idealize.ShloMosaic.Lib.Pipeline.Value
import Idealize.ShloMosaic.Lib.ValueIdx
import Idealize.ShloMosaic.Lib.ValueLayout

set_option maxRecDepth 16384

noncomputable section

namespace Cert.KernelIdeal.Blocks

open Idealize.ShloMosaic Idealize.ShloMosaic.TcCoe Idealize.ShloMosaic.ValueIdx Idealize.SL.Sem
open Cert.KernelIdeal Cert.KernelIdeal.Gen Idealize.ShloMosaic.MatProd

variable (V : (c : Dev nD) → (b : Ref sig .tc) → Buf (Elt Ideal) ((c : Thread nD τ).loc b))

theorem offsets0 : (![0, 0] : Fin 2 → Nat) = fun _ => 0 := funext fun a => by fin_cases a <;> rfl

/-- The body's contraction is a plain matrix product. -/
theorem plain0 : DotPlain.IsPlain dot_S10000x6_S6x32_S10000x32_1_0_0_1_n_n := ⟨rfl, rfl, rfl, rfl, rfl, rfl⟩

/-- The body's stored value at an entry: the product of the loaded block and the loaded matrix. -/
theorem payload0 (x0 : Vec Ideal S10000x6 .f32) (x1 : Vec Ideal S6x32 .f32) (j : S10000x32.Idx) :
    k0_pay1 x0 x1 j = matProd (M := 10000) (K := 6) (N := 32) x0 x1 j := by
  unfold k0_pay1
  refine (MatProd.matmul_zero_apply plain0 none _ _ j).trans ?_
  show matProd (M := 10000) (K := 6) (N := 32) (shapeCast S10000x6 x0 _) x1 j = _
  rw [shapeCast_self]

/-- The three index maps over the ten points: rows move with the point, everything else stays at block 0. -/
theorem points0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the product of the two arrays. -/
theorem flushed0 (c : Dev nD) (t : Fin cfg0.N) :
    (dat0 V c).flushed 2 t = ((cfg0.win 2).blk t).view.read (Elt Ideal)
      (matProd (M := 100000) (K := 6) (N := 32) (V c main_v37) (V c main_arg4)) := by
  show (cfg0.win 2).cut (grid0.coords t) ((dat0 V c).after 2 t) = _
  rw [after0_2]
  unfold out0_2
  rw [View.canon_unit_zero offsets0]
  simp only [View.ld_unit_zero (S := S10000x6) offsets0, View.ld_unit_zero (S := S6x32) offsets0]
  obtain ⟨e0, e1, e2, e3, e4, e5⟩ := points0 t
  have ht : t.val < 10 := lt_of_lt_of_eq t.isLt (N_0 : cfg0.N = 10)
  funext j
  obtain ⟨p, q, rfl⟩ : ∃ (p : Fin 10000) (q : Fin 32), j = ix2 p q := ⟨j 0, j 1, eq_ix2 j⟩
  have hp := p.isLt
  have hq := q.isLt
  show k0_pay1 (iblk0 V c 0 t) (iblk0 V c 1 t) (ix2 p q)
      = matProd (M := 100000) (K := 6) (N := 32) (V c main_v37) (V c main_arg4) (((cfg0.win 2).blk t).view.emb (ix2 p q))
  have hemb : ((cfg0.win 2).blk t).view.emb (ix2 p q) = ix2 (⟨t.val * 10000 + p.val, by omega⟩ : Fin 100000) q := by
    funext a; apply Fin.ext
    match a with
    | ⟨0, _⟩ => show win0_2.index t (0 : Fin 2) * 10000 + 1 * p.val = t.val * 10000 + p.val; omega
    | ⟨1, _⟩ => show win0_2.index t (1 : Fin 2) * 32 + 1 * q.val = q.val; omega
  rw [hemb]
  refine (payload0 _ _ _).trans ?_
  refine matProd_of_rows _ _ _ _ p q _ (fun k => ?_) (fun k => ?_)
  · have hk := k.isLt
    show V c main_v37 (((cfg0.win 0).blk t).view.emb (ix2 p k)) = V c main_v37 (ix2 (⟨t.val * 10000 + p.val, by omega⟩ : Fin 100000) k)
    refine congrArg _ ?_
    funext a; apply Fin.ext
    match a with
    | ⟨0, _⟩ => show win0_0.index t (0 : Fin 2) * 10000 + 1 * p.val = t.val * 10000 + p.val; omega
    | ⟨1, _⟩ => show win0_0.index t (1 : Fin 2) * 6 + 1 * k.val = k.val; omega
  · have hk := k.isLt
    show V c main_arg4 (((cfg0.win 1).blk t).view.emb (ix2 k q)) = V c main_arg4 (ix2 k q)
    refine congrArg _ ?_
    funext a; apply Fin.ext
    match a with
    | ⟨0, _⟩ => show win0_1.index t (0 : Fin 2) * 6 + 1 * k.val = k.val; omega
    | ⟨1, _⟩ => show win0_1.index t (1 : Fin 2) * 32 + 1 * q.val = q.val; omega

/-- An index of the output array is in point t's block iff each coordinate is in the block's range on its axis. -/
theorem inBlock0 (t : Fin cfg0.N) (i : S100000x32.Idx) :
    i ∈ ((cfg0.win 2).blk t).view.set ↔ ∀ a : Fin 2, win0_2.index t a * S10000x32.size a ≤ (i a).val ∧ (i a).val < win0_2.index t a * S10000x32.size a + S10000x32.size a := by
  show i ∈ ((View.whole main_v38).slice (win0_2.rect t)).set ↔ _
  rw [View.set_slice_whole, Rect.mem_set_unit]
  exact Iff.rfl

/-- Every row block is some point's. -/
theorem pointOf0 : ∀ q0 : Fin 10, ∃ t : Fin cfg0.N, t.val = q0.val :=
  (by decide +kernel : ∀ q0 : Fin 10, ∃ t : Fin grid0.N, t.val = q0.val)

/-- The ten blocks cover the output array: row r lies in the block of point r / 10000. -/
theorem cover0 (i : S100000x32.Idx) : ∃ t : Fin cfg0.N, (cfg0.win 2).flush t = true ∧ i ∈ ((cfg0.win 2).blk t).view.set := by
  have hi0 : (i 0).val < 100000 := (i 0).isLt
  have hi1 : (i 1).val < 32 := (i 1).isLt
  obtain ⟨t, ht⟩ := pointOf0 ⟨(i 0).val / 10000, by omega⟩
  have ht' : t.val = (i 0).val / 10000 := ht
  obtain ⟨e0, e1, e2, e3, e4, e5⟩ := points0 t
  refine ⟨t, flush0_2 t, ?_⟩
  rw [inBlock0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 32 ≤ (i 1).val ∧ (i 1).val < win0_2.index t (1 : Fin 2) * 32 + 32; omega

/-- THE OUTPUT ARRAY after the region: the product of the two input arrays as the region finds them. -/
theorem array0 (c : Dev nD) :
    (dat0 V c).arrAt 2 cfg0.N = matProd (M := 100000) (K := 6) (N := 32) (V c main_v37) (V c main_arg4) :=
  (dat0 V c).arrAt_eq_of_cover 2 _ (fun t _ => flushed0 V c t) (cover0)

end Cert.KernelIdeal.Blocks

end
-- ==== Proof.Region1.lean ====
/-
  Region 1: a bias row added to a block of 10000 rows of an [100000, 32] array, then the maximum with zero, ten blocks.

  Entry (p, q) of what point t writes back is max(block(p, q) + b(0, q), 0): the one-row bias is spread down the
  rows and added, and the floor at zero is taken entry by entry. Row p of point t's block is row t·10000 + p of the array, the
  bias row is read whole at every point, and the ten output blocks tile the result; hence the output array ends as the
  rectified biased array of the two arrays as the region finds them.
-/
import proofs.«125373_j36541581754987_1_alg».proof.Proof.Gen.KernelIdeal.Frame
import proofs.«125373_j36541581754987_1_alg».proof.Proof.LibHostBiasRelu
import Idealize.ShloMosaic.Lib.Pipeline.Value
import Idealize.ShloMosaic.Lib.ValueIdx
import Idealize.ShloMosaic.Lib.ValueLayout

set_option maxRecDepth 16384

noncomputable section

namespace Cert.KernelIdeal.Blocks

open Idealize.ShloMosaic Idealize.ShloMosaic.TcCoe Idealize.ShloMosaic.ValueIdx Idealize.SL.Sem
open Cert.KernelIdeal Cert.KernelIdeal.Gen Cert.Activation Cert.HostBiasRelu

variable (V : (c : Dev nD) → (b : Ref sig .tc) → Buf (Elt Ideal) ((c : Thread nD τ).loc b))

theorem offsets1 : (![0, 0] : Fin 2 → Nat) = fun _ => 0 := funext fun a => by fin_cases a <;> rfl

/-- The body's stored value at an entry. -/
theorem payload1 (x0 : Vec Ideal S10000x32 .f32) (x1 : Vec Ideal S1x32 .f32) (p : Fin 10000) (q : Fin 32) :
    k1_pay1 x0 x1 (ix2 p q) = rectifiedRow (a := 10000) (n := 32) x0 x1 (ix2 p q) := by
  unfold k1_pay1
  rw [rectifiedRow_apply]
  show max (shapeCast S10000x32 x0 _ (ix2 p q) + broadcastTo S10000x32 (shapeCast S1x32 x1 _) _ (ix2 p q)) (Ideal.ofBits .f32 0x00000000#32) = _
  rw [shapeCast_self, shapeCast_self, broadcastTo_1b_ab_apply]

/-- The three index maps over the ten points: rows move with the point, everything else stays at block 0. -/
theorem points1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the rectified biased array. -/
theorem flushed1 (c : Dev nD) (t : Fin cfg1.N) :
    (dat1 V c).flushed 2 t = ((cfg1.win 2).blk t).view.read (Elt Ideal)
      (rectifiedRow (a := 100000) (n := 32) (V c main_v51) (V c main_v52)) := by
  show (cfg1.win 2).cut (grid1.coords t) ((dat1 V c).after 2 t) = _
  rw [after1_2]
  unfold out1_2
  rw [View.canon_unit_zero offsets1]
  simp only [View.ld_unit_zero (S := S10000x32) offsets1, View.ld_unit_zero (S := S1x32) offsets1]
  obtain ⟨e0, e1, e2, e3, e4, e5⟩ := points1 t
  have ht : t.val < 10 := lt_of_lt_of_eq t.isLt (N_1 : cfg1.N = 10)
  funext j
  obtain ⟨p, q, rfl⟩ : ∃ (p : Fin 10000) (q : Fin 32), j = ix2 p q := ⟨j 0, j 1, eq_ix2 j⟩
  have hp := p.isLt
  have hq := q.isLt
  show k1_pay1 (iblk1 V c 0 t) (iblk1 V c 1 t) (ix2 p q)
      = rectifiedRow (a := 100000) (n := 32) (V c main_v51) (V c main_v52) (((cfg1.win 2).blk t).view.emb (ix2 p q))
  have hemb : ((cfg1.win 2).blk t).view.emb (ix2 p q) = ix2 (⟨t.val * 10000 + p.val, by omega⟩ : Fin 100000) q := by
    funext a; apply Fin.ext
    match a with
    | ⟨0, _⟩ => show win1_2.index t (0 : Fin 2) * 10000 + 1 * p.val = t.val * 10000 + p.val; omega
    | ⟨1, _⟩ => show win1_2.index t (1 : Fin 2) * 32 + 1 * q.val = q.val; omega
  rw [hemb]
  refine (payload1 _ _ p q).trans ?_
  refine rectifiedRow_of_rows _ _ _ _ p q _ ?_ ?_
  · show V c main_v51 (((cfg1.win 0).blk t).view.emb (ix2 p q)) = V c main_v51 (ix2 (⟨t.val * 10000 + p.val, by omega⟩ : Fin 100000) q)
    refine congrArg _ ?_
    funext a; apply Fin.ext
    match a with
    | ⟨0, _⟩ => show win1_0.index t (0 : Fin 2) * 10000 + 1 * p.val = t.val * 10000 + p.val; omega
    | ⟨1, _⟩ => show win1_0.index t (1 : Fin 2) * 32 + 1 * q.val = q.val; omega
  · show V c main_v52 (((cfg1.win 1).blk t).view.emb (ix2 (0 : Fin 1) q)) = V c main_v52 (ix2 (0 : Fin 1) q)
    refine congrArg _ ?_
    funext a; apply Fin.ext
    match a with
    | ⟨0, _⟩ => show win1_1.index t (0 : Fin 2) * 1 + 1 * 0 = 0; omega
    | ⟨1, _⟩ => show win1_1.index t (1 : Fin 2) * 32 + 1 * q.val = q.val; omega

/-- An index of the output array is in point t's block iff each coordinate is in the block's range on its axis. -/
theorem inBlock1 (t : Fin cfg1.N) (i : S100000x32.Idx) :
    i ∈ ((cfg1.win 2).blk t).view.set ↔ ∀ a : Fin 2, win1_2.index t a * S10000x32.size a ≤ (i a).val ∧ (i a).val < win1_2.index t a * S10000x32.size a + S10000x32.size a := by
  show i ∈ ((View.whole main_v53).slice (win1_2.rect t)).set ↔ _
  rw [View.set_slice_whole, Rect.mem_set_unit]
  exact Iff.rfl

/-- Every row block is some point's. -/
theorem pointOf1 : ∀ q0 : Fin 10, ∃ t : Fin cfg1.N, t.val = q0.val :=
  (by decide +kernel : ∀ q0 : Fin 10, ∃ t : Fin grid1.N, t.val = q0.val)

/-- The ten blocks cover the output array: row r lies in the block of point r / 10000. -/
theorem cover1 (i : S100000x32.Idx) : ∃ t : Fin cfg1.N, (cfg1.win 2).flush t = true ∧ i ∈ ((cfg1.win 2).blk t).view.set := by
  have hi0 : (i 0).val < 100000 := (i 0).isLt
  have hi1 : (i 1).val < 32 := (i 1).isLt
  obtain ⟨t, ht⟩ := pointOf1 ⟨(i 0).val / 10000, by omega⟩
  have ht' : t.val = (i 0).val / 10000 := ht
  obtain ⟨e0, e1, e2, e3, e4, e5⟩ := points1 t
  refine ⟨t, flush1_2 t, ?_⟩
  rw [inBlock1]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 32 ≤ (i 1).val ∧ (i 1).val < win1_2.index t (1 : Fin 2) * 32 + 32; omega

/-- THE OUTPUT ARRAY after the region: the rectified biased array of the two input arrays as the region finds them. -/
theorem array1 (c : Dev nD) :
    (dat1 V c).arrAt 2 cfg1.N = rectifiedRow (a := 100000) (n := 32) (V c main_v51) (V c main_v52) :=
  (dat1 V c).arrAt_eq_of_cover 2 _ (fun t _ => flushed1 V c t) (cover1)

end Cert.KernelIdeal.Blocks

end
-- ==== Proof.WalkL1.lean ====
/-
  Layer 1: [100000, 6] features to [100000, 32].

  A tiled region multiplies the features by the layer's matrix; seventeen whole-array operations gather the product's
  rows along the edges, scale them by the edge weights and sum them at the edges' targets, and lay the bias vector out
  as one row; a second tiled region adds the bias row and takes the maximum with zero. Each region rewrites its own output array and
  leaves every other buffer as it was, so what the layer reads is still where the previous layers left it.
-/
import proofs.«125373_j36541581754987_1_alg».proof.Proof.Walk0
import proofs.«125373_j36541581754987_1_alg».proof.Proof.Region0
import proofs.«125373_j36541581754987_1_alg».proof.Proof.Region1

set_option maxRecDepth 16384

noncomputable section

namespace Cert.KernelIdeal.Walk

open Idealize.ShloMosaic Idealize.ShloMosaic.TcCoe Idealize.ShloMosaic.StableHlo Idealize.ShloMosaic.RunStages Idealize.ShloMosaic.MatProd Idealize.SL.Sem
open Cert.KernelIdeal Cert.KernelIdeal.Gen Cert.Gcn Cert.Activation Cert.BiasRow

variable (m : (ℓ : Loc nD τ sig) → Buf (Elt Ideal) ℓ) (ρ : Dev nD → PrngReg)

/-- Region 0 rewrites its output array only. -/
theorem keep0 (c : Dev nD) (r : Ref sig .tc) (hr : r ≠ main_v38) :
    W4 m ρ c (Proc.devRef .tc r) = W3 m ρ c (Proc.devRef .tc r) := by
  by_cases h0 : r = main_v37
  · subst h0
    exact (W4_arr m ρ c 0).trans (((dat0 (V3 m ρ) c).arrAt_in 0 rfl _).trans (A_eq0 (V3 m ρ) c 0))
  by_cases h1 : r = main_arg4
  · subst h1
    exact (W4_arr m ρ c 1).trans (((dat0 (V3 m ρ) c).arrAt_in 1 rfl _).trans (A_eq0 (V3 m ρ) c 1))
  exact W4_of_ne m ρ c r (fun w => match w with
    | ⟨0, _⟩ => fun e => h0 e.symm
    | ⟨1, _⟩ => fun e => h1 e.symm
    | ⟨2, _⟩ => fun e => hr e.symm)

/-- Region 1 rewrites its output array only. -/
theorem keep1 (c : Dev nD) (r : Ref sig .tc) (hr : r ≠ main_v53) :
    W6 m ρ c (Proc.devRef .tc r) = W5 m ρ c (Proc.devRef .tc r) := by
  by_cases h0 : r = main_v51
  · subst h0
    exact (W6_arr m ρ c 0).trans (((dat1 (V5 m ρ) c).arrAt_in 0 rfl _).trans (A_eq1 (V5 m ρ) c 0))
  by_cases h1 : r = main_v52
  · subst h1
    exact (W6_arr m ρ c 1).trans (((dat1 (V5 m ρ) c).arrAt_in 1 rfl _).trans (A_eq1 (V5 m ρ) c 1))
  exact W6_of_ne m ρ c r (fun w => match w with
    | ⟨0, _⟩ => fun e => h0 e.symm
    | ⟨1, _⟩ => fun e => h1 e.symm
    | ⟨2, _⟩ => fun e => hr e.symm)

/-- Between the two regions: the summed messages and the bias row, and what every layer reads. -/
abbrev mid1 (c : Dev nD) : List (Known sig (Elt Ideal)) :=
  ⟨main_v52, shapeCast S1x32 (m ((c : Thread nD τ).loc main_arg5)) shapeCasts_S32_S1x32⟩ ::
  ⟨main_v51, agg32 (matProd (M := 100000) (K := 6) (N := 32) (feat0 m c) (m ((c : Thread nD τ).loc main_arg4))) (srcOf (m ((c : Thread nD τ).loc main_arg2))) (dstOf (m ((c : Thread nD τ).loc main_arg2))) (normOf (srcOf (m ((c : Thread nD τ).loc main_arg2))) (dstOf (m ((c : Thread nD τ).loc main_arg2))))⟩ :: kept m c

/-- After the layer: its features, and what every layer reads. -/
abbrev known6 (c : Dev nD) : List (Known sig (Elt Ideal)) :=
  ⟨main_v53, feat1 m c⟩ :: kept m c

set_option maxHeartbeats 4000000 in
theorem at6 (c : Dev nD) : Agrees (main_v53 :: keptRefs) (known6 m c) (W6 m ρ c) := by
  have h := at3 m ρ c
  -- the matrix product
  have h := agrees_step h main_v38 (matProd (M := 100000) (K := 6) (N := 32) (feat0 m c) (m ((c : Thread nD τ).loc main_arg4))) (keep0 m ρ c)
    ((W4_arr m ρ c 2).trans ((Blocks.array0 (V3 m ρ) c).trans
      (congrArg₂ (matProd (M := 100000) (K := 6) (N := 32)) (h.read main_v37 _ (by stage_mem)) (h.read main_arg4 _ (by stage_mem))))) (by decide)
  -- the messages along the edges, and the bias row
  have h : Agrees (main_v52 :: main_v51 :: keptRefs) (mid1 m c) (W5 m ρ c) := by
    show Ends hostOps1 (W4 m ρ c) (fun V => Agrees (main_v52 :: main_v51 :: keptRefs) (mid1 m c) V)
    stage0 _
    stage1 _
    stage2 _
    stage0 _
    stage1 _
    stage2 _
    stage3 (wrap (srcOf (m ((c : Thread nD τ).loc main_arg2))))
    stage1 _
    stage2 _
    stage1 _
    stage1 _
    stage2 _
    stage0 _
    stage1 _
    stage1 _
    stage3 (agg32 (matProd (M := 100000) (K := 6) (N := 32) (feat0 m c) (m ((c : Thread nD τ).loc main_arg4))) (srcOf (m ((c : Thread nD τ).loc main_arg2))) (dstOf (m ((c : Thread nD τ).loc main_arg2))) (normOf (srcOf (m ((c : Thread nD τ).loc main_arg2))) (dstOf (m ((c : Thread nD τ).loc main_arg2)))))
    stageR (shapeCast S1x32 (m ((c : Thread nD τ).loc main_arg5)) shapeCasts_S32_S1x32)
    refine ends_done (restrict h (main_v52 :: main_v51 :: keptRefs) (mid1 m c) rfl ?_)
    simp only [mid1, kept, List.forall_mem_cons, List.forall_mem_nil, and_true]
    repeat' apply And.intro
    all_goals first | (intro p hp; exact absurd hp List.not_mem_nil) | stage_mem
  -- the bias row and the floor at zero
  have h := agrees_step h main_v53 (feat1 m c) (keep1 m ρ c)
    ((W6_arr m ρ c 2).trans ((Blocks.array1 (V5 m ρ) c).trans
      (congrArg₂ (rectifiedRow (a := 100000) (n := 32)) (h.read main_v51 _ (by stage_mem)) (h.read main_v52 _ (by stage_mem))))) (by decide)
  refine restrict h (main_v53 :: keptRefs) (known6 m c) rfl ?_
  simp only [known6, kept, List.forall_mem_cons, List.forall_mem_nil, and_true]
  repeat' apply And.intro
  all_goals first | (intro p hp; exact absurd hp List.not_mem_nil) | stage_mem

end Cert.KernelIdeal.Walk

end
-- ==== Proof.Region2.lean ====
/-
  Region 2: a block of 10000 rows of an [100000, 32] array times a resident [32, 64] matrix, ten blocks.

  The body multiplies the block by the matrix into a zero accumulator (the narrowing of both operands to a shorter
  float format is the identity on extended reals), so entry (p, q) of what point t writes back is the sum over k of
  block(p, k) · W(k, q). Row p of point t's block is row t·10000 + p of the array, the matrix is read whole at every
  point, and the ten output blocks tile the result; hence the output array ends as the product of the two arrays as
  the region finds them.
-/
import proofs.«125373_j36541581754987_1_alg».proof.Proof.Gen.KernelIdeal.Frame
import proofs.«125373_j36541581754987_1_alg».proof.Proof.LibMatProd
import Idealize.ShloMosaic.Lib.Pipeline.Value
import Idealize.ShloMosaic.Lib.ValueIdx
import Idealize.ShloMosaic.Lib.ValueLayout

set_option maxRecDepth 16384

noncomputable section

namespace Cert.KernelIdeal.Blocks

open Idealize.ShloMosaic Idealize.ShloMosaic.TcCoe Idealize.ShloMosaic.ValueIdx Idealize.SL.Sem
open Cert.KernelIdeal Cert.KernelIdeal.Gen Idealize.ShloMosaic.MatProd

variable (V : (c : Dev nD) → (b : Ref sig .tc) → Buf (Elt Ideal) ((c : Thread nD τ).loc b))

theorem offsets2 : (![0, 0] : Fin 2 → Nat) = fun _ => 0 := funext fun a => by fin_cases a <;> rfl

/-- The body's contraction is a plain matrix product. -/
theorem plain2 : DotPlain.IsPlain dot_S10000x32_S32x64_S10000x64_1_0_0_1_n_n := ⟨rfl, rfl, rfl, rfl, rfl, rfl⟩

/-- The body's stored value at an entry: the product of the loaded block and the loaded matrix. -/
theorem payload2 (x0 : Vec Ideal S10000x32 .f32) (x1 : Vec Ideal S32x64 .f32) (j : S10000x64.Idx) :
    k2_pay1 x0 x1 j = matProd (M := 10000) (K := 32) (N := 64) x0 x1 j := by
  unfold k2_pay1
  refine (MatProd.matmul_zero_apply plain2 none _ _ j).trans ?_
  show matProd (M := 10000) (K := 32) (N := 64) (shapeCast S10000x32 x0 _) x1 j = _
  rw [shapeCast_self]

/-- The three index maps over the ten points: rows move with the point, everything else stays at block 0. -/
theorem points2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the product of the two arrays. -/
theorem flushed2 (c : Dev nD) (t : Fin cfg2.N) :
    (dat2 V c).flushed 2 t = ((cfg2.win 2).blk t).view.read (Elt Ideal)
      (matProd (M := 100000) (K := 32) (N := 64) (V c main_v53) (V c main_arg6)) := by
  show (cfg2.win 2).cut (grid2.coords t) ((dat2 V c).after 2 t) = _
  rw [after2_2]
  unfold out2_2
  rw [View.canon_unit_zero offsets2]
  simp only [View.ld_unit_zero (S := S10000x32) offsets2, View.ld_unit_zero (S := S32x64) offsets2]
  obtain ⟨e0, e1, e2, e3, e4, e5⟩ := points2 t
  have ht : t.val < 10 := lt_of_lt_of_eq t.isLt (N_2 : cfg2.N = 10)
  funext j
  obtain ⟨p, q, rfl⟩ : ∃ (p : Fin 10000) (q : Fin 64), j = ix2 p q := ⟨j 0, j 1, eq_ix2 j⟩
  have hp := p.isLt
  have hq := q.isLt
  show k2_pay1 (iblk2 V c 0 t) (iblk2 V c 1 t) (ix2 p q)
      = matProd (M := 100000) (K := 32) (N := 64) (V c main_v53) (V c main_arg6) (((cfg2.win 2).blk t).view.emb (ix2 p q))
  have hemb : ((cfg2.win 2).blk t).view.emb (ix2 p q) = ix2 (⟨t.val * 10000 + p.val, by omega⟩ : Fin 100000) q := by
    funext a; apply Fin.ext
    match a with
    | ⟨0, _⟩ => show win2_2.index t (0 : Fin 2) * 10000 + 1 * p.val = t.val * 10000 + p.val; omega
    | ⟨1, _⟩ => show win2_2.index t (1 : Fin 2) * 64 + 1 * q.val = q.val; omega
  rw [hemb]
  refine (payload2 _ _ _).trans ?_
  refine matProd_of_rows _ _ _ _ p q _ (fun k => ?_) (fun k => ?_)
  · have hk := k.isLt
    show V c main_v53 (((cfg2.win 0).blk t).view.emb (ix2 p k)) = V c main_v53 (ix2 (⟨t.val * 10000 + p.val, by omega⟩ : Fin 100000) k)
    refine congrArg _ ?_
    funext a; apply Fin.ext
    match a with
    | ⟨0, _⟩ => show win2_0.index t (0 : Fin 2) * 10000 + 1 * p.val = t.val * 10000 + p.val; omega
    | ⟨1, _⟩ => show win2_0.index t (1 : Fin 2) * 32 + 1 * k.val = k.val; omega
  · have hk := k.isLt
    show V c main_arg6 (((cfg2.win 1).blk t).view.emb (ix2 k q)) = V c main_arg6 (ix2 k q)
    refine congrArg _ ?_
    funext a; apply Fin.ext
    match a with
    | ⟨0, _⟩ => show win2_1.index t (0 : Fin 2) * 32 + 1 * k.val = k.val; omega
    | ⟨1, _⟩ => show win2_1.index t (1 : Fin 2) * 64 + 1 * q.val = q.val; omega

/-- An index of the output array is in point t's block iff each coordinate is in the block's range on its axis. -/
theorem inBlock2 (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v54).slice (win2_2.rect t)).set ↔ _
  rw [View.set_slice_whole, Rect.mem_set_unit]
  exact Iff.rfl

/-- Every row block is some point's. -/
theorem pointOf2 : ∀ q0 : Fin 10, ∃ t : Fin cfg2.N, t.val = q0.val :=
  (by decide +kernel : ∀ q0 : Fin 10, ∃ t : Fin grid2.N, t.val = q0.val)

/-- The ten blocks cover the output array: row r lies in the block of point r / 10000. -/
theorem cover2 (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, ht⟩ := pointOf2 ⟨(i 0).val / 10000, by omega⟩
  have ht' : t.val = (i 0).val / 10000 := ht
  obtain ⟨e0, e1, e2, e3, e4, e5⟩ := points2 t
  refine ⟨t, flush2_2 t, ?_⟩
  rw [inBlock2]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 64 ≤ (i 1).val ∧ (i 1).val < win2_2.index t (1 : Fin 2) * 64 + 64; omega

/-- THE OUTPUT ARRAY after the region: the product of the two input arrays as the region finds them. -/
theorem array2 (c : Dev nD) :
    (dat2 V c).arrAt 2 cfg2.N = matProd (M := 100000) (K := 32) (N := 64) (V c main_v53) (V c main_arg6) :=
  (dat2 V c).arrAt_eq_of_cover 2 _ (fun t _ => flushed2 V c t) (cover2)

end Cert.KernelIdeal.Blocks

end
-- ==== Proof.Region3.lean ====
/-
  Region 3: a bias row added to a block of 10000 rows of an [100000, 64] array, then the maximum with zero, ten blocks.

  Entry (p, q) of what point t writes back is max(block(p, q) + b(0, q), 0): the one-row bias is spread down the
  rows and added, and the floor at zero is taken entry by entry. Row p of point t's block is row t·10000 + p of the array, the
  bias row is read whole at every point, and the ten output blocks tile the result; hence the output array ends as the
  rectified biased array of the two arrays as the region finds them.
-/
import proofs.«125373_j36541581754987_1_alg».proof.Proof.Gen.KernelIdeal.Frame
import proofs.«125373_j36541581754987_1_alg».proof.Proof.LibHostBiasRelu
import Idealize.ShloMosaic.Lib.Pipeline.Value
import Idealize.ShloMosaic.Lib.ValueIdx
import Idealize.ShloMosaic.Lib.ValueLayout

set_option maxRecDepth 16384

noncomputable section

namespace Cert.KernelIdeal.Blocks

open Idealize.ShloMosaic Idealize.ShloMosaic.TcCoe Idealize.ShloMosaic.ValueIdx Idealize.SL.Sem
open Cert.KernelIdeal Cert.KernelIdeal.Gen Cert.Activation Cert.HostBiasRelu

variable (V : (c : Dev nD) → (b : Ref sig .tc) → Buf (Elt Ideal) ((c : Thread nD τ).loc b))

theorem offsets3 : (![0, 0] : Fin 2 → Nat) = fun _ => 0 := funext fun a => by fin_cases a <;> rfl

/-- The body's stored value at an entry. -/
theorem payload3 (x0 : Vec Ideal S10000x64 .f32) (x1 : Vec Ideal S1x64 .f32) (p : Fin 10000) (q : Fin 64) :
    k3_pay1 x0 x1 (ix2 p q) = rectifiedRow (a := 10000) (n := 64) x0 x1 (ix2 p q) := by
  unfold k3_pay1
  rw [rectifiedRow_apply]
  show max (shapeCast S10000x64 x0 _ (ix2 p q) + broadcastTo S10000x64 (shapeCast S1x64 x1 _) _ (ix2 p q)) (Ideal.ofBits .f32 0x00000000#32) = _
  rw [shapeCast_self, shapeCast_self, broadcastTo_1b_ab_apply]

/-- The three index maps over the ten points: rows move with the point, everything else stays at block 0. -/
theorem points3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is block t of the rectified biased array. -/
theorem flushed3 (c : Dev nD) (t : Fin cfg3.N) :
    (dat3 V c).flushed 2 t = ((cfg3.win 2).blk t).view.read (Elt Ideal)
      (rectifiedRow (a := 100000) (n := 64) (V c main_v67) (V c main_v68)) := by
  show (cfg3.win 2).cut (grid3.coords t) ((dat3 V c).after 2 t) = _
  rw [after3_2]
  unfold out3_2
  rw [View.canon_unit_zero offsets3]
  simp only [View.ld_unit_zero (S := S10000x64) offsets3, View.ld_unit_zero (S := S1x64) offsets3]
  obtain ⟨e0, e1, e2, e3, e4, e5⟩ := points3 t
  have ht : t.val < 10 := lt_of_lt_of_eq t.isLt (N_3 : cfg3.N = 10)
  funext j
  obtain ⟨p, q, rfl⟩ : ∃ (p : Fin 10000) (q : Fin 64), j = ix2 p q := ⟨j 0, j 1, eq_ix2 j⟩
  have hp := p.isLt
  have hq := q.isLt
  show k3_pay1 (iblk3 V c 0 t) (iblk3 V c 1 t) (ix2 p q)
      = rectifiedRow (a := 100000) (n := 64) (V c main_v67) (V c main_v68) (((cfg3.win 2).blk t).view.emb (ix2 p q))
  have hemb : ((cfg3.win 2).blk t).view.emb (ix2 p q) = ix2 (⟨t.val * 10000 + p.val, by omega⟩ : Fin 100000) q := by
    funext a; apply Fin.ext
    match a with
    | ⟨0, _⟩ => show win3_2.index t (0 : Fin 2) * 10000 + 1 * p.val = t.val * 10000 + p.val; omega
    | ⟨1, _⟩ => show win3_2.index t (1 : Fin 2) * 64 + 1 * q.val = q.val; omega
  rw [hemb]
  refine (payload3 _ _ p q).trans ?_
  refine rectifiedRow_of_rows _ _ _ _ p q _ ?_ ?_
  · show V c main_v67 (((cfg3.win 0).blk t).view.emb (ix2 p q)) = V c main_v67 (ix2 (⟨t.val * 10000 + p.val, by omega⟩ : Fin 100000) q)
    refine congrArg _ ?_
    funext a; apply Fin.ext
    match a with
    | ⟨0, _⟩ => show win3_0.index t (0 : Fin 2) * 10000 + 1 * p.val = t.val * 10000 + p.val; omega
    | ⟨1, _⟩ => show win3_0.index t (1 : Fin 2) * 64 + 1 * q.val = q.val; omega
  · show V c main_v68 (((cfg3.win 1).blk t).view.emb (ix2 (0 : Fin 1) q)) = V c main_v68 (ix2 (0 : Fin 1) q)
    refine congrArg _ ?_
    funext a; apply Fin.ext
    match a with
    | ⟨0, _⟩ => show win3_1.index t (0 : Fin 2) * 1 + 1 * 0 = 0; omega
    | ⟨1, _⟩ => show win3_1.index t (1 : Fin 2) * 64 + 1 * q.val = q.val; omega

/-- An index of the output array is in point t's block iff each coordinate is in the block's range on its axis. -/
theorem inBlock3 (t : Fin cfg3.N) (i : S100000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v69).slice (win3_2.rect t)).set ↔ _
  rw [View.set_slice_whole, Rect.mem_set_unit]
  exact Iff.rfl

/-- Every row block is some point's. -/
theorem pointOf3 : ∀ q0 : Fin 10, ∃ t : Fin cfg3.N, t.val = q0.val :=
  (by decide +kernel : ∀ q0 : Fin 10, ∃ t : Fin grid3.N, t.val = q0.val)

/-- The ten blocks cover the output array: row r lies in the block of point r / 10000. -/
theorem cover3 (i : S100000x64.Idx) : ∃ t : Fin cfg3.N, (cfg3.win 2).flush t = true ∧ i ∈ ((cfg3.win 2).blk t).view.set := by
  have hi0 : (i 0).val < 100000 := (i 0).isLt
  have hi1 : (i 1).val < 64 := (i 1).isLt
  obtain ⟨t, ht⟩ := pointOf3 ⟨(i 0).val / 10000, by omega⟩
  have ht' : t.val = (i 0).val / 10000 := ht
  obtain ⟨e0, e1, e2, e3, e4, e5⟩ := points3 t
  refine ⟨t, flush3_2 t, ?_⟩
  rw [inBlock3]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 64 ≤ (i 1).val ∧ (i 1).val < win3_2.index t (1 : Fin 2) * 64 + 64; omega

/-- THE OUTPUT ARRAY after the region: the rectified biased array of the two input arrays as the region finds them. -/
theorem array3 (c : Dev nD) :
    (dat3 V c).arrAt 2 cfg3.N = rectifiedRow (a := 100000) (n := 64) (V c main_v67) (V c main_v68) :=
  (dat3 V c).arrAt_eq_of_cover 2 _ (fun t _ => flushed3 V c t) (cover3)

end Cert.KernelIdeal.Blocks

end
-- ==== Proof.WalkL2.lean ====
/-
  Layer 2: [100000, 32] features to [100000, 64].

  A tiled region multiplies the features by the layer's matrix; seventeen whole-array operations gather the product's
  rows along the edges, scale them by the edge weights and sum them at the edges' targets, and lay the bias vector out
  as one row; a second tiled region adds the bias row and takes the maximum with zero. Each region rewrites its own output array and
  leaves every other buffer as it was, so what the layer reads is still where the previous layers left it.
-/
import proofs.«125373_j36541581754987_1_alg».proof.Proof.WalkL1
import proofs.«125373_j36541581754987_1_alg».proof.Proof.Region2
import proofs.«125373_j36541581754987_1_alg».proof.Proof.Region3

set_option maxRecDepth 16384

noncomputable section

namespace Cert.KernelIdeal.Walk

open Idealize.ShloMosaic Idealize.ShloMosaic.TcCoe Idealize.ShloMosaic.StableHlo Idealize.ShloMosaic.RunStages Idealize.ShloMosaic.MatProd Idealize.SL.Sem
open Cert.KernelIdeal Cert.KernelIdeal.Gen Cert.Gcn Cert.Activation Cert.BiasRow

variable (m : (ℓ : Loc nD τ sig) → Buf (Elt Ideal) ℓ) (ρ : Dev nD → PrngReg)

/-- Region 2 rewrites its output array only. -/
theorem keep2 (c : Dev nD) (r : Ref sig .tc) (hr : r ≠ main_v54) :
    W7 m ρ c (Proc.devRef .tc r) = W6 m ρ c (Proc.devRef .tc r) := by
  by_cases h0 : r = main_v53
  · subst h0
    exact (W7_arr m ρ c 0).trans (((dat2 (V6 m ρ) c).arrAt_in 0 rfl _).trans (A_eq2 (V6 m ρ) c 0))
  by_cases h1 : r = main_arg6
  · subst h1
    exact (W7_arr m ρ c 1).trans (((dat2 (V6 m ρ) c).arrAt_in 1 rfl _).trans (A_eq2 (V6 m ρ) c 1))
  exact W7_of_ne m ρ c r (fun w => match w with
    | ⟨0, _⟩ => fun e => h0 e.symm
    | ⟨1, _⟩ => fun e => h1 e.symm
    | ⟨2, _⟩ => fun e => hr e.symm)

/-- Region 3 rewrites its output array only. -/
theorem keep3 (c : Dev nD) (r : Ref sig .tc) (hr : r ≠ main_v69) :
    W9 m ρ c (Proc.devRef .tc r) = W8 m ρ c (Proc.devRef .tc r) := by
  by_cases h0 : r = main_v67
  · subst h0
    exact (W9_arr m ρ c 0).trans (((dat3 (V8 m ρ) c).arrAt_in 0 rfl _).trans (A_eq3 (V8 m ρ) c 0))
  by_cases h1 : r = main_v68
  · subst h1
    exact (W9_arr m ρ c 1).trans (((dat3 (V8 m ρ) c).arrAt_in 1 rfl _).trans (A_eq3 (V8 m ρ) c 1))
  exact W9_of_ne m ρ c r (fun w => match w with
    | ⟨0, _⟩ => fun e => h0 e.symm
    | ⟨1, _⟩ => fun e => h1 e.symm
    | ⟨2, _⟩ => fun e => hr e.symm)

/-- Between the two regions: the summed messages and the bias row, and what every layer reads. -/
abbrev mid2 (c : Dev nD) : List (Known sig (Elt Ideal)) :=
  ⟨main_v68, shapeCast S1x64 (m ((c : Thread nD τ).loc main_arg7)) shapeCasts_S64_S1x64⟩ ::
  ⟨main_v67, agg64 (matProd (M := 100000) (K := 32) (N := 64) (feat1 m c) (m ((c : Thread nD τ).loc main_arg6))) (srcOf (m ((c : Thread nD τ).loc main_arg2))) (dstOf (m ((c : Thread nD τ).loc main_arg2))) (normOf (srcOf (m ((c : Thread nD τ).loc main_arg2))) (dstOf (m ((c : Thread nD τ).loc main_arg2))))⟩ :: kept m c

/-- After the layer: its features, and what every layer reads. -/
abbrev known9 (c : Dev nD) : List (Known sig (Elt Ideal)) :=
  ⟨main_v69, feat2 m c⟩ :: kept m c

set_option maxHeartbeats 4000000 in
theorem at9 (c : Dev nD) : Agrees (main_v69 :: keptRefs) (known9 m c) (W9 m ρ c) := by
  have h := at6 m ρ c
  -- the matrix product
  have h := agrees_step h main_v54 (matProd (M := 100000) (K := 32) (N := 64) (feat1 m c) (m ((c : Thread nD τ).loc main_arg6))) (keep2 m ρ c)
    ((W7_arr m ρ c 2).trans ((Blocks.array2 (V6 m ρ) c).trans
      (congrArg₂ (matProd (M := 100000) (K := 32) (N := 64)) (h.read main_v53 _ (by stage_mem)) (h.read main_arg6 _ (by stage_mem))))) (by decide)
  -- the messages along the edges, and the bias row
  have h : Agrees (main_v68 :: main_v67 :: keptRefs) (mid2 m c) (W8 m ρ c) := by
    show Ends hostOps3 (W7 m ρ c) (fun V => Agrees (main_v68 :: main_v67 :: keptRefs) (mid2 m c) V)
    stage0 _
    stage1 _
    stage2 _
    stage0 _
    stage1 _
    stage2 _
    stage3 (wrap (srcOf (m ((c : Thread nD τ).loc main_arg2))))
    stage1 _
    stage2 _
    stage1 _
    stage1 _
    stage2 _
    stage0 _
    stage1 _
    stage1 _
    stage3 (agg64 (matProd (M := 100000) (K := 32) (N := 64) (feat1 m c) (m ((c : Thread nD τ).loc main_arg6))) (srcOf (m ((c : Thread nD τ).loc main_arg2))) (dstOf (m ((c : Thread nD τ).loc main_arg2))) (normOf (srcOf (m ((c : Thread nD τ).loc main_arg2))) (dstOf (m ((c : Thread nD τ).loc main_arg2)))))
    stageR (shapeCast S1x64 (m ((c : Thread nD τ).loc main_arg7)) shapeCasts_S64_S1x64)
    refine ends_done (restrict h (main_v68 :: main_v67 :: keptRefs) (mid2 m c) rfl ?_)
    simp only [mid2, kept, List.forall_mem_cons, List.forall_mem_nil, and_true]
    repeat' apply And.intro
    all_goals first | (intro p hp; exact absurd hp List.not_mem_nil) | stage_mem
  -- the bias row and the floor at zero
  have h := agrees_step h main_v69 (feat2 m c) (keep3 m ρ c)
    ((W9_arr m ρ c 2).trans ((Blocks.array3 (V8 m ρ) c).trans
      (congrArg₂ (rectifiedRow (a := 100000) (n := 64)) (h.read main_v67 _ (by stage_mem)) (h.read main_v68 _ (by stage_mem))))) (by decide)
  refine restrict h (main_v69 :: keptRefs) (known9 m c) rfl ?_
  simp only [known9, kept, List.forall_mem_cons, List.forall_mem_nil, and_true]
  repeat' apply And.intro
  all_goals first | (intro p hp; exact absurd hp List.not_mem_nil) | stage_mem

end Cert.KernelIdeal.Walk

end
-- ==== Proof.Region4.lean ====
/-
  Region 4: a block of 10000 rows of an [100000, 64] array times a resident [64, 64] matrix, ten blocks.

  The body multiplies the block by the matrix into a zero accumulator (the narrowing of both operands to a shorter
  float format is the identity on extended reals), so entry (p, q) of what point t writes back is the sum over k of
  block(p, k) · W(k, q). Row p of point t's block is row t·10000 + p of the array, the matrix is read whole at every
  point, and the ten output blocks tile the result; hence the output array ends as the product of the two arrays as
  the region finds them.
-/
import proofs.«125373_j36541581754987_1_alg».proof.Proof.Gen.KernelIdeal.Frame
import proofs.«125373_j36541581754987_1_alg».proof.Proof.LibMatProd
import Idealize.ShloMosaic.Lib.Pipeline.Value
import Idealize.ShloMosaic.Lib.ValueIdx
import Idealize.ShloMosaic.Lib.ValueLayout

set_option maxRecDepth 16384

noncomputable section

namespace Cert.KernelIdeal.Blocks

open Idealize.ShloMosaic Idealize.ShloMosaic.TcCoe Idealize.ShloMosaic.ValueIdx Idealize.SL.Sem
open Cert.KernelIdeal Cert.KernelIdeal.Gen Idealize.ShloMosaic.MatProd

variable (V : (c : Dev nD) → (b : Ref sig .tc) → Buf (Elt Ideal) ((c : Thread nD τ).loc b))

theorem offsets4 : (![0, 0] : Fin 2 → Nat) = fun _ => 0 := funext fun a => by fin_cases a <;> rfl

/-- The body's contraction is a plain matrix product. -/
theorem plain4 : DotPlain.IsPlain dot_S10000x64_S64x64_S10000x64_1_0_0_1_n_n := ⟨rfl, rfl, rfl, rfl, rfl, rfl⟩

/-- The body's stored value at an entry: the product of the loaded block and the loaded matrix. -/
theorem payload4 (x0 : Vec Ideal S10000x64 .f32) (x1 : Vec Ideal S64x64 .f32) (j : S10000x64.Idx) :
    k4_pay1 x0 x1 j = matProd (M := 10000) (K := 64) (N := 64) x0 x1 j := by
  unfold k4_pay1
  refine (MatProd.matmul_zero_apply plain4 none _ _ j).trans ?_
  show matProd (M := 10000) (K := 64) (N := 64) (shapeCast S10000x64 x0 _) x1 j = _
  rw [shapeCast_self]

/-- The three index maps over the ten points: rows move with the point, everything else stays at block 0. -/
theorem points4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point t writes back is block t of the product of the two arrays. -/
theorem flushed4 (c : Dev nD) (t : Fin cfg4.N) :
    (dat4 V c).flushed 2 t = ((cfg4.win 2).blk t).view.read (Elt Ideal)
      (matProd (M := 100000) (K := 64) (N := 64) (V c main_v69) (V c main_arg8)) := by
  show (cfg4.win 2).cut (grid4.coords t) ((dat4 V c).after 2 t) = _
  rw [after4_2]
  unfold out4_2
  rw [View.canon_unit_zero offsets4]
  simp only [View.ld_unit_zero (S := S10000x64) offsets4, View.ld_unit_zero (S := S64x64) offsets4]
  obtain ⟨e0, e1, e2, e3, e4, e5⟩ := points4 t
  have ht : t.val < 10 := lt_of_lt_of_eq t.isLt (N_4 : cfg4.N = 10)
  funext j
  obtain ⟨p, q, rfl⟩ : ∃ (p : Fin 10000) (q : Fin 64), j = ix2 p q := ⟨j 0, j 1, eq_ix2 j⟩
  have hp := p.isLt
  have hq := q.isLt
  show k4_pay1 (iblk4 V c 0 t) (iblk4 V c 1 t) (ix2 p q)
      = matProd (M := 100000) (K := 64) (N := 64) (V c main_v69) (V c main_arg8) (((cfg4.win 2).blk t).view.emb (ix2 p q))
  have hemb : ((cfg4.win 2).blk t).view.emb (ix2 p q) = ix2 (⟨t.val * 10000 + p.val, by omega⟩ : Fin 100000) q := by
    funext a; apply Fin.ext
    match a with
    | ⟨0, _⟩ => show win4_2.index t (0 : Fin 2) * 10000 + 1 * p.val = t.val * 10000 + p.val; omega
    | ⟨1, _⟩ => show win4_2.index t (1 : Fin 2) * 64 + 1 * q.val = q.val; omega
  rw [hemb]
  refine (payload4 _ _ _).trans ?_
  refine matProd_of_rows _ _ _ _ p q _ (fun k => ?_) (fun k => ?_)
  · have hk := k.isLt
    show V c main_v69 (((cfg4.win 0).blk t).view.emb (ix2 p k)) = V c main_v69 (ix2 (⟨t.val * 10000 + p.val, by omega⟩ : Fin 100000) k)
    refine congrArg _ ?_
    funext a; apply Fin.ext
    match a with
    | ⟨0, _⟩ => show win4_0.index t (0 : Fin 2) * 10000 + 1 * p.val = t.val * 10000 + p.val; omega
    | ⟨1, _⟩ => show win4_0.index t (1 : Fin 2) * 64 + 1 * k.val = k.val; omega
  · have hk := k.isLt
    show V c main_arg8 (((cfg4.win 1).blk t).view.emb (ix2 k q)) = V c main_arg8 (ix2 k q)
    refine congrArg _ ?_
    funext a; apply Fin.ext
    match a with
    | ⟨0, _⟩ => show win4_1.index t (0 : Fin 2) * 64 + 1 * k.val = k.val; omega
    | ⟨1, _⟩ => show win4_1.index t (1 : Fin 2) * 64 + 1 * q.val = q.val; omega

/-- An index of the output array is in point t's block iff each coordinate is in the block's range on its axis. -/
theorem inBlock4 (t : Fin cfg4.N) (i : S100000x64.Idx) :
    i ∈ ((cfg4.win 2).blk t).view.set ↔ ∀ a : Fin 2, win4_2.index t a * S10000x64.size a ≤ (i a).val ∧ (i a).val < win4_2.index t a * S10000x64.size a + S10000x64.size a := by
  show i ∈ ((View.whole main_v70).slice (win4_2.rect t)).set ↔ _
  rw [View.set_slice_whole, Rect.mem_set_unit]
  exact Iff.rfl

/-- Every row block is some point's. -/
theorem pointOf4 : ∀ q0 : Fin 10, ∃ t : Fin cfg4.N, t.val = q0.val :=
  (by decide +kernel : ∀ q0 : Fin 10, ∃ t : Fin grid4.N, t.val = q0.val)

/-- The ten blocks cover the output array: row r lies in the block of point r / 10000. -/
theorem cover4 (i : S100000x64.Idx) : ∃ t : Fin cfg4.N, (cfg4.win 2).flush t = true ∧ i ∈ ((cfg4.win 2).blk t).view.set := by
  have hi0 : (i 0).val < 100000 := (i 0).isLt
  have hi1 : (i 1).val < 64 := (i 1).isLt
  obtain ⟨t, ht⟩ := pointOf4 ⟨(i 0).val / 10000, by omega⟩
  have ht' : t.val = (i 0).val / 10000 := ht
  obtain ⟨e0, e1, e2, e3, e4, e5⟩ := points4 t
  refine ⟨t, flush4_2 t, ?_⟩
  rw [inBlock4]
  intro a
  match a with
  | ⟨0, _⟩ => show win4_2.index t (0 : Fin 2) * 10000 ≤ (i 0).val ∧ (i 0).val < win4_2.index t (0 : Fin 2) * 10000 + 10000; omega
  | ⟨1, _⟩ => show win4_2.index t (1 : Fin 2) * 64 ≤ (i 1).val ∧ (i 1).val < win4_2.index t (1 : Fin 2) * 64 + 64; omega

/-- THE OUTPUT ARRAY after the region: the product of the two input arrays as the region finds them. -/
theorem array4 (c : Dev nD) :
    (dat4 V c).arrAt 2 cfg4.N = matProd (M := 100000) (K := 64) (N := 64) (V c main_v69) (V c main_arg8) :=
  (dat4 V c).arrAt_eq_of_cover 2 _ (fun t _ => flushed4 V c t) (cover4)

end Cert.KernelIdeal.Blocks

end
-- ==== Proof.Region5.lean ====
/-
  Region 5: a bias row added to a block of 10000 rows of an [100000, 64] array, then the maximum with zero, ten blocks.

  Entry (p, q) of what point t writes back is max(block(p, q) + b(0, q), 0): the one-row bias is spread down the
  rows and added, and the floor at zero is taken entry by entry. Row p of point t's block is row t·10000 + p of the array, the
  bias row is read whole at every point, and the ten output blocks tile the result; hence the output array ends as the
  rectified biased array of the two arrays as the region finds them.
-/
import proofs.«125373_j36541581754987_1_alg».proof.Proof.Gen.KernelIdeal.Frame
import proofs.«125373_j36541581754987_1_alg».proof.Proof.LibHostBiasRelu
import Idealize.ShloMosaic.Lib.Pipeline.Value
import Idealize.ShloMosaic.Lib.ValueIdx
import Idealize.ShloMosaic.Lib.ValueLayout

set_option maxRecDepth 16384

noncomputable section

namespace Cert.KernelIdeal.Blocks

open Idealize.ShloMosaic Idealize.ShloMosaic.TcCoe Idealize.ShloMosaic.ValueIdx Idealize.SL.Sem
open Cert.KernelIdeal Cert.KernelIdeal.Gen Cert.Activation Cert.HostBiasRelu

variable (V : (c : Dev nD) → (b : Ref sig .tc) → Buf (Elt Ideal) ((c : Thread nD τ).loc b))

theorem offsets5 : (![0, 0] : Fin 2 → Nat) = fun _ => 0 := funext fun a => by fin_cases a <;> rfl

/-- The body's stored value at an entry. -/
theorem payload5 (x0 : Vec Ideal S10000x64 .f32) (x1 : Vec Ideal S1x64 .f32) (p : Fin 10000) (q : Fin 64) :
    k5_pay1 x0 x1 (ix2 p q) = rectifiedRow (a := 10000) (n := 64) x0 x1 (ix2 p q) := by
  unfold k5_pay1
  rw [rectifiedRow_apply]
  show max (shapeCast S10000x64 x0 _ (ix2 p q) + broadcastTo S10000x64 (shapeCast S1x64 x1 _) _ (ix2 p q)) (Ideal.ofBits .f32 0x00000000#32) = _
  rw [shapeCast_self, shapeCast_self, broadcastTo_1b_ab_apply]

/-- The three index maps over the ten points: rows move with the point, everything else stays at block 0. -/
theorem points5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What point t writes back is block t of the rectified biased array. -/
theorem flushed5 (c : Dev nD) (t : Fin cfg5.N) :
    (dat5 V c).flushed 2 t = ((cfg5.win 2).blk t).view.read (Elt Ideal)
      (rectifiedRow (a := 100000) (n := 64) (V c main_v83) (V c main_v84)) := by
  show (cfg5.win 2).cut (grid5.coords t) ((dat5 V c).after 2 t) = _
  rw [after5_2]
  unfold out5_2
  rw [View.canon_unit_zero offsets5]
  simp only [View.ld_unit_zero (S := S10000x64) offsets5, View.ld_unit_zero (S := S1x64) offsets5]
  obtain ⟨e0, e1, e2, e3, e4, e5⟩ := points5 t
  have ht : t.val < 10 := lt_of_lt_of_eq t.isLt (N_5 : cfg5.N = 10)
  funext j
  obtain ⟨p, q, rfl⟩ : ∃ (p : Fin 10000) (q : Fin 64), j = ix2 p q := ⟨j 0, j 1, eq_ix2 j⟩
  have hp := p.isLt
  have hq := q.isLt
  show k5_pay1 (iblk5 V c 0 t) (iblk5 V c 1 t) (ix2 p q)
      = rectifiedRow (a := 100000) (n := 64) (V c main_v83) (V c main_v84) (((cfg5.win 2).blk t).view.emb (ix2 p q))
  have hemb : ((cfg5.win 2).blk t).view.emb (ix2 p q) = ix2 (⟨t.val * 10000 + p.val, by omega⟩ : Fin 100000) q := by
    funext a; apply Fin.ext
    match a with
    | ⟨0, _⟩ => show win5_2.index t (0 : Fin 2) * 10000 + 1 * p.val = t.val * 10000 + p.val; omega
    | ⟨1, _⟩ => show win5_2.index t (1 : Fin 2) * 64 + 1 * q.val = q.val; omega
  rw [hemb]
  refine (payload5 _ _ p q).trans ?_
  refine rectifiedRow_of_rows _ _ _ _ p q _ ?_ ?_
  · show V c main_v83 (((cfg5.win 0).blk t).view.emb (ix2 p q)) = V c main_v83 (ix2 (⟨t.val * 10000 + p.val, by omega⟩ : Fin 100000) q)
    refine congrArg _ ?_
    funext a; apply Fin.ext
    match a with
    | ⟨0, _⟩ => show win5_0.index t (0 : Fin 2) * 10000 + 1 * p.val = t.val * 10000 + p.val; omega
    | ⟨1, _⟩ => show win5_0.index t (1 : Fin 2) * 64 + 1 * q.val = q.val; omega
  · show V c main_v84 (((cfg5.win 1).blk t).view.emb (ix2 (0 : Fin 1) q)) = V c main_v84 (ix2 (0 : Fin 1) q)
    refine congrArg _ ?_
    funext a; apply Fin.ext
    match a with
    | ⟨0, _⟩ => show win5_1.index t (0 : Fin 2) * 1 + 1 * 0 = 0; omega
    | ⟨1, _⟩ => show win5_1.index t (1 : Fin 2) * 64 + 1 * q.val = q.val; omega

/-- An index of the output array is in point t's block iff each coordinate is in the block's range on its axis. -/
theorem inBlock5 (t : Fin cfg5.N) (i : S100000x64.Idx) :
    i ∈ ((cfg5.win 2).blk t).view.set ↔ ∀ a : Fin 2, win5_2.index t a * S10000x64.size a ≤ (i a).val ∧ (i a).val < win5_2.index t a * S10000x64.size a + S10000x64.size a := by
  show i ∈ ((View.whole main_v85).slice (win5_2.rect t)).set ↔ _
  rw [View.set_slice_whole, Rect.mem_set_unit]
  exact Iff.rfl

/-- Every row block is some point's. -/
theorem pointOf5 : ∀ q0 : Fin 10, ∃ t : Fin cfg5.N, t.val = q0.val :=
  (by decide +kernel : ∀ q0 : Fin 10, ∃ t : Fin grid5.N, t.val = q0.val)

/-- The ten blocks cover the output array: row r lies in the block of point r / 10000. -/
theorem cover5 (i : S100000x64.Idx) : ∃ t : Fin cfg5.N, (cfg5.win 2).flush t = true ∧ i ∈ ((cfg5.win 2).blk t).view.set := by
  have hi0 : (i 0).val < 100000 := (i 0).isLt
  have hi1 : (i 1).val < 64 := (i 1).isLt
  obtain ⟨t, ht⟩ := pointOf5 ⟨(i 0).val / 10000, by omega⟩
  have ht' : t.val = (i 0).val / 10000 := ht
  obtain ⟨e0, e1, e2, e3, e4, e5⟩ := points5 t
  refine ⟨t, flush5_2 t, ?_⟩
  rw [inBlock5]
  intro a
  match a with
  | ⟨0, _⟩ => show win5_2.index t (0 : Fin 2) * 10000 ≤ (i 0).val ∧ (i 0).val < win5_2.index t (0 : Fin 2) * 10000 + 10000; omega
  | ⟨1, _⟩ => show win5_2.index t (1 : Fin 2) * 64 ≤ (i 1).val ∧ (i 1).val < win5_2.index t (1 : Fin 2) * 64 + 64; omega

/-- THE OUTPUT ARRAY after the region: the rectified biased array of the two input arrays as the region finds them. -/
theorem array5 (c : Dev nD) :
    (dat5 V c).arrAt 2 cfg5.N = rectifiedRow (a := 100000) (n := 64) (V c main_v83) (V c main_v84) :=
  (dat5 V c).arrAt_eq_of_cover 2 _ (fun t _ => flushed5 V c t) (cover5)

end Cert.KernelIdeal.Blocks

end
-- ==== Proof.WalkL3.lean ====
/-
  Layer 3: [100000, 64] features to [100000, 64].

  A tiled region multiplies the features by the layer's matrix; seventeen whole-array operations gather the product's
  rows along the edges, scale them by the edge weights and sum them at the edges' targets, and lay the bias vector out
  as one row; a second tiled region adds the bias row and takes the maximum with zero. Each region rewrites its own output array and
  leaves every other buffer as it was, so what the layer reads is still where the previous layers left it.
-/
import proofs.«125373_j36541581754987_1_alg».proof.Proof.WalkL2
import proofs.«125373_j36541581754987_1_alg».proof.Proof.Region4
import proofs.«125373_j36541581754987_1_alg».proof.Proof.Region5

set_option maxRecDepth 16384

noncomputable section

namespace Cert.KernelIdeal.Walk

open Idealize.ShloMosaic Idealize.ShloMosaic.TcCoe Idealize.ShloMosaic.StableHlo Idealize.ShloMosaic.RunStages Idealize.ShloMosaic.MatProd Idealize.SL.Sem
open Cert.KernelIdeal Cert.KernelIdeal.Gen Cert.Gcn Cert.Activation Cert.BiasRow

variable (m : (ℓ : Loc nD τ sig) → Buf (Elt Ideal) ℓ) (ρ : Dev nD → PrngReg)

/-- Region 4 rewrites its output array only. -/
theorem keep4 (c : Dev nD) (r : Ref sig .tc) (hr : r ≠ main_v70) :
    W10 m ρ c (Proc.devRef .tc r) = W9 m ρ c (Proc.devRef .tc r) := by
  by_cases h0 : r = main_v69
  · subst h0
    exact (W10_arr m ρ c 0).trans (((dat4 (V9 m ρ) c).arrAt_in 0 rfl _).trans (A_eq4 (V9 m ρ) c 0))
  by_cases h1 : r = main_arg8
  · subst h1
    exact (W10_arr m ρ c 1).trans (((dat4 (V9 m ρ) c).arrAt_in 1 rfl _).trans (A_eq4 (V9 m ρ) c 1))
  exact W10_of_ne m ρ c r (fun w => match w with
    | ⟨0, _⟩ => fun e => h0 e.symm
    | ⟨1, _⟩ => fun e => h1 e.symm
    | ⟨2, _⟩ => fun e => hr e.symm)

/-- Region 5 rewrites its output array only. -/
theorem keep5 (c : Dev nD) (r : Ref sig .tc) (hr : r ≠ main_v85) :
    W12 m ρ c (Proc.devRef .tc r) = W11 m ρ c (Proc.devRef .tc r) := by
  by_cases h0 : r = main_v83
  · subst h0
    exact (W12_arr m ρ c 0).trans (((dat5 (V11 m ρ) c).arrAt_in 0 rfl _).trans (A_eq5 (V11 m ρ) c 0))
  by_cases h1 : r = main_v84
  · subst h1
    exact (W12_arr m ρ c 1).trans (((dat5 (V11 m ρ) c).arrAt_in 1 rfl _).trans (A_eq5 (V11 m ρ) c 1))
  exact W12_of_ne m ρ c r (fun w => match w with
    | ⟨0, _⟩ => fun e => h0 e.symm
    | ⟨1, _⟩ => fun e => h1 e.symm
    | ⟨2, _⟩ => fun e => hr e.symm)

/-- Between the two regions: the summed messages and the bias row, and what every layer reads. -/
abbrev mid3 (c : Dev nD) : List (Known sig (Elt Ideal)) :=
  ⟨main_v84, shapeCast S1x64 (m ((c : Thread nD τ).loc main_arg9)) shapeCasts_S64_S1x64⟩ ::
  ⟨main_v83, agg64 (matProd (M := 100000) (K := 64) (N := 64) (feat2 m c) (m ((c : Thread nD τ).loc main_arg8))) (srcOf (m ((c : Thread nD τ).loc main_arg2))) (dstOf (m ((c : Thread nD τ).loc main_arg2))) (normOf (srcOf (m ((c : Thread nD τ).loc main_arg2))) (dstOf (m ((c : Thread nD τ).loc main_arg2))))⟩ :: kept m c

/-- After the layer: its features, and what every layer reads. -/
abbrev known12 (c : Dev nD) : List (Known sig (Elt Ideal)) :=
  ⟨main_v85, feat3 m c⟩ :: kept m c

set_option maxHeartbeats 4000000 in
theorem at12 (c : Dev nD) : Agrees (main_v85 :: keptRefs) (known12 m c) (W12 m ρ c) := by
  have h := at9 m ρ c
  -- the matrix product
  have h := agrees_step h main_v70 (matProd (M := 100000) (K := 64) (N := 64) (feat2 m c) (m ((c : Thread nD τ).loc main_arg8))) (keep4 m ρ c)
    ((W10_arr m ρ c 2).trans ((Blocks.array4 (V9 m ρ) c).trans
      (congrArg₂ (matProd (M := 100000) (K := 64) (N := 64)) (h.read main_v69 _ (by stage_mem)) (h.read main_arg8 _ (by stage_mem))))) (by decide)
  -- the messages along the edges, and the bias row
  have h : Agrees (main_v84 :: main_v83 :: keptRefs) (mid3 m c) (W11 m ρ c) := by
    show Ends hostOps5 (W10 m ρ c) (fun V => Agrees (main_v84 :: main_v83 :: keptRefs) (mid3 m c) V)
    stage0 _
    stage1 _
    stage2 _
    stage0 _
    stage1 _
    stage2 _
    stage3 (wrap (srcOf (m ((c : Thread nD τ).loc main_arg2))))
    stage1 _
    stage2 _
    stage1 _
    stage1 _
    stage2 _
    stage0 _
    stage1 _
    stage1 _
    stage3 (agg64 (matProd (M := 100000) (K := 64) (N := 64) (feat2 m c) (m ((c : Thread nD τ).loc main_arg8))) (srcOf (m ((c : Thread nD τ).loc main_arg2))) (dstOf (m ((c : Thread nD τ).loc main_arg2))) (normOf (srcOf (m ((c : Thread nD τ).loc main_arg2))) (dstOf (m ((c : Thread nD τ).loc main_arg2)))))
    stageR (shapeCast S1x64 (m ((c : Thread nD τ).loc main_arg9)) shapeCasts_S64_S1x64)
    refine ends_done (restrict h (main_v84 :: main_v83 :: keptRefs) (mid3 m c) rfl ?_)
    simp only [mid3, kept, List.forall_mem_cons, List.forall_mem_nil, and_true]
    repeat' apply And.intro
    all_goals first | (intro p hp; exact absurd hp List.not_mem_nil) | stage_mem
  -- the bias row and the floor at zero
  have h := agrees_step h main_v85 (feat3 m c) (keep5 m ρ c)
    ((W12_arr m ρ c 2).trans ((Blocks.array5 (V11 m ρ) c).trans
      (congrArg₂ (rectifiedRow (a := 100000) (n := 64)) (h.read main_v83 _ (by stage_mem)) (h.read main_v84 _ (by stage_mem))))) (by decide)
  refine restrict h (main_v85 :: keptRefs) (known12 m c) rfl ?_
  simp only [known12, kept, List.forall_mem_cons, List.forall_mem_nil, and_true]
  repeat' apply And.intro
  all_goals first | (intro p hp; exact absurd hp List.not_mem_nil) | stage_mem

end Cert.KernelIdeal.Walk

end
-- ==== Proof.Region6.lean ====
/-
  Region 6: a block of 10000 rows of an [100000, 64] array times a resident [64, 32] matrix, ten blocks.

  The body multiplies the block by the matrix into a zero accumulator (the narrowing of both operands to a shorter
  float format is the identity on extended reals), so entry (p, q) of what point t writes back is the sum over k of
  block(p, k) · W(k, q). Row p of point t's block is row t·10000 + p of the array, the matrix is read whole at every
  point, and the ten output blocks tile the result; hence the output array ends as the product of the two arrays as
  the region finds them.
-/
import proofs.«125373_j36541581754987_1_alg».proof.Proof.Gen.KernelIdeal.Frame
import proofs.«125373_j36541581754987_1_alg».proof.Proof.LibMatProd
import Idealize.ShloMosaic.Lib.Pipeline.Value
import Idealize.ShloMosaic.Lib.ValueIdx
import Idealize.ShloMosaic.Lib.ValueLayout

set_option maxRecDepth 16384

noncomputable section

namespace Cert.KernelIdeal.Blocks

open Idealize.ShloMosaic Idealize.ShloMosaic.TcCoe Idealize.ShloMosaic.ValueIdx Idealize.SL.Sem
open Cert.KernelIdeal Cert.KernelIdeal.Gen Idealize.ShloMosaic.MatProd

variable (V : (c : Dev nD) → (b : Ref sig .tc) → Buf (Elt Ideal) ((c : Thread nD τ).loc b))

theorem offsets6 : (![0, 0] : Fin 2 → Nat) = fun _ => 0 := funext fun a => by fin_cases a <;> rfl

/-- The body's contraction is a plain matrix product. -/
theorem plain6 : DotPlain.IsPlain dot_S10000x64_S64x32_S10000x32_1_0_0_1_n_n := ⟨rfl, rfl, rfl, rfl, rfl, rfl⟩

/-- The body's stored value at an entry: the product of the loaded block and the loaded matrix. -/
theorem payload6 (x0 : Vec Ideal S10000x64 .f32) (x1 : Vec Ideal S64x32 .f32) (j : S10000x32.Idx) :
    k6_pay1 x0 x1 j = matProd (M := 10000) (K := 64) (N := 32) x0 x1 j := by
  unfold k6_pay1
  refine (MatProd.matmul_zero_apply plain6 none _ _ j).trans ?_
  show matProd (M := 10000) (K := 64) (N := 32) (shapeCast S10000x64 x0 _) x1 j = _
  rw [shapeCast_self]

/-- The three index maps over the ten points: rows move with the point, everything else stays at block 0. -/
theorem points6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- What point t writes back is block t of the product of the two arrays. -/
theorem flushed6 (c : Dev nD) (t : Fin cfg6.N) :
    (dat6 V c).flushed 2 t = ((cfg6.win 2).blk t).view.read (Elt Ideal)
      (matProd (M := 100000) (K := 64) (N := 32) (V c main_v85) (V c main_arg10)) := by
  show (cfg6.win 2).cut (grid6.coords t) ((dat6 V c).after 2 t) = _
  rw [after6_2]
  unfold out6_2
  rw [View.canon_unit_zero offsets6]
  simp only [View.ld_unit_zero (S := S10000x64) offsets6, View.ld_unit_zero (S := S64x32) offsets6]
  obtain ⟨e0, e1, e2, e3, e4, e5⟩ := points6 t
  have ht : t.val < 10 := lt_of_lt_of_eq t.isLt (N_6 : cfg6.N = 10)
  funext j
  obtain ⟨p, q, rfl⟩ : ∃ (p : Fin 10000) (q : Fin 32), j = ix2 p q := ⟨j 0, j 1, eq_ix2 j⟩
  have hp := p.isLt
  have hq := q.isLt
  show k6_pay1 (iblk6 V c 0 t) (iblk6 V c 1 t) (ix2 p q)
      = matProd (M := 100000) (K := 64) (N := 32) (V c main_v85) (V c main_arg10) (((cfg6.win 2).blk t).view.emb (ix2 p q))
  have hemb : ((cfg6.win 2).blk t).view.emb (ix2 p q) = ix2 (⟨t.val * 10000 + p.val, by omega⟩ : Fin 100000) q := by
    funext a; apply Fin.ext
    match a with
    | ⟨0, _⟩ => show win6_2.index t (0 : Fin 2) * 10000 + 1 * p.val = t.val * 10000 + p.val; omega
    | ⟨1, _⟩ => show win6_2.index t (1 : Fin 2) * 32 + 1 * q.val = q.val; omega
  rw [hemb]
  refine (payload6 _ _ _).trans ?_
  refine matProd_of_rows _ _ _ _ p q _ (fun k => ?_) (fun k => ?_)
  · have hk := k.isLt
    show V c main_v85 (((cfg6.win 0).blk t).view.emb (ix2 p k)) = V c main_v85 (ix2 (⟨t.val * 10000 + p.val, by omega⟩ : Fin 100000) k)
    refine congrArg _ ?_
    funext a; apply Fin.ext
    match a with
    | ⟨0, _⟩ => show win6_0.index t (0 : Fin 2) * 10000 + 1 * p.val = t.val * 10000 + p.val; omega
    | ⟨1, _⟩ => show win6_0.index t (1 : Fin 2) * 64 + 1 * k.val = k.val; omega
  · have hk := k.isLt
    show V c main_arg10 (((cfg6.win 1).blk t).view.emb (ix2 k q)) = V c main_arg10 (ix2 k q)
    refine congrArg _ ?_
    funext a; apply Fin.ext
    match a with
    | ⟨0, _⟩ => show win6_1.index t (0 : Fin 2) * 64 + 1 * k.val = k.val; omega
    | ⟨1, _⟩ => show win6_1.index t (1 : Fin 2) * 32 + 1 * q.val = q.val; omega

/-- An index of the output array is in point t's block iff each coordinate is in the block's range on its axis. -/
theorem inBlock6 (t : Fin cfg6.N) (i : S100000x32.Idx) :
    i ∈ ((cfg6.win 2).blk t).view.set ↔ ∀ a : Fin 2, win6_2.index t a * S10000x32.size a ≤ (i a).val ∧ (i a).val < win6_2.index t a * S10000x32.size a + S10000x32.size a := by
  show i ∈ ((View.whole main_v86).slice (win6_2.rect t)).set ↔ _
  rw [View.set_slice_whole, Rect.mem_set_unit]
  exact Iff.rfl

/-- Every row block is some point's. -/
theorem pointOf6 : ∀ q0 : Fin 10, ∃ t : Fin cfg6.N, t.val = q0.val :=
  (by decide +kernel : ∀ q0 : Fin 10, ∃ t : Fin grid6.N, t.val = q0.val)

/-- The ten blocks cover the output array: row r lies in the block of point r / 10000. -/
theorem cover6 (i : S100000x32.Idx) : ∃ t : Fin cfg6.N, (cfg6.win 2).flush t = true ∧ i ∈ ((cfg6.win 2).blk t).view.set := by
  have hi0 : (i 0).val < 100000 := (i 0).isLt
  have hi1 : (i 1).val < 32 := (i 1).isLt
  obtain ⟨t, ht⟩ := pointOf6 ⟨(i 0).val / 10000, by omega⟩
  have ht' : t.val = (i 0).val / 10000 := ht
  obtain ⟨e0, e1, e2, e3, e4, e5⟩ := points6 t
  refine ⟨t, flush6_2 t, ?_⟩
  rw [inBlock6]
  intro a
  match a with
  | ⟨0, _⟩ => show win6_2.index t (0 : Fin 2) * 10000 ≤ (i 0).val ∧ (i 0).val < win6_2.index t (0 : Fin 2) * 10000 + 10000; omega
  | ⟨1, _⟩ => show win6_2.index t (1 : Fin 2) * 32 ≤ (i 1).val ∧ (i 1).val < win6_2.index t (1 : Fin 2) * 32 + 32; omega

/-- THE OUTPUT ARRAY after the region: the product of the two input arrays as the region finds them. -/
theorem array6 (c : Dev nD) :
    (dat6 V c).arrAt 2 cfg6.N = matProd (M := 100000) (K := 64) (N := 32) (V c main_v85) (V c main_arg10) :=
  (dat6 V c).arrAt_eq_of_cover 2 _ (fun t _ => flushed6 V c t) (cover6)

end Cert.KernelIdeal.Blocks

end
-- ==== Proof.Region7.lean ====
/-
  Region 7: a bias row added to a block of 10000 rows of an [100000, 32] array, then the maximum with zero, ten blocks.

  Entry (p, q) of what point t writes back is max(block(p, q) + b(0, q), 0): the one-row bias is spread down the
  rows and added, and the floor at zero is taken entry by entry. Row p of point t's block is row t·10000 + p of the array, the
  bias row is read whole at every point, and the ten output blocks tile the result; hence the output array ends as the
  rectified biased array of the two arrays as the region finds them.
-/
import proofs.«125373_j36541581754987_1_alg».proof.Proof.Gen.KernelIdeal.Frame
import proofs.«125373_j36541581754987_1_alg».proof.Proof.LibHostBiasRelu
import Idealize.ShloMosaic.Lib.Pipeline.Value
import Idealize.ShloMosaic.Lib.ValueIdx
import Idealize.ShloMosaic.Lib.ValueLayout

set_option maxRecDepth 16384

noncomputable section

namespace Cert.KernelIdeal.Blocks

open Idealize.ShloMosaic Idealize.ShloMosaic.TcCoe Idealize.ShloMosaic.ValueIdx Idealize.SL.Sem
open Cert.KernelIdeal Cert.KernelIdeal.Gen Cert.Activation Cert.HostBiasRelu

variable (V : (c : Dev nD) → (b : Ref sig .tc) → Buf (Elt Ideal) ((c : Thread nD τ).loc b))

theorem offsets7 : (![0, 0] : Fin 2 → Nat) = fun _ => 0 := funext fun a => by fin_cases a <;> rfl

/-- The body's stored value at an entry. -/
theorem payload7 (x0 : Vec Ideal S10000x32 .f32) (x1 : Vec Ideal S1x32 .f32) (p : Fin 10000) (q : Fin 32) :
    k7_pay1 x0 x1 (ix2 p q) = rectifiedRow (a := 10000) (n := 32) x0 x1 (ix2 p q) := by
  unfold k7_pay1
  rw [rectifiedRow_apply]
  show max (shapeCast S10000x32 x0 _ (ix2 p q) + broadcastTo S10000x32 (shapeCast S1x32 x1 _) _ (ix2 p q)) (Ideal.ofBits .f32 0x00000000#32) = _
  rw [shapeCast_self, shapeCast_self, broadcastTo_1b_ab_apply]

/-- The three index maps over the ten points: rows move with the point, everything else stays at block 0. -/
theorem points7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0 :=
  (by decide +kernel : ∀ t : Fin grid7.N, _)

/-- What point t writes back is block t of the rectified biased array. -/
theorem flushed7 (c : Dev nD) (t : Fin cfg7.N) :
    (dat7 V c).flushed 2 t = ((cfg7.win 2).blk t).view.read (Elt Ideal)
      (rectifiedRow (a := 100000) (n := 32) (V c main_v99) (V c main_v100)) := by
  show (cfg7.win 2).cut (grid7.coords t) ((dat7 V c).after 2 t) = _
  rw [after7_2]
  unfold out7_2
  rw [View.canon_unit_zero offsets7]
  simp only [View.ld_unit_zero (S := S10000x32) offsets7, View.ld_unit_zero (S := S1x32) offsets7]
  obtain ⟨e0, e1, e2, e3, e4, e5⟩ := points7 t
  have ht : t.val < 10 := lt_of_lt_of_eq t.isLt (N_7 : cfg7.N = 10)
  funext j
  obtain ⟨p, q, rfl⟩ : ∃ (p : Fin 10000) (q : Fin 32), j = ix2 p q := ⟨j 0, j 1, eq_ix2 j⟩
  have hp := p.isLt
  have hq := q.isLt
  show k7_pay1 (iblk7 V c 0 t) (iblk7 V c 1 t) (ix2 p q)
      = rectifiedRow (a := 100000) (n := 32) (V c main_v99) (V c main_v100) (((cfg7.win 2).blk t).view.emb (ix2 p q))
  have hemb : ((cfg7.win 2).blk t).view.emb (ix2 p q) = ix2 (⟨t.val * 10000 + p.val, by omega⟩ : Fin 100000) q := by
    funext a; apply Fin.ext
    match a with
    | ⟨0, _⟩ => show win7_2.index t (0 : Fin 2) * 10000 + 1 * p.val = t.val * 10000 + p.val; omega
    | ⟨1, _⟩ => show win7_2.index t (1 : Fin 2) * 32 + 1 * q.val = q.val; omega
  rw [hemb]
  refine (payload7 _ _ p q).trans ?_
  refine rectifiedRow_of_rows _ _ _ _ p q _ ?_ ?_
  · show V c main_v99 (((cfg7.win 0).blk t).view.emb (ix2 p q)) = V c main_v99 (ix2 (⟨t.val * 10000 + p.val, by omega⟩ : Fin 100000) q)
    refine congrArg _ ?_
    funext a; apply Fin.ext
    match a with
    | ⟨0, _⟩ => show win7_0.index t (0 : Fin 2) * 10000 + 1 * p.val = t.val * 10000 + p.val; omega
    | ⟨1, _⟩ => show win7_0.index t (1 : Fin 2) * 32 + 1 * q.val = q.val; omega
  · show V c main_v100 (((cfg7.win 1).blk t).view.emb (ix2 (0 : Fin 1) q)) = V c main_v100 (ix2 (0 : Fin 1) q)
    refine congrArg _ ?_
    funext a; apply Fin.ext
    match a with
    | ⟨0, _⟩ => show win7_1.index t (0 : Fin 2) * 1 + 1 * 0 = 0; omega
    | ⟨1, _⟩ => show win7_1.index t (1 : Fin 2) * 32 + 1 * q.val = q.val; omega

/-- An index of the output array is in point t's block iff each coordinate is in the block's range on its axis. -/
theorem inBlock7 (t : Fin cfg7.N) (i : S100000x32.Idx) :
    i ∈ ((cfg7.win 2).blk t).view.set ↔ ∀ a : Fin 2, win7_2.index t a * S10000x32.size a ≤ (i a).val ∧ (i a).val < win7_2.index t a * S10000x32.size a + S10000x32.size a := by
  show i ∈ ((View.whole main_v101).slice (win7_2.rect t)).set ↔ _
  rw [View.set_slice_whole, Rect.mem_set_unit]
  exact Iff.rfl

/-- Every row block is some point's. -/
theorem pointOf7 : ∀ q0 : Fin 10, ∃ t : Fin cfg7.N, t.val = q0.val :=
  (by decide +kernel : ∀ q0 : Fin 10, ∃ t : Fin grid7.N, t.val = q0.val)

/-- The ten blocks cover the output array: row r lies in the block of point r / 10000. -/
theorem cover7 (i : S100000x32.Idx) : ∃ t : Fin cfg7.N, (cfg7.win 2).flush t = true ∧ i ∈ ((cfg7.win 2).blk t).view.set := by
  have hi0 : (i 0).val < 100000 := (i 0).isLt
  have hi1 : (i 1).val < 32 := (i 1).isLt
  obtain ⟨t, ht⟩ := pointOf7 ⟨(i 0).val / 10000, by omega⟩
  have ht' : t.val = (i 0).val / 10000 := ht
  obtain ⟨e0, e1, e2, e3, e4, e5⟩ := points7 t
  refine ⟨t, flush7_2 t, ?_⟩
  rw [inBlock7]
  intro a
  match a with
  | ⟨0, _⟩ => show win7_2.index t (0 : Fin 2) * 10000 ≤ (i 0).val ∧ (i 0).val < win7_2.index t (0 : Fin 2) * 10000 + 10000; omega
  | ⟨1, _⟩ => show win7_2.index t (1 : Fin 2) * 32 ≤ (i 1).val ∧ (i 1).val < win7_2.index t (1 : Fin 2) * 32 + 32; omega

/-- THE OUTPUT ARRAY after the region: the rectified biased array of the two input arrays as the region finds them. -/
theorem array7 (c : Dev nD) :
    (dat7 V c).arrAt 2 cfg7.N = rectifiedRow (a := 100000) (n := 32) (V c main_v99) (V c main_v100) :=
  (dat7 V c).arrAt_eq_of_cover 2 _ (fun t _ => flushed7 V c t) (cover7)

end Cert.KernelIdeal.Blocks

end
-- ==== Proof.WalkL4.lean ====
/-
  Layer 4: [100000, 64] features to [100000, 32].

  A tiled region multiplies the features by the layer's matrix; seventeen whole-array operations gather the product's
  rows along the edges, scale them by the edge weights and sum them at the edges' targets, and lay the bias vector out
  as one row; a second tiled region adds the bias row and takes the maximum with zero. Each region rewrites its own output array and
  leaves every other buffer as it was, so what the layer reads is still where the previous layers left it.
-/
import proofs.«125373_j36541581754987_1_alg».proof.Proof.WalkL3
import proofs.«125373_j36541581754987_1_alg».proof.Proof.Region6
import proofs.«125373_j36541581754987_1_alg».proof.Proof.Region7

set_option maxRecDepth 16384

noncomputable section

namespace Cert.KernelIdeal.Walk

open Idealize.ShloMosaic Idealize.ShloMosaic.TcCoe Idealize.ShloMosaic.StableHlo Idealize.ShloMosaic.RunStages Idealize.ShloMosaic.MatProd Idealize.SL.Sem
open Cert.KernelIdeal Cert.KernelIdeal.Gen Cert.Gcn Cert.Activation Cert.BiasRow

variable (m : (ℓ : Loc nD τ sig) → Buf (Elt Ideal) ℓ) (ρ : Dev nD → PrngReg)

/-- Region 6 rewrites its output array only. -/
theorem keep6 (c : Dev nD) (r : Ref sig .tc) (hr : r ≠ main_v86) :
    W13 m ρ c (Proc.devRef .tc r) = W12 m ρ c (Proc.devRef .tc r) := by
  by_cases h0 : r = main_v85
  · subst h0
    exact (W13_arr m ρ c 0).trans (((dat6 (V12 m ρ) c).arrAt_in 0 rfl _).trans (A_eq6 (V12 m ρ) c 0))
  by_cases h1 : r = main_arg10
  · subst h1
    exact (W13_arr m ρ c 1).trans (((dat6 (V12 m ρ) c).arrAt_in 1 rfl _).trans (A_eq6 (V12 m ρ) c 1))
  exact W13_of_ne m ρ c r (fun w => match w with
    | ⟨0, _⟩ => fun e => h0 e.symm
    | ⟨1, _⟩ => fun e => h1 e.symm
    | ⟨2, _⟩ => fun e => hr e.symm)

/-- Region 7 rewrites its output array only. -/
theorem keep7 (c : Dev nD) (r : Ref sig .tc) (hr : r ≠ main_v101) :
    W15 m ρ c (Proc.devRef .tc r) = W14 m ρ c (Proc.devRef .tc r) := by
  by_cases h0 : r = main_v99
  · subst h0
    exact (W15_arr m ρ c 0).trans (((dat7 (V14 m ρ) c).arrAt_in 0 rfl _).trans (A_eq7 (V14 m ρ) c 0))
  by_cases h1 : r = main_v100
  · subst h1
    exact (W15_arr m ρ c 1).trans (((dat7 (V14 m ρ) c).arrAt_in 1 rfl _).trans (A_eq7 (V14 m ρ) c 1))
  exact W15_of_ne m ρ c r (fun w => match w with
    | ⟨0, _⟩ => fun e => h0 e.symm
    | ⟨1, _⟩ => fun e => h1 e.symm
    | ⟨2, _⟩ => fun e => hr e.symm)

/-- Between the two regions: the summed messages and the bias row, and what every layer reads. -/
abbrev mid4 (c : Dev nD) : List (Known sig (Elt Ideal)) :=
  ⟨main_v100, shapeCast S1x32 (m ((c : Thread nD τ).loc main_arg11)) shapeCasts_S32_S1x32⟩ ::
  ⟨main_v99, agg32 (matProd (M := 100000) (K := 64) (N := 32) (feat3 m c) (m ((c : Thread nD τ).loc main_arg10))) (srcOf (m ((c : Thread nD τ).loc main_arg2))) (dstOf (m ((c : Thread nD τ).loc main_arg2))) (normOf (srcOf (m ((c : Thread nD τ).loc main_arg2))) (dstOf (m ((c : Thread nD τ).loc main_arg2))))⟩ :: kept m c

/-- After the layer: its features, and what every layer reads. -/
abbrev known15 (c : Dev nD) : List (Known sig (Elt Ideal)) :=
  ⟨main_v101, feat4 m c⟩ :: kept m c

set_option maxHeartbeats 4000000 in
theorem at15 (c : Dev nD) : Agrees (main_v101 :: keptRefs) (known15 m c) (W15 m ρ c) := by
  have h := at12 m ρ c
  -- the matrix product
  have h := agrees_step h main_v86 (matProd (M := 100000) (K := 64) (N := 32) (feat3 m c) (m ((c : Thread nD τ).loc main_arg10))) (keep6 m ρ c)
    ((W13_arr m ρ c 2).trans ((Blocks.array6 (V12 m ρ) c).trans
      (congrArg₂ (matProd (M := 100000) (K := 64) (N := 32)) (h.read main_v85 _ (by stage_mem)) (h.read main_arg10 _ (by stage_mem))))) (by decide)
  -- the messages along the edges, and the bias row
  have h : Agrees (main_v100 :: main_v99 :: keptRefs) (mid4 m c) (W14 m ρ c) := by
    show Ends hostOps7 (W13 m ρ c) (fun V => Agrees (main_v100 :: main_v99 :: keptRefs) (mid4 m c) V)
    stage0 _
    stage1 _
    stage2 _
    stage0 _
    stage1 _
    stage2 _
    stage3 (wrap (srcOf (m ((c : Thread nD τ).loc main_arg2))))
    stage1 _
    stage2 _
    stage1 _
    stage1 _
    stage2 _
    stage0 _
    stage1 _
    stage1 _
    stage3 (agg32 (matProd (M := 100000) (K := 64) (N := 32) (feat3 m c) (m ((c : Thread nD τ).loc main_arg10))) (srcOf (m ((c : Thread nD τ).loc main_arg2))) (dstOf (m ((c : Thread nD τ).loc main_arg2))) (normOf (srcOf (m ((c : Thread nD τ).loc main_arg2))) (dstOf (m ((c : Thread nD τ).loc main_arg2)))))
    stageR (shapeCast S1x32 (m ((c : Thread nD τ).loc main_arg11)) shapeCasts_S32_S1x32)
    refine ends_done (restrict h (main_v100 :: main_v99 :: keptRefs) (mid4 m c) rfl ?_)
    simp only [mid4, kept, List.forall_mem_cons, List.forall_mem_nil, and_true]
    repeat' apply And.intro
    all_goals first | (intro p hp; exact absurd hp List.not_mem_nil) | stage_mem
  -- the bias row and the floor at zero
  have h := agrees_step h main_v101 (feat4 m c) (keep7 m ρ c)
    ((W15_arr m ρ c 2).trans ((Blocks.array7 (V14 m ρ) c).trans
      (congrArg₂ (rectifiedRow (a := 100000) (n := 32)) (h.read main_v99 _ (by stage_mem)) (h.read main_v100 _ (by stage_mem))))) (by decide)
  refine restrict h (main_v101 :: keptRefs) (known15 m c) rfl ?_
  simp only [known15, kept, List.forall_mem_cons, List.forall_mem_nil, and_true]
  repeat' apply And.intro
  all_goals first | (intro p hp; exact absurd hp List.not_mem_nil) | stage_mem

end Cert.KernelIdeal.Walk

end
-- ==== Proof.Region8.lean ====
/-
  Region 8: a block of 10000 rows of an [100000, 32] array times a resident [32, 3] matrix, ten blocks.

  The body multiplies the block by the matrix into a zero accumulator (the narrowing of both operands to a shorter
  float format is the identity on extended reals), so entry (p, q) of what point t writes back is the sum over k of
  block(p, k) · W(k, q). Row p of point t's block is row t·10000 + p of the array, the matrix is read whole at every
  point, and the ten output blocks tile the result; hence the output array ends as the product of the two arrays as
  the region finds them.
-/
import proofs.«125373_j36541581754987_1_alg».proof.Proof.Gen.KernelIdeal.Frame
import proofs.«125373_j36541581754987_1_alg».proof.Proof.LibMatProd
import Idealize.ShloMosaic.Lib.Pipeline.Value
import Idealize.ShloMosaic.Lib.ValueIdx
import Idealize.ShloMosaic.Lib.ValueLayout

set_option maxRecDepth 16384

noncomputable section

namespace Cert.KernelIdeal.Blocks

open Idealize.ShloMosaic Idealize.ShloMosaic.TcCoe Idealize.ShloMosaic.ValueIdx Idealize.SL.Sem
open Cert.KernelIdeal Cert.KernelIdeal.Gen Idealize.ShloMosaic.MatProd

variable (V : (c : Dev nD) → (b : Ref sig .tc) → Buf (Elt Ideal) ((c : Thread nD τ).loc b))

theorem offsets8 : (![0, 0] : Fin 2 → Nat) = fun _ => 0 := funext fun a => by fin_cases a <;> rfl

/-- The body's contraction is a plain matrix product. -/
theorem plain8 : DotPlain.IsPlain dot_S10000x32_S32x3_S10000x3_1_0_0_1_n_n := ⟨rfl, rfl, rfl, rfl, rfl, rfl⟩

/-- The body's stored value at an entry: the product of the loaded block and the loaded matrix. -/
theorem payload8 (x0 : Vec Ideal S10000x32 .f32) (x1 : Vec Ideal S32x3 .f32) (j : S10000x3.Idx) :
    k8_pay1 x0 x1 j = matProd (M := 10000) (K := 32) (N := 3) x0 x1 j := by
  unfold k8_pay1
  refine (MatProd.matmul_zero_apply plain8 none _ _ j).trans ?_
  show matProd (M := 10000) (K := 32) (N := 3) (shapeCast S10000x32 x0 _) x1 j = _
  rw [shapeCast_self]

/-- The three index maps over the ten points: rows move with the point, everything else stays at block 0. -/
theorem points8 : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = t.val ∧ win8_2.index t (1 : Fin 2) = 0 :=
  (by decide +kernel : ∀ t : Fin grid8.N, _)

/-- What point t writes back is block t of the product of the two arrays. -/
theorem flushed8 (c : Dev nD) (t : Fin cfg8.N) :
    (dat8 V c).flushed 2 t = ((cfg8.win 2).blk t).view.read (Elt Ideal)
      (matProd (M := 100000) (K := 32) (N := 3) (V c main_v101) (V c main_arg12)) := by
  show (cfg8.win 2).cut (grid8.coords t) ((dat8 V c).after 2 t) = _
  rw [after8_2]
  unfold out8_2
  rw [View.canon_unit_zero offsets8]
  simp only [View.ld_unit_zero (S := S10000x32) offsets8, View.ld_unit_zero (S := S32x3) offsets8]
  obtain ⟨e0, e1, e2, e3, e4, e5⟩ := points8 t
  have ht : t.val < 10 := lt_of_lt_of_eq t.isLt (N_8 : cfg8.N = 10)
  funext j
  obtain ⟨p, q, rfl⟩ : ∃ (p : Fin 10000) (q : Fin 3), j = ix2 p q := ⟨j 0, j 1, eq_ix2 j⟩
  have hp := p.isLt
  have hq := q.isLt
  show k8_pay1 (iblk8 V c 0 t) (iblk8 V c 1 t) (ix2 p q)
      = matProd (M := 100000) (K := 32) (N := 3) (V c main_v101) (V c main_arg12) (((cfg8.win 2).blk t).view.emb (ix2 p q))
  have hemb : ((cfg8.win 2).blk t).view.emb (ix2 p q) = ix2 (⟨t.val * 10000 + p.val, by omega⟩ : Fin 100000) q := by
    funext a; apply Fin.ext
    match a with
    | ⟨0, _⟩ => show win8_2.index t (0 : Fin 2) * 10000 + 1 * p.val = t.val * 10000 + p.val; omega
    | ⟨1, _⟩ => show win8_2.index t (1 : Fin 2) * 3 + 1 * q.val = q.val; omega
  rw [hemb]
  refine (payload8 _ _ _).trans ?_
  refine matProd_of_rows _ _ _ _ p q _ (fun k => ?_) (fun k => ?_)
  · have hk := k.isLt
    show V c main_v101 (((cfg8.win 0).blk t).view.emb (ix2 p k)) = V c main_v101 (ix2 (⟨t.val * 10000 + p.val, by omega⟩ : Fin 100000) k)
    refine congrArg _ ?_
    funext a; apply Fin.ext
    match a with
    | ⟨0, _⟩ => show win8_0.index t (0 : Fin 2) * 10000 + 1 * p.val = t.val * 10000 + p.val; omega
    | ⟨1, _⟩ => show win8_0.index t (1 : Fin 2) * 32 + 1 * k.val = k.val; omega
  · have hk := k.isLt
    show V c main_arg12 (((cfg8.win 1).blk t).view.emb (ix2 k q)) = V c main_arg12 (ix2 k q)
    refine congrArg _ ?_
    funext a; apply Fin.ext
    match a with
    | ⟨0, _⟩ => show win8_1.index t (0 : Fin 2) * 32 + 1 * k.val = k.val; omega
    | ⟨1, _⟩ => show win8_1.index t (1 : Fin 2) * 3 + 1 * q.val = q.val; omega

/-- An index of the output array is in point t's block iff each coordinate is in the block's range on its axis. -/
theorem inBlock8 (t : Fin cfg8.N) (i : S100000x3.Idx) :
    i ∈ ((cfg8.win 2).blk t).view.set ↔ ∀ a : Fin 2, win8_2.index t a * S10000x3.size a ≤ (i a).val ∧ (i a).val < win8_2.index t a * S10000x3.size a + S10000x3.size a := by
  show i ∈ ((View.whole main_v102).slice (win8_2.rect t)).set ↔ _
  rw [View.set_slice_whole, Rect.mem_set_unit]
  exact Iff.rfl

/-- Every row block is some point's. -/
theorem pointOf8 : ∀ q0 : Fin 10, ∃ t : Fin cfg8.N, t.val = q0.val :=
  (by decide +kernel : ∀ q0 : Fin 10, ∃ t : Fin grid8.N, t.val = q0.val)

/-- The ten blocks cover the output array: row r lies in the block of point r / 10000. -/
theorem cover8 (i : S100000x3.Idx) : ∃ t : Fin cfg8.N, (cfg8.win 2).flush t = true ∧ i ∈ ((cfg8.win 2).blk t).view.set := by
  have hi0 : (i 0).val < 100000 := (i 0).isLt
  have hi1 : (i 1).val < 3 := (i 1).isLt
  obtain ⟨t, ht⟩ := pointOf8 ⟨(i 0).val / 10000, by omega⟩
  have ht' : t.val = (i 0).val / 10000 := ht
  obtain ⟨e0, e1, e2, e3, e4, e5⟩ := points8 t
  refine ⟨t, flush8_2 t, ?_⟩
  rw [inBlock8]
  intro a
  match a with
  | ⟨0, _⟩ => show win8_2.index t (0 : Fin 2) * 10000 ≤ (i 0).val ∧ (i 0).val < win8_2.index t (0 : Fin 2) * 10000 + 10000; omega
  | ⟨1, _⟩ => show win8_2.index t (1 : Fin 2) * 3 ≤ (i 1).val ∧ (i 1).val < win8_2.index t (1 : Fin 2) * 3 + 3; omega

/-- THE OUTPUT ARRAY after the region: the product of the two input arrays as the region finds them. -/
theorem array8 (c : Dev nD) :
    (dat8 V c).arrAt 2 cfg8.N = matProd (M := 100000) (K := 32) (N := 3) (V c main_v101) (V c main_arg12) :=
  (dat8 V c).arrAt_eq_of_cover 2 _ (fun t _ => flushed8 V c t) (cover8)

end Cert.KernelIdeal.Blocks

end
-- ==== Proof.Region9.lean ====
/-
  Region 9: a bias row added to a block of 10000 rows of an [100000, 3] array, ten blocks.

  Entry (p, q) of what point t writes back is block(p, q) + b(0, q): the one-row bias is spread down the
  rows and added. Row p of point t's block is row t·10000 + p of the array, the
  bias row is read whole at every point, and the ten output blocks tile the result; hence the output array ends as the
  biased array of the two arrays as the region finds them.
-/
import proofs.«125373_j36541581754987_1_alg».proof.Proof.Gen.KernelIdeal.Frame
import proofs.«125373_j36541581754987_1_alg».proof.Proof.LibBiasRow
import Idealize.ShloMosaic.Lib.Pipeline.Value
import Idealize.ShloMosaic.Lib.ValueIdx
import Idealize.ShloMosaic.Lib.ValueLayout

set_option maxRecDepth 16384

noncomputable section

namespace Cert.KernelIdeal.Blocks

open Idealize.ShloMosaic Idealize.ShloMosaic.TcCoe Idealize.ShloMosaic.ValueIdx Idealize.SL.Sem
open Cert.KernelIdeal Cert.KernelIdeal.Gen Cert.BiasRow

variable (V : (c : Dev nD) → (b : Ref sig .tc) → Buf (Elt Ideal) ((c : Thread nD τ).loc b))

theorem offsets9 : (![0, 0] : Fin 2 → Nat) = fun _ => 0 := funext fun a => by fin_cases a <;> rfl

/-- The body's stored value at an entry. -/
theorem payload9 (x0 : Vec Ideal S10000x3 .f32) (x1 : Vec Ideal S1x3 .f32) (p : Fin 10000) (q : Fin 3) :
    k9_pay1 x0 x1 (ix2 p q) = biasedRow (a := 10000) (n := 3) x0 x1 (ix2 p q) := by
  unfold k9_pay1
  rw [biasedRow_apply]
  show shapeCast S10000x3 x0 _ (ix2 p q) + broadcastTo S10000x3 (shapeCast S1x3 x1 _) _ (ix2 p q) = _
  rw [shapeCast_self, shapeCast_self, broadcastTo_1b_ab_apply]

/-- The three index maps over the ten points: rows move with the point, everything else stays at block 0. -/
theorem points9 : ∀ t : Fin cfg9.N, win9_0.index t (0 : Fin 2) = t.val ∧ win9_0.index t (1 : Fin 2) = 0
    ∧ win9_1.index t (0 : Fin 2) = 0 ∧ win9_1.index t (1 : Fin 2) = 0
    ∧ win9_2.index t (0 : Fin 2) = t.val ∧ win9_2.index t (1 : Fin 2) = 0 :=
  (by decide +kernel : ∀ t : Fin grid9.N, _)

/-- What point t writes back is block t of the biased array. -/
theorem flushed9 (c : Dev nD) (t : Fin cfg9.N) :
    (dat9 V c).flushed 2 t = ((cfg9.win 2).blk t).view.read (Elt Ideal)
      (biasedRow (a := 100000) (n := 3) (V c main_v115) (V c main_v116)) := by
  show (cfg9.win 2).cut (grid9.coords t) ((dat9 V c).after 2 t) = _
  rw [after9_2]
  unfold out9_2
  rw [View.canon_unit_zero offsets9]
  simp only [View.ld_unit_zero (S := S10000x3) offsets9, View.ld_unit_zero (S := S1x3) offsets9]
  obtain ⟨e0, e1, e2, e3, e4, e5⟩ := points9 t
  have ht : t.val < 10 := lt_of_lt_of_eq t.isLt (N_9 : cfg9.N = 10)
  funext j
  obtain ⟨p, q, rfl⟩ : ∃ (p : Fin 10000) (q : Fin 3), j = ix2 p q := ⟨j 0, j 1, eq_ix2 j⟩
  have hp := p.isLt
  have hq := q.isLt
  show k9_pay1 (iblk9 V c 0 t) (iblk9 V c 1 t) (ix2 p q)
      = biasedRow (a := 100000) (n := 3) (V c main_v115) (V c main_v116) (((cfg9.win 2).blk t).view.emb (ix2 p q))
  have hemb : ((cfg9.win 2).blk t).view.emb (ix2 p q) = ix2 (⟨t.val * 10000 + p.val, by omega⟩ : Fin 100000) q := by
    funext a; apply Fin.ext
    match a with
    | ⟨0, _⟩ => show win9_2.index t (0 : Fin 2) * 10000 + 1 * p.val = t.val * 10000 + p.val; omega
    | ⟨1, _⟩ => show win9_2.index t (1 : Fin 2) * 3 + 1 * q.val = q.val; omega
  rw [hemb]
  refine (payload9 _ _ p q).trans ?_
  refine biasedRow_of_rows _ _ _ _ p q _ ?_ ?_
  · show V c main_v115 (((cfg9.win 0).blk t).view.emb (ix2 p q)) = V c main_v115 (ix2 (⟨t.val * 10000 + p.val, by omega⟩ : Fin 100000) q)
    refine congrArg _ ?_
    funext a; apply Fin.ext
    match a with
    | ⟨0, _⟩ => show win9_0.index t (0 : Fin 2) * 10000 + 1 * p.val = t.val * 10000 + p.val; omega
    | ⟨1, _⟩ => show win9_0.index t (1 : Fin 2) * 3 + 1 * q.val = q.val; omega
  · show V c main_v116 (((cfg9.win 1).blk t).view.emb (ix2 (0 : Fin 1) q)) = V c main_v116 (ix2 (0 : Fin 1) q)
    refine congrArg _ ?_
    funext a; apply Fin.ext
    match a with
    | ⟨0, _⟩ => show win9_1.index t (0 : Fin 2) * 1 + 1 * 0 = 0; omega
    | ⟨1, _⟩ => show win9_1.index t (1 : Fin 2) * 3 + 1 * q.val = q.val; omega

/-- An index of the output array is in point t's block iff each coordinate is in the block's range on its axis. -/
theorem inBlock9 (t : Fin cfg9.N) (i : S100000x3.Idx) :
    i ∈ ((cfg9.win 2).blk t).view.set ↔ ∀ a : Fin 2, win9_2.index t a * S10000x3.size a ≤ (i a).val ∧ (i a).val < win9_2.index t a * S10000x3.size a + S10000x3.size a := by
  show i ∈ ((View.whole main_v117).slice (win9_2.rect t)).set ↔ _
  rw [View.set_slice_whole, Rect.mem_set_unit]
  exact Iff.rfl

/-- Every row block is some point's. -/
theorem pointOf9 : ∀ q0 : Fin 10, ∃ t : Fin cfg9.N, t.val = q0.val :=
  (by decide +kernel : ∀ q0 : Fin 10, ∃ t : Fin grid9.N, t.val = q0.val)

/-- The ten blocks cover the output array: row r lies in the block of point r / 10000. -/
theorem cover9 (i : S100000x3.Idx) : ∃ t : Fin cfg9.N, (cfg9.win 2).flush t = true ∧ i ∈ ((cfg9.win 2).blk t).view.set := by
  have hi0 : (i 0).val < 100000 := (i 0).isLt
  have hi1 : (i 1).val < 3 := (i 1).isLt
  obtain ⟨t, ht⟩ := pointOf9 ⟨(i 0).val / 10000, by omega⟩
  have ht' : t.val = (i 0).val / 10000 := ht
  obtain ⟨e0, e1, e2, e3, e4, e5⟩ := points9 t
  refine ⟨t, flush9_2 t, ?_⟩
  rw [inBlock9]
  intro a
  match a with
  | ⟨0, _⟩ => show win9_2.index t (0 : Fin 2) * 10000 ≤ (i 0).val ∧ (i 0).val < win9_2.index t (0 : Fin 2) * 10000 + 10000; omega
  | ⟨1, _⟩ => show win9_2.index t (1 : Fin 2) * 3 ≤ (i 1).val ∧ (i 1).val < win9_2.index t (1 : Fin 2) * 3 + 3; omega

/-- THE OUTPUT ARRAY after the region: the biased array of the two input arrays as the region finds them. -/
theorem array9 (c : Dev nD) :
    (dat9 V c).arrAt 2 cfg9.N = biasedRow (a := 100000) (n := 3) (V c main_v115) (V c main_v116) :=
  (dat9 V c).arrAt_eq_of_cover 2 _ (fun t _ => flushed9 V c t) (cover9)

end Cert.KernelIdeal.Blocks

end
-- ==== Proof.WalkL5.lean ====
/-
  Layer 5: [100000, 32] features to [100000, 3].

  A tiled region multiplies the features by the layer's matrix; seventeen whole-array operations gather the product's
  rows along the edges, scale them by the edge weights and sum them at the edges' targets, and lay the bias vector out
  as one row; a second tiled region adds the bias row. Each region rewrites its own output array and
  leaves every other buffer as it was, so what the layer reads is still where the previous layers left it.
-/
import proofs.«125373_j36541581754987_1_alg».proof.Proof.WalkL4
import proofs.«125373_j36541581754987_1_alg».proof.Proof.Region8
import proofs.«125373_j36541581754987_1_alg».proof.Proof.Region9

set_option maxRecDepth 16384

noncomputable section

namespace Cert.KernelIdeal.Walk

open Idealize.ShloMosaic Idealize.ShloMosaic.TcCoe Idealize.ShloMosaic.StableHlo Idealize.ShloMosaic.RunStages Idealize.ShloMosaic.MatProd Idealize.SL.Sem
open Cert.KernelIdeal Cert.KernelIdeal.Gen Cert.Gcn Cert.Activation Cert.BiasRow

variable (m : (ℓ : Loc nD τ sig) → Buf (Elt Ideal) ℓ) (ρ : Dev nD → PrngReg)

/-- Region 8 rewrites its output array only. -/
theorem keep8 (c : Dev nD) (r : Ref sig .tc) (hr : r ≠ main_v102) :
    W16 m ρ c (Proc.devRef .tc r) = W15 m ρ c (Proc.devRef .tc r) := by
  by_cases h0 : r = main_v101
  · subst h0
    exact (W16_arr m ρ c 0).trans (((dat8 (V15 m ρ) c).arrAt_in 0 rfl _).trans (A_eq8 (V15 m ρ) c 0))
  by_cases h1 : r = main_arg12
  · subst h1
    exact (W16_arr m ρ c 1).trans (((dat8 (V15 m ρ) c).arrAt_in 1 rfl _).trans (A_eq8 (V15 m ρ) c 1))
  exact W16_of_ne m ρ c r (fun w => match w with
    | ⟨0, _⟩ => fun e => h0 e.symm
    | ⟨1, _⟩ => fun e => h1 e.symm
    | ⟨2, _⟩ => fun e => hr e.symm)

/-- Region 9 rewrites its output array only. -/
theorem keep9 (c : Dev nD) (r : Ref sig .tc) (hr : r ≠ main_v117) :
    W18 m ρ c (Proc.devRef .tc r) = W17 m ρ c (Proc.devRef .tc r) := by
  by_cases h0 : r = main_v115
  · subst h0
    exact (W18_arr m ρ c 0).trans (((dat9 (V17 m ρ) c).arrAt_in 0 rfl _).trans (A_eq9 (V17 m ρ) c 0))
  by_cases h1 : r = main_v116
  · subst h1
    exact (W18_arr m ρ c 1).trans (((dat9 (V17 m ρ) c).arrAt_in 1 rfl _).trans (A_eq9 (V17 m ρ) c 1))
  exact W18_of_ne m ρ c r (fun w => match w with
    | ⟨0, _⟩ => fun e => h0 e.symm
    | ⟨1, _⟩ => fun e => h1 e.symm
    | ⟨2, _⟩ => fun e => hr e.symm)

/-- Between the two regions: the summed messages and the bias row, and what every layer reads. -/
abbrev mid5 (c : Dev nD) : List (Known sig (Elt Ideal)) :=
  ⟨main_v116, shapeCast S1x3 (m ((c : Thread nD τ).loc main_arg13)) shapeCasts_S3_S1x3⟩ ::
  ⟨main_v115, agg3 (matProd (M := 100000) (K := 32) (N := 3) (feat4 m c) (m ((c : Thread nD τ).loc main_arg12))) (srcOf (m ((c : Thread nD τ).loc main_arg2))) (dstOf (m ((c : Thread nD τ).loc main_arg2))) (normOf (srcOf (m ((c : Thread nD τ).loc main_arg2))) (dstOf (m ((c : Thread nD τ).loc main_arg2))))⟩ :: kept m c

/-- After the layer: its features, and what every layer reads. -/
abbrev known18 (c : Dev nD) : List (Known sig (Elt Ideal)) :=
  ⟨main_v117, feat5 m c⟩ :: kept m c

set_option maxHeartbeats 4000000 in
theorem at18 (c : Dev nD) : Agrees (main_v117 :: keptRefs) (known18 m c) (W18 m ρ c) := by
  have h := at15 m ρ c
  -- the matrix product
  have h := agrees_step h main_v102 (matProd (M := 100000) (K := 32) (N := 3) (feat4 m c) (m ((c : Thread nD τ).loc main_arg12))) (keep8 m ρ c)
    ((W16_arr m ρ c 2).trans ((Blocks.array8 (V15 m ρ) c).trans
      (congrArg₂ (matProd (M := 100000) (K := 32) (N := 3)) (h.read main_v101 _ (by stage_mem)) (h.read main_arg12 _ (by stage_mem))))) (by decide)
  -- the messages along the edges, and the bias row
  have h : Agrees (main_v116 :: main_v115 :: keptRefs) (mid5 m c) (W17 m ρ c) := by
    show Ends hostOps9 (W16 m ρ c) (fun V => Agrees (main_v116 :: main_v115 :: keptRefs) (mid5 m c) V)
    stage0 _
    stage1 _
    stage2 _
    stage0 _
    stage1 _
    stage2 _
    stage3 (wrap (srcOf (m ((c : Thread nD τ).loc main_arg2))))
    stage1 _
    stage2 _
    stage1 _
    stage1 _
    stage2 _
    stage0 _
    stage1 _
    stage1 _
    stage3 (agg3 (matProd (M := 100000) (K := 32) (N := 3) (feat4 m c) (m ((c : Thread nD τ).loc main_arg12))) (srcOf (m ((c : Thread nD τ).loc main_arg2))) (dstOf (m ((c : Thread nD τ).loc main_arg2))) (normOf (srcOf (m ((c : Thread nD τ).loc main_arg2))) (dstOf (m ((c : Thread nD τ).loc main_arg2)))))
    stageR (shapeCast S1x3 (m ((c : Thread nD τ).loc main_arg13)) shapeCasts_S3_S1x3)
    refine ends_done (restrict h (main_v116 :: main_v115 :: keptRefs) (mid5 m c) rfl ?_)
    simp only [mid5, kept, List.forall_mem_cons, List.forall_mem_nil, and_true]
    repeat' apply And.intro
    all_goals first | (intro p hp; exact absurd hp List.not_mem_nil) | stage_mem
  -- the bias row
  have h := agrees_step h main_v117 (feat5 m c) (keep9 m ρ c)
    ((W18_arr m ρ c 2).trans ((Blocks.array9 (V17 m ρ) c).trans
      (congrArg₂ (biasedRow (a := 100000) (n := 3)) (h.read main_v115 _ (by stage_mem)) (h.read main_v116 _ (by stage_mem))))) (by decide)
  refine restrict h (main_v117 :: keptRefs) (known18 m c) rfl ?_
  simp only [known18, kept, List.forall_mem_cons, List.forall_mem_nil, and_true]
  repeat' apply And.intro
  all_goals first | (intro p hp; exact absurd hp List.not_mem_nil) | stage_mem

end Cert.KernelIdeal.Walk

end
-- ==== Proof.KernelValue.lean ====
/-
  The idealized kernel's result buffer holds the network of its argument arrays.

  At the last boundary the result buffer is the last region's output array, which the layers' walk has at the features
  after layer five; those are the network on the launch memory's arguments.
-/
import proofs.«125373_j36541581754987_1_alg».proof.Proof.WalkL5

set_option maxRecDepth 16384

noncomputable section

namespace Cert.KernelIdeal.Walk

open Idealize.ShloMosaic Idealize.ShloMosaic.TcCoe Idealize.ShloMosaic.StableHlo Idealize.ShloMosaic.RunStages Idealize.ShloMosaic.MatProd Idealize.SL.Sem
open Cert.KernelIdeal Cert.KernelIdeal.Gen Cert.Gcn Cert.Activation Cert.BiasRow

variable (m : (ℓ : Loc nD τ sig) → Buf (Elt Ideal) ℓ) (ρ : Dev nD → PrngReg)

/-- The result buffer at the last boundary. -/
theorem result_eq (c : Dev nD) :
    W18 m ρ c (Proc.devRef .tc main_v117) = network (m ((c : Thread nD τ).loc main_arg0))
      (m ((c : Thread nD τ).loc main_arg1))
      (m ((c : Thread nD τ).loc main_arg2))
      (m ((c : Thread nD τ).loc main_arg3))
      (m ((c : Thread nD τ).loc main_arg4))
      (m ((c : Thread nD τ).loc main_arg5))
      (m ((c : Thread nD τ).loc main_arg6))
      (m ((c : Thread nD τ).loc main_arg7))
      (m ((c : Thread nD τ).loc main_arg8))
      (m ((c : Thread nD τ).loc main_arg9))
      (m ((c : Thread nD τ).loc main_arg10))
      (m ((c : Thread nD τ).loc main_arg11))
      (m ((c : Thread nD τ).loc main_arg12))
      (m ((c : Thread nD τ).loc main_arg13)) :=
  ((at18 m ρ c).read main_v117 (feat5 m c) List.mem_cons_self).trans (feat5_eq m c)

end Cert.KernelIdeal.Walk

end
-- ==== Proof.RefBridge.lean ====
/-
  The reference's result is the network.

  The whole-array program computes the same endpoints, degrees, edge weights and input features with the same
  operations, and each layer as a matrix product, the same gather, scaling and scatter-add along the edges, a bias
  vector broadcast to one row and down the rows, an add, and (but for the last layer) a maximum with a broadcast zero.
  The matrix product is the sum over k of l(i, k) · r(k, q); the broadcast, add and maximum are the bias-and-rectifier
  with the bias laid out as one row. With those two identifications made at each layer the reference's composed term is
  the network, operation for operation.
-/
import proofs.«125373_j36541581754987_1_alg».proof.Proof.RefRunPatched
import proofs.«125373_j36541581754987_1_alg».proof.Proof.Spec

set_option maxRecDepth 16384

noncomputable section

namespace Cert.ReferenceIdeal.Bridge

open Idealize.ShloMosaic Idealize.ShloMosaic.TcCoe Idealize.ShloMosaic.MatProd Idealize.SL.Sem
open Cert.Gcn Cert.Activation Cert.HostBiasRelu Cert.BiasRow

/-- Layer 1's contraction is a plain matrix product. -/
theorem plain1 : DotPlain.IsPlain Cert.ReferenceIdeal.dot_S100000x6_S6x32_S100000x32_1_0_0_1_n_n := ⟨rfl, rfl, rfl, rfl, rfl, rfl⟩
/-- Layer 2's contraction is a plain matrix product. -/
theorem plain2 : DotPlain.IsPlain Cert.ReferenceIdeal.dot_S100000x32_S32x64_S100000x64_1_0_0_1_n_n := ⟨rfl, rfl, rfl, rfl, rfl, rfl⟩
/-- Layer 3's contraction is a plain matrix product. -/
theorem plain3 : DotPlain.IsPlain Cert.ReferenceIdeal.dot_S100000x64_S64x64_S100000x64_1_0_0_1_n_n := ⟨rfl, rfl, rfl, rfl, rfl, rfl⟩
/-- Layer 4's contraction is a plain matrix product. -/
theorem plain4 : DotPlain.IsPlain Cert.ReferenceIdeal.dot_S100000x64_S64x32_S100000x32_1_0_0_1_n_n := ⟨rfl, rfl, rfl, rfl, rfl, rfl⟩
/-- Layer 5's contraction is a plain matrix product. -/
theorem plain5 : DotPlain.IsPlain Cert.ReferenceIdeal.dot_S100000x32_S32x3_S100000x3_1_0_0_1_n_n := ⟨rfl, rfl, rfl, rfl, rfl, rfl⟩

set_option maxHeartbeats 8000000 in
/-- The reference's composed result term is the network of its argument arrays. -/
theorem result_eq (m' : (ℓ : Loc Cert.ReferenceIdeal.nD Cert.ReferenceIdeal.τ Cert.ReferenceIdeal.sig) → Buf (Elt Ideal) ℓ)
    (c : Dev Cert.ReferenceIdeal.nD) :
    Cert.ReferenceIdeal.ValueP.res_main_v126 (F := Ideal) m' c
      = network (m' ((c : Thread Cert.ReferenceIdeal.nD Cert.ReferenceIdeal.τ).loc Cert.ReferenceIdeal.main_arg0))
          (m' ((c : Thread Cert.ReferenceIdeal.nD Cert.ReferenceIdeal.τ).loc Cert.ReferenceIdeal.main_arg1))
          (m' ((c : Thread Cert.ReferenceIdeal.nD Cert.ReferenceIdeal.τ).loc Cert.ReferenceIdeal.main_arg2))
          (m' ((c : Thread Cert.ReferenceIdeal.nD Cert.ReferenceIdeal.τ).loc Cert.ReferenceIdeal.main_arg3))
          (m' ((c : Thread Cert.ReferenceIdeal.nD Cert.ReferenceIdeal.τ).loc Cert.ReferenceIdeal.main_arg4))
          (m' ((c : Thread Cert.ReferenceIdeal.nD Cert.ReferenceIdeal.τ).loc Cert.ReferenceIdeal.main_arg5))
          (m' ((c : Thread Cert.ReferenceIdeal.nD Cert.ReferenceIdeal.τ).loc Cert.ReferenceIdeal.main_arg6))
          (m' ((c : Thread Cert.ReferenceIdeal.nD Cert.ReferenceIdeal.τ).loc Cert.ReferenceIdeal.main_arg7))
          (m' ((c : Thread Cert.ReferenceIdeal.nD Cert.ReferenceIdeal.τ).loc Cert.ReferenceIdeal.main_arg8))
          (m' ((c : Thread Cert.ReferenceIdeal.nD Cert.ReferenceIdeal.τ).loc Cert.ReferenceIdeal.main_arg9))
          (m' ((c : Thread Cert.ReferenceIdeal.nD Cert.ReferenceIdeal.τ).loc Cert.ReferenceIdeal.main_arg10))
          (m' ((c : Thread Cert.ReferenceIdeal.nD Cert.ReferenceIdeal.τ).loc Cert.ReferenceIdeal.main_arg11))
          (m' ((c : Thread Cert.ReferenceIdeal.nD Cert.ReferenceIdeal.τ).loc Cert.ReferenceIdeal.main_arg12))
          (m' ((c : Thread Cert.ReferenceIdeal.nD Cert.ReferenceIdeal.τ).loc Cert.ReferenceIdeal.main_arg13)) := by
  unfold Cert.ReferenceIdeal.ValueP.res_main_v126
  rw [MatProd.dotGeneral_eq plain5 none, MatProd.dotGeneral_eq plain4 none, MatProd.dotGeneral_eq plain3 none,
    MatProd.dotGeneral_eq plain2 none, MatProd.dotGeneral_eq plain1 none]
  rw [hostBias (a := 100000) (n := 3) _ _ _ _ Cert.KernelIdeal.Gen.shapeCasts_S3_S1x3]
  rw [hostBiasRelu (a := 100000) (n := 32) _ _ _ _ _ Cert.KernelIdeal.Gen.shapeCasts_S32_S1x32]
  rw [hostBiasRelu (a := 100000) (n := 64) _ _ _ _ _ Cert.KernelIdeal.Gen.shapeCasts_S64_S1x64]
  rw [hostBiasRelu (a := 100000) (n := 64) _ _ _ _ _ Cert.KernelIdeal.Gen.shapeCasts_S64_S1x64]
  rw [hostBiasRelu (a := 100000) (n := 32) _ _ _ _ _ Cert.KernelIdeal.Gen.shapeCasts_S32_S1x32]
  rfl

end Cert.ReferenceIdeal.Bridge

end
-- ==== Proof.lean ====
/-
  Five GCN layers over a graph with self loops: a tiled kernel against a whole-array reference, on the extended reals.

  Both programs build the same edge endpoints, degrees, edge weights and input features with the same whole-array
  operations, and run five layers 6 → 32 → 64 → 64 → 32 → 3. A layer is a matrix product, a gather of the product's
  rows along the edges scaled by the edge weights, a scatter-add at the edges' targets, a bias and (but for the last
  layer) a maximum with zero. The kernel computes the product and the bias step in tiled regions of ten blocks of
  10000 rows; the reference computes them on whole arrays. On the extended reals the block products are the rows of
  the whole product (each entry is the same sum over k, narrowing to a shorter float format being the identity), and
  the blockwise bias-and-maximum is the whole-array one, entry by entry; the gathers and scatter-adds are the same
  operations on both sides. So both results are ONE function of the arguments, `Cert.Gcn.network`; no finiteness of
  the inputs is used. The three frames are the programs' runs with the results dropped; the idealization rewrote
  nothing, so there is nothing to preserve.
-/
import proofs.«125373_j36541581754987_1_alg».proof.Defs
import proofs.«125373_j36541581754987_1_alg».proof.Proof.Gen.Kernel
import proofs.«125373_j36541581754987_1_alg».proof.Proof.Gen.Kernel.Frame
import proofs.«125373_j36541581754987_1_alg».proof.Proof.Gen.KernelIdeal
import proofs.«125373_j36541581754987_1_alg».proof.Proof.Gen.KernelIdeal.Frame
import proofs.«125373_j36541581754987_1_alg».proof.Proof.Gen.ReferenceIdeal
import proofs.«125373_j36541581754987_1_alg».proof.Proof.Gen.Pre_finite_inputs
import proofs.«125373_j36541581754987_1_alg».proof.Proof.KernelRun
import proofs.«125373_j36541581754987_1_alg».proof.Proof.KernelValue
import proofs.«125373_j36541581754987_1_alg».proof.Proof.RefRunPatched
import proofs.«125373_j36541581754987_1_alg».proof.Proof.RefBridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- Both idealized programs end with the network of the (agreeing) argument arrays in their result buffers. -/
theorem algebraic : Cert.algebraic_KernelIdeal_ReferenceIdeal := by
  intro m ρ m' ρ' _ hagree
  refine ⟨fun c => Cert.Gcn.network (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13)), ?_, ?_⟩
  · exact (θ_run Cert.KernelIdeal.defs _ _).mono
      (fun r h c => ⟨(h c).1.trans (Cert.KernelIdeal.Walk.result_eq m ρ c), (h c).2⟩)
      (Cert.KernelIdeal.Result.run_result (F := Ideal) m ρ)
  · refine (θ_run Cert.ReferenceIdeal.defs _ _).mono (fun r h c => ⟨(h c).1.trans ?_, (h c).2⟩)
      (Cert.ReferenceIdeal.ValueP.run (F := Ideal) m' ρ')
    obtain ⟨e0, e1, e2, e3, e4, e5, e6, e7, e8, e9, e10, e11, e12, e13⟩ := hagree c
    rw [Cert.ReferenceIdeal.Bridge.result_eq m' c, e0, e1, e2, e3, e4, e5, e6, e7, e8, e9, e10, e11, e12, e13]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
